-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x64 : Shape := ⟨2, ![50000, 64]⟩
abbrev S2x800000 : Shape := ⟨2, ![2, 800000]⟩
abbrev S50000 : Shape := ⟨1, ![50000]⟩
abbrev S192x256 : Shape := ⟨2, ![192, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part5 {F : FTy → Type} [FloatOps F] (main_arg2 : IVec S2x800000 32) (main_arg10 : FVec F S256 .f32) (main_v83 : IVec S_ 1) (main_v84 : FVec F S256 .f32) : IVec S_ 1 :=
  let main_v85 : IVec S256 1 := cmpf .oge main_arg10 main_v84
  let main_c_33 : IVec S_ 1 := constantI S_ 1 1#1
  let main_v86 : IVec S_ 1 := (fun x v => Host.reduce IntOp.andi x v reducesTo_S256_S_d0 h_S_) main_v85 main_c_33
  let main_v87 : IVec S_ 1 := andi main_v83 main_v86
  let main_v88 : IVec S1x800000 32 := (extractStridedSlice S1x800000 ![1, 0] · slices_S2x800000_S1x800000_1_0) main_arg2
  let main_v89 : IVec S800000 32 := shapeCast S800000 main_v88 shapeCasts_S1x800000_S800000
  let main_c_34 : IVec S_ 32 := constantI S_ 32 0#32
  let main_v90 : IVec S800000 32 := broadcastInDim S800000 ![] bcast_S_S800000 main_c_34
  let main_v91 : IVec S800000 1 := cmpi .sge main_v89 main_v90
  let main_c_35 : IVec S_ 1 := constantI S_ 1 1#1
  let main_v92 : IVec S_ 1 := (fun x v => Host.reduce IntOp.andi x v reducesTo_S800000_S_d0 h_S_) main_v91 main_c_35
  let main_v93 : IVec S_ 1 := andi main_v87 main_v92
  main_v93

def fn_part4 {F : FTy → Type} [FloatOps F] (main_arg2 : IVec S2x800000 32) (main_arg10 : FVec F S256 .f32) (main_arg16 : FVec F S64 .f32) (main_arg17 : FVec F S64x128 .f32) (main_arg18 : FVec F S128 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x128 .f32 := Host.absf main_arg17
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_cst_32 : FVec F S_ .f32 := constant S_ .f32 0x00000000#32
  let main_v84 : FVec F S256 .f32 := broadcastInDim S256 ![] bcast_S_S256 main_cst_32
  fn_part5 (F := F) main_arg2 main_arg10 main_v83 main_v84

def fn_part3 {F : FTy → Type} [FloatOps F] (main_arg2 : IVec S2x800000 32) (main_arg10 : FVec F S256 .f32) (main_arg13 : FVec F S128x64 .f32) (main_arg14 : FVec F S64 .f32) (main_arg15 : FVec F S64x64 .f32) (main_arg16 : FVec F S64 .f32) (main_arg17 : FVec F S64x128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg2 main_arg10 main_arg16 main_arg17 main_arg18 main_v63 main_v67

def fn_part2 {F : FTy → Type} [FloatOps F] (main_arg2 : IVec S2x800000 32) (main_arg9 : FVec F S256 .f32) (main_arg10 : FVec F S256 .f32) (main_arg11 : FVec F S256x128 .f32) (main_arg12 : FVec F S128 .f32) (main_arg13 : FVec F S128x64 .f32) (main_arg14 : FVec F S64 .f32) (main_arg15 : FVec F S64x64 .f32) (main_arg16 : FVec F S64 .f32) (main_arg17 : FVec F S64x128 .f32) (main_arg18 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg2 main_arg10 main_arg13 main_arg14 main_arg15 main_arg16 main_arg17 main_arg18 main_v48 main_v49 main_v50

def fn_part1 {F : FTy → Type} [FloatOps F] (main_arg2 : IVec S2x800000 32) (main_arg6 : FVec F S192x256 .f32) (main_arg7 : FVec F S256 .f32) (main_arg8 : FVec F S256 .f32) (main_arg9 : FVec F S256 .f32) (main_arg10 : FVec F S256 .f32) (main_arg11 : FVec F S256x128 .f32) (main_arg12 : FVec F S128 .f32) (main_arg13 : FVec F S128x64 .f32) (main_arg14 : FVec F S64 .f32) (main_arg15 : FVec F S64x64 .f32) (main_arg16 : FVec F S64 .f32) (main_arg17 : FVec F S64x128 .f32) (main_arg18 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S192x256 .f32 := Host.absf main_arg6
  let main_cst_6 : FVec F S_ .f32 := constant S_ .f32 0x7F800000#32
  let main_v20 : FVec F S192x256 .f32 := broadcastInDim S192x256 ![] bcast_S_S192x256 main_cst_6
  let main_v21 : IVec S192x256 1 := cmpf .olt main_v19 main_v20
  let main_c_7 : IVec S_ 1 := constantI S_ 1 1#1
  let main_v22 : IVec S_ 1 := (fun x v => Host.reduce IntOp.andi x v reducesTo_S192x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_v33

def fn {F : FTy → Type} [FloatOps F] (main_arg0 : FVec F S50000x128 .f32) (main_arg1 : FVec F S50000x64 .f32) (main_arg2 : IVec S2x800000 32) (main_arg3 : IVec S50000 32) (main_arg4 : FVec F S192x256 .f32) (main_arg5 : FVec F S256 .f32) (main_arg6 : FVec F S192x256 .f32) (main_arg7 : FVec F S256 .f32) (main_arg8 : FVec F S256 .f32) (main_arg9 : FVec F S256 .f32) (main_arg10 : FVec F S256 .f32) (main_arg11 : FVec F S256x128 .f32) (main_arg12 : FVec F S128 .f32) (main_arg13 : FVec F S128x64 .f32) (main_arg14 : FVec F S64 .f32) (main_arg15 : FVec F S64x64 .f32) (main_arg16 : FVec F S64 .f32) (main_arg17 : FVec F S64x128 .f32) (main_arg18 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S192x256 .f32 := Host.absf main_arg4
  let main_cst_2 : FVec F S_ .f32 := constant S_ .f32 0x7F800000#32
  let main_v10 : FVec F S192x256 .f32 := broadcastInDim S192x256 ![] bcast_S_S192x256 main_cst_2
  let main_v11 : IVec S192x256 1 := cmpf .olt main_v9 main_v10
  let main_c_3 : IVec S_ 1 := constantI S_ 1 1#1
  let main_v12 : IVec S_ 1 := (fun x v => Host.reduce IntOp.andi x v reducesTo_S192x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S50000x64 : Shape := ⟨2, ![50000, 64]⟩
abbrev S2x800000 : Shape := ⟨2, ![2, 800000]⟩
abbrev S50000 : Shape := ⟨1, ![50000]⟩
abbrev S192x256 : Shape := ⟨2, ![192, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S50000x192 : Shape := ⟨2, ![50000, 192]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x193 : Shape := ⟨2, ![50000, 193]⟩
abbrev S800000x1 : Shape := ⟨2, ![800000, 1]⟩
abbrev S800000x193 : Shape := ⟨2, ![800000, 193]⟩
abbrev S1x256 : Shape := ⟨2, ![1, 256]⟩
abbrev S1x128 : Shape := ⟨2, ![1, 128]⟩
abbrev S1x64 : Shape := ⟨2, ![1, 64]⟩
abbrev S5000x192 : Shape := ⟨2, ![5000, 192]⟩
abbrev S5000x1 : Shape := ⟨2, ![5000, 1]⟩
abbrev S5000x128 : Shape := ⟨2, ![5000, 128]⟩
abbrev S5000x256 : Shape := ⟨2, ![5000, 256]⟩
abbrev S5000x64 : Shape := ⟨2, ![5000, 64]⟩

abbrev nBuf : Space → Nat
  | .hbm => 73
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S50000x64, .f32⟩
  | .hbm, ⟨2, _⟩ => ⟨S2x800000, .i32⟩
  | .hbm, ⟨3, _⟩ => ⟨S50000, .i32⟩
  | .hbm, ⟨4, _⟩ => ⟨S192x256, .f32⟩
  | .hbm, ⟨5, _⟩ => ⟨S256, .f32⟩
  | .hbm, ⟨6, _⟩ => ⟨S192x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x128, .f32⟩
  | .hbm, ⟨18, _⟩ => ⟨S128, .f32⟩
  | .hbm, ⟨19, _⟩ => ⟨S50000x192, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S_, .f32⟩
  | .hbm, ⟨25, _⟩ => ⟨S50000x1, .f32⟩
  | .hbm, ⟨26, _⟩ => ⟨S50000x193, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x193, .f32⟩
  | .hbm, ⟨36, _⟩ => ⟨S_, .f32⟩
  | .hbm, ⟨37, _⟩ => ⟨S50000x193, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S50000x193, .f32⟩
  | .hbm, ⟨47, _⟩ => ⟨S50000x192, .f32⟩
  | .hbm, ⟨48, _⟩ => ⟨S50000x1, .f32⟩
  | .hbm, ⟨49, _⟩ => ⟨S50000, .f32⟩
  | .hbm, ⟨50, _⟩ => ⟨S50000x1, .f32⟩
  | .hbm, ⟨51, _⟩ => ⟨S1x256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S1x256, .f32⟩
  | .hbm, ⟨58, _⟩ => ⟨S256, .f32⟩
  | .hbm, ⟨59, _⟩ => ⟨S256, .f32⟩
  | .hbm, ⟨60, _⟩ => ⟨S256, .f32⟩
  | .hbm, ⟨61, _⟩ => ⟨S1x256, .f32⟩
  | .hbm, ⟨62, _⟩ => ⟨S1x128, .f32⟩
  | .hbm, ⟨63, _⟩ => ⟨S1x64, .f32⟩
  | .hbm, ⟨64, _⟩ => ⟨S1x64, .f32⟩
  | .hbm, ⟨65, _⟩ => ⟨S1x128, .f32⟩
  | .hbm, ⟨66, _⟩ => ⟨S192x256, .bf16⟩
  | .hbm, ⟨67, _⟩ => ⟨S192x256, .bf16⟩
  | .hbm, ⟨68, _⟩ => ⟨S256x128, .bf16⟩
  | .hbm, ⟨69, _⟩ => ⟨S128x64, .bf16⟩
  | .hbm, ⟨70, _⟩ => ⟨S64x64, .bf16⟩
  | .hbm, ⟨71, _⟩ => ⟨S64x128, .bf16⟩
  | .hbm, ⟨72, _⟩ => ⟨S50000x128, .f32⟩
  | .local _ .vmem, ⟨0, _⟩ => ⟨S5000x192, .f32⟩
  | .local _ .vmem, ⟨1, _⟩ => ⟨S5000x192, .f32⟩
  | .local _ .vmem, ⟨2, _⟩ => ⟨S5000x192, .f32⟩
  | .local _ .vmem, ⟨3, _⟩ => ⟨S5000x192, .f32⟩
  | .local _ .vmem, ⟨4, _⟩ => ⟨S5000x1, .f32⟩
  | .local _ .vmem, ⟨5, _⟩ => ⟨S5000x1, .f32⟩
  | .local _ .vmem, ⟨6, _⟩ => ⟨S192x256, .bf16⟩
  | .local _ .vmem, ⟨7, _⟩ => ⟨S1x256, .f32⟩
  | .local _ .vmem, ⟨8, _⟩ => ⟨S192x256, .bf16⟩
  | .local _ .vmem, ⟨9, _⟩ => ⟨S1x256, .f32⟩
  | .local _ .vmem, ⟨10, _⟩ => ⟨S1x256, .f32⟩
  | .local _ .vmem, ⟨11, _⟩ => ⟨S256x128, .bf16⟩
  | .local _ .vmem, ⟨12, _⟩ => ⟨S1x128, .f32⟩
  | .local _ .vmem, ⟨13, _⟩ => ⟨S128x64, .bf16⟩
  | .local _ .vmem, ⟨14, _⟩ => ⟨S1x64, .f32⟩
  | .local _ .vmem, ⟨15, _⟩ => ⟨S64x64, .bf16⟩
  | .local _ .vmem, ⟨16, _⟩ => ⟨S1x64, .f32⟩
  | .local _ .vmem, ⟨17, _⟩ => ⟨S64x128, .bf16⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_v7 : Ref sig .tc := ⟨.hbm, 28, rfl⟩
abbrev main_v8 : Ref sig .tc := ⟨.hbm, 29, rfl⟩
abbrev main_c_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_c_2 : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S5000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  concatenates_S50000x128_S50000x64_S50000x192_d1 : Shape.Concatenates [S50000x128, S50000x64] S50000x192 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x1 : S_.BroadcastsInDim S50000x1 (![] : Fin 0 → Fin S50000x1.rank)
  concatenates_S50000x192_S50000x1_S50000x193_d1 : Shape.Concatenates [S50000x192, S50000x1] S50000x193 1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x193 : S_.BroadcastsInDim S50000x193 (![] : Fin 0 → Fin S50000x193.rank)
  slices_S50000x193_S50000x192_0_0 : S50000x193.Slices ![0, 0] S50000x192
  slices_S50000x193_S50000x1_0_192 : S50000x193.Slices ![0, 192] S50000x1
  shapeCasts_S50000x1_S50000 : S50000x1.ShapeCasts S50000
  shapeCasts_S50000_S50000x1 : S50000.ShapeCasts S50000x1
  shapeCasts_S256_S1x256 : S256.ShapeCasts S1x256
  bcast_S_S256 : S_.BroadcastsInDim S256 (![] : Fin 0 → Fin S256.rank)
  shapeCasts_S128_S1x128 : S128.ShapeCasts S1x128
  shapeCasts_S64_S1x64 : S64.ShapeCasts S1x64
  bitsLt_bf16_f32 : FTy.bits .bf16 < FTy.bits .f32
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x192 : S5000x1.Broadcasts S5000x192
  inb_S192x256_S192x256_0_0 : ∀ a, (![0, 0] : Fin 2 → Nat) a + S192x256.size a ≤ S192x256.size a
  h_S192x256 : 0 < S192x256.numel
  shapeCasts_S192x256_S192x256 : S192x256.ShapeCasts S192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x128_S5000x128_0_0 : ∀ a, (![0, 0] : Fin 2 → Nat) a + S5000x128.size a ≤ S5000x128.size a
  h_S5000x128 : 0 < S5000x128.numel
  gather_S50000x193_S800000x1_S800000x193_1_0_n_n_0_1_1193_wf : GatherDims.WF S50000x193 S800000x1 S800000x193 [1] [0] [] [0] [] 1 ![1, 193]
  scatter_S50000x193_S800000x1_S800000x193_1_0_0_1_wf : ScatterDims.WF S50000x193 S800000x1 S800000x193 [1] [0] [0] 1
  dot_S5000x192_S192x256_S5000x256_1_0_0_1_n_n_wf : DotDims.WF S5000x192 S192x256 S5000x256 [1] [0] [0] [1] [] []
  dot_S5000x256_S256x128_S5000x128_1_0_0_1_n_n_wf : DotDims.WF S5000x256 S256x128 S5000x128 [1] [0] [0] [1] [] []
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x192.size a ≤ S50000x192.size a
  hwx0_0 : ∀ i : grid0.Coords, EltTy.bits .f32 = 32 ∨ (Rect.block (s := S50000x192) S5000x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x192.size a ≤ S50000x192.size a
  hwx0_1 : ∀ i : grid0.Coords, EltTy.bits .f32 = 32 ∨ (Rect.block (s := S50000x192) S5000x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x256.size a ≤ S192x256.size a
  hwx0_3 : ∀ i : grid0.Coords, EltTy.bits .bf16 = 32 ∨ (Rect.block (s := S192x256) S192x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x256.size a ≤ S192x256.size a
  hwx0_5 : ∀ i : grid0.Coords, EltTy.bits .bf16 = 32 ∨ (Rect.block (s := S192x256) S192x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .bf16 = 32 ∨ (Rect.block (s := S128x64) S128x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x64.size a ≤ S64x64.size a
  hwx0_12 : ∀ i : grid0.Coords, EltTy.bits .bf16 = 32 ∨ (Rect.block (s := S64x64) S64x64.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x128.size a ≤ S64x128.size a
  hwx0_14 : ∀ i : grid0.Coords, EltTy.bits .bf16 = 32 ∨ (Rect.block (s := S64x128) S64x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S5000x128.size a ≤ S50000x128.size a
  hwx0_16 : ∀ i : grid0.Coords, EltTy.bits .f32 = 32 ∨ (Rect.block (s := S50000x128) S5000x128.size (cc0_transform_16 i) (hinb0_16 i)).WholeWords (EltTy.packing .f32)

variable [Facts₀]

def gather_S50000x193_S800000x1_S800000x193_1_0_n_n_0_1_1193 : GatherDims S50000x193 S800000x1 S800000x193 where
  offsetDims := [1]
  collapsedSliceDims := [0]
  operandBatchingDims := []
  startIndicesBatchingDims := []
  startIndexMap := [0]
  indexVectorDim := 1
  sliceSizes := ![1, 193]
  wf := gather_S50000x193_S800000x1_S800000x193_1_0_n_n_0_1_1193_wf
def scatter_S50000x193_S800000x1_S800000x193_1_0_0_1 : ScatterDims S50000x193 S800000x1 S800000x193 where
  updateWindowDims := [1]
  insertedWindowDims := [0]
  scatterDimsToOperandDims := [0]
  indexVectorDim := 1
  wf := scatter_S50000x193_S800000x1_S800000x193_1_0_0_1_wf
def dot_S5000x192_S192x256_S5000x256_1_0_0_1_n_n : DotDims S5000x192 S192x256 S5000x256 where
  lhsContracting := [1]
  rhsContracting := [0]
  lhsNonContracting := [0]
  rhsNonContracting := [1]
  lhsBatch := []
  rhsBatch := []
  wf := dot_S5000x192_S192x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_v0) S5000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S192x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S192x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v44) S64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v38) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v45) S64x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v39) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v46) S5000x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x64 : Shape := ⟨2, ![50000, 64]⟩
abbrev S2x800000 : Shape := ⟨2, ![2, 800000]⟩
abbrev S50000 : Shape := ⟨1, ![50000]⟩
abbrev S192x256 : Shape := ⟨2, ![192, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S50000x192 : Shape := ⟨2, ![50000, 192]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S50000x1 : Shape := ⟨2, ![50000, 1]⟩
abbrev S50000x256 : Shape := ⟨2, ![50000, 256]⟩
abbrev S1x256 : Shape := ⟨2, ![1, 256]⟩
abbrev S1x128 : Shape := ⟨2, ![1, 128]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x64, .f32⟩
  | .hbm, ⟨2, _⟩ => ⟨S2x800000, .i32⟩
  | .hbm, ⟨3, _⟩ => ⟨S50000, .i32⟩
  | .hbm, ⟨4, _⟩ => ⟨S192x256, .f32⟩
  | .hbm, ⟨5, _⟩ => ⟨S256, .f32⟩
  | .hbm, ⟨6, _⟩ => ⟨S192x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x128, .f32⟩
  | .hbm, ⟨18, _⟩ => ⟨S128, .f32⟩
  | .hbm, ⟨19, _⟩ => ⟨S50000x192, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x192, .f32⟩
  | .hbm, ⟨33, _⟩ => ⟨S_, .f32⟩
  | .hbm, ⟨34, _⟩ => ⟨S50000x192, .f32⟩
  | .hbm, ⟨35, _⟩ => ⟨S800000x1, .i32⟩
  | .hbm, ⟨36, _⟩ => ⟨S50000x192, .f32⟩
  | .hbm, ⟨37, _⟩ => ⟨S_, .f32⟩
  | .hbm, ⟨38, _⟩ => ⟨S800000, .f32⟩
  | .hbm, ⟨39, _⟩ => ⟨S_, .f32⟩
  | .hbm, ⟨40, _⟩ => ⟨S50000, .f32⟩
  | .hbm, ⟨41, _⟩ => ⟨S800000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x192, .f32⟩
  | .hbm, ⟨48, _⟩ => ⟨S50000x192, .f32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S1x256, .f32⟩
  | .hbm, ⟨56, _⟩ => ⟨S50000x256, .f32⟩
  | .hbm, ⟨57, _⟩ => ⟨S50000x256, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .i1⟩
  | .hbm, ⟨74, _⟩ => ⟨S_, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .i1⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | .hbm, ⟨93, _⟩ => ⟨S_, .f32⟩
  | .hbm, ⟨94, _⟩ => ⟨S50000x64, .f32⟩
  | .hbm, ⟨95, _⟩ => ⟨S50000x64, .i1⟩
  | .hbm, ⟨96, _⟩ => ⟨S_, .f32⟩
  | .hbm, ⟨97, _⟩ => ⟨S50000x64, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | .hbm, ⟨104, _⟩ => ⟨S_, .f32⟩
  | .hbm, ⟨105, _⟩ => ⟨S50000x64, .f32⟩
  | .hbm, ⟨106, _⟩ => ⟨S50000x64, .i1⟩
  | .hbm, ⟨107, _⟩ => ⟨S_, .f32⟩
  | .hbm, ⟨108, _⟩ => ⟨S50000x64, .f32⟩
  | .hbm, ⟨109, _⟩ => ⟨S50000x64, .f32⟩
  | .hbm, ⟨110, _⟩ => ⟨S50000x64, .f32⟩
  | .hbm, ⟨111, _⟩ => ⟨S50000x128, .f32⟩
  | .hbm, ⟨112, _⟩ => ⟨S1x128, .f32⟩
  | .hbm, ⟨113, _⟩ => ⟨S50000x128, .f32⟩
  | .hbm, ⟨114, _⟩ => ⟨S50000x128, .f32⟩
  | .hbm, ⟨115, _⟩ => ⟨S_, .f32⟩
  | .hbm, ⟨116, _⟩ => ⟨S50000x128, .f32⟩
  | .hbm, ⟨117, _⟩ => ⟨S50000x128, .i1⟩
  | .hbm, ⟨118, _⟩ => ⟨S_, .f32⟩
  | .hbm, ⟨119, _⟩ => ⟨S50000x128, .f32⟩
  | .hbm, ⟨120, _⟩ => ⟨S50000x128, .f32⟩
  | .hbm, ⟨121, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_cst_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_7 : Ref sig .tc := ⟨.hbm, 82, rfl⟩
abbrev main_v54 : Ref sig .tc := ⟨.hbm, 83, rfl⟩
abbrev main_v55 : Ref sig .tc := ⟨.hbm, 84, rfl⟩
abbrev main_cst_8 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_9 : Ref sig .tc := ⟨.hbm, 93, rfl⟩
abbrev main_v63 : Ref sig .tc := ⟨.hbm, 94, rfl⟩
abbrev main_v64 : Ref sig .tc := ⟨.hbm, 95, rfl⟩
abbrev main_cst_10 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_11 : Ref sig .tc := ⟨.hbm, 104, rfl⟩
abbrev main_v72 : Ref sig .tc := ⟨.hbm, 105, rfl⟩
abbrev main_v73 : Ref sig .tc := ⟨.hbm, 106, rfl⟩
abbrev main_cst_12 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_13 : Ref sig .tc := ⟨.hbm, 115, rfl⟩
abbrev main_v81 : Ref sig .tc := ⟨.hbm, 116, rfl⟩
abbrev main_v82 : Ref sig .tc := ⟨.hbm, 117, rfl⟩
abbrev main_cst_14 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]

class Facts₀ : Prop where
  concatenates_S50000x128_S50000x64_S50000x192_d1 : Shape.Concatenates [S50000x128, S50000x64] S50000x192 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x192 : S_.BroadcastsInDim S50000x192 (![] : Fin 0 → Fin S50000x192.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x192_0_1 : S50000x1.BroadcastsInDim S50000x192 (![0, 1] : Fin 2 → Fin S50000x192.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  scatter_S50000_S800000x1_S800000_n_0_0_1_wf : ScatterDims.WF S50000 S800000x1 S800000 [] [0] [0] 1
  dot_S50000x192_S192x256_S50000x256_1_0_0_1_n_n_wf : DotDims.WF S50000x192 S192x256 S50000x256 [1] [0] [0] [1] [] []
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  dot_S50000x64_S64x128_S50000x128_1_0_0_1_n_n_wf : DotDims.WF S50000x64 S64x128 S50000x128 [1] [0] [0] [1] [] []

variable [Facts₀]

def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x192_S192x256_S50000x256_1_0_0_1_n_n : DotDims S50000x192 S192x256 S50000x256 where
  lhsContracting := [1]
  rhsContracting := [0]
  lhsNonContracting := [0]
  rhsNonContracting := [1]
  lhsBatch := []
  rhsBatch := []
  wf := dot_S50000x192_S192x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.KernelIndexMaps.lean ====
/-
  The printed index maps, decided over the ten grid points: the row-tiled windows (0, 1, 2 and the output 16) sit at block
  `(t, 0)`, every parameter window at block `(0, 0)`.
-/
import proofs.«165086_j36945308680832_2_alg».proof.Proof.Gen.KernelIdeal.Launch

noncomputable section

namespace Cert.KernelValue

open Cert.KernelIdeal Cert.KernelIdeal.Gen Idealize.ShloMosaic

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem idx13 : ∀ t : Fin cfg0.N, win0_13.index t (0 : Fin 2) = 0 ∧ win0_13.index t (1 : Fin 2) = 0 :=
  (by decide +kernel : ∀ t : Fin grid0.N, _)

theorem idx14 : ∀ t : Fin cfg0.N, win0_14.index t (0 : Fin 2) = 0 ∧ win0_14.index t (1 : Fin 2) = 0 :=
  (by decide +kernel : ∀ t : Fin grid0.N, _)

theorem idx15 : ∀ t : Fin cfg0.N, win0_15.index t (0 : Fin 2) = 0 ∧ win0_15.index t (1 : Fin 2) = 0 :=
  (by decide +kernel : ∀ t : Fin grid0.N, _)

theorem idx16 : ∀ t : Fin cfg0.N, win0_16.index t (0 : Fin 2) = t.val ∧ win0_16.index t (1 : Fin 2) = 0 :=
  (by decide +kernel : ∀ t : Fin grid0.N, _)

end Cert.KernelValue

end
-- ==== Proof.KernelBlocksA.lean ====
/-
  The windows' blocks, read at an entry.

  The grid has ten points; point `t` works on nodes `5000·t … 5000·t + 4999`. The printed index maps, decided over the ten
  points, put the three row-tiled operands' blocks (and the output's) at block `(t, 0)` and every parameter's block at
  `(0, 0)`: so entry `(p, k)` of a row-tiled block is entry `(5000·t + p, k)` of its array, and a parameter's block is
  its whole array.
-/
import proofs.«165086_j36945308680832_2_alg».proof.Proof.Gen.KernelIdeal.Frame
import proofs.«165086_j36945308680832_2_alg».proof.Proof.KernelIndexMaps
import Idealize.ShloMosaic.Lib.Pipeline.Value
import Idealize.ShloMosaic.Lib.ValueIdx
import Idealize.ShloMosaic.PureOps.Ideal

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Window 0's block at point `t` is rows `5000·t … 5000·t + 4999` of its array (the array named `X`). -/
theorem blk0 (c : Dev nD) (t : Fin cfg0.N) (p : Fin 5000) (k : Fin 192) (n : Fin 50000) (hn : n.val = t.val * 5000 + p.val)
    (X : S50000x192.Idx → EReal) (hX : (V m c (Pipeline.arrRef spec0 0) : S50000x192.Idx → EReal) = X) :
    (iblk m c 0 t : FVec Ideal S5000x192 .f32) (ix2 p k) = X (ix2 n k) := by
  obtain ⟨e0, e1⟩ := idx0 t
  unfold iblk
  rw [hX, View.read_apply]
  refine congrArg X (funext fun a => Fin.ext ?_)
  match a with
  | ⟨0, _⟩ => show win0_0.index t 0 * 5000 + 1 * p.val = n.val; rw [e0, hn]; omega
  | ⟨1, _⟩ => show win0_0.index t 1 * 192 + 1 * k.val = k.val; rw [e1]; omega

/-- Window 1's block at point `t` is rows `5000·t … 5000·t + 4999` of its array (the array named `A`). -/
theorem blk1 (c : Dev nD) (t : Fin cfg0.N) (p : Fin 5000) (k : Fin 192) (n : Fin 50000) (hn : n.val = t.val * 5000 + p.val)
    (A : S50000x192.Idx → EReal) (hA : (V m c (Pipeline.arrRef spec0 1) : S50000x192.Idx → EReal) = A) :
    (iblk m c 1 t : FVec Ideal S5000x192 .f32) (ix2 p k) = A (ix2 n k) := by
  obtain ⟨e0, e1⟩ := idx1 t
  unfold iblk
  rw [hA, View.read_apply]
  refine congrArg A (funext fun a => Fin.ext ?_)
  match a with
  | ⟨0, _⟩ => show win0_1.index t 0 * 5000 + 1 * p.val = n.val; rw [e0, hn]; omega
  | ⟨1, _⟩ => show win0_1.index t 1 * 192 + 1 * k.val = k.val; rw [e1]; omega

/-- Window 2's block at point `t` is rows `5000·t … 5000·t + 4999` of its array (the array named `D`). -/
theorem blk2 (c : Dev nD) (t : Fin cfg0.N) (p : Fin 5000) (k : Fin 1) (n : Fin 50000) (hn : n.val = t.val * 5000 + p.val)
    (D : S50000x1.Idx → EReal) (hD : (V m c (Pipeline.arrRef spec0 2) : S50000x1.Idx → EReal) = D) :
    (iblk m c 2 t : FVec Ideal S5000x1 .f32) (ix2 p k) = D (ix2 n k) := by
  obtain ⟨e0, e1⟩ := idx2 t
  unfold iblk
  rw [hD, View.read_apply]
  refine congrArg D (funext fun a => Fin.ext ?_)
  match a with
  | ⟨0, _⟩ => show win0_2.index t 0 * 5000 + 1 * p.val = n.val; rw [e0, hn]; omega
  | ⟨1, _⟩ => show win0_2.index t 1 * 1 + 1 * k.val = k.val; rw [e1]; omega

/-- Window 3's block at every point is its whole array. -/
theorem blk3 (c : Dev nD) (t : Fin cfg0.N) (a : Fin 192) (b : Fin 256) :
    (iblk m c 3 t : FVec Ideal S192x256 .bf16) (ix2 a b) = (V m c main_v40 : S192x256.Idx → EReal) (ix2 a b) := by
  obtain ⟨e0, e1⟩ := idx3 t
  unfold iblk
  rw [View.read_apply]
  show V m c main_v40 _ = V m c main_v40 _
  refine congrArg (V m c main_v40 : S192x256.Idx → EReal) (funext fun a' => Fin.ext ?_)
  match a' with
  | ⟨0, _⟩ => show win0_3.index t 0 * 192 + 1 * a.val = a.val; rw [e0]; omega
  | ⟨1, _⟩ => show win0_3.index t 1 * 256 + 1 * b.val = b.val; rw [e1]; omega

end Cert.KernelValue

end
-- ==== Proof.KernelBlocksB.lean ====
/-
  The windows' blocks, read at an entry.

  The grid has ten points; point `t` works on nodes `5000·t … 5000·t + 4999`. The printed index maps, decided over the ten
  points, put the three row-tiled operands' blocks (and the output's) at block `(t, 0)` and every parameter's block at
  `(0, 0)`: so entry `(p, k)` of a row-tiled block is entry `(5000·t + p, k)` of its array, and a parameter's block is
  its whole array.
-/
import proofs.«165086_j36945308680832_2_alg».proof.Proof.Gen.KernelIdeal.Frame
import proofs.«165086_j36945308680832_2_alg».proof.Proof.KernelIndexMaps
import Idealize.ShloMosaic.Lib.Pipeline.Value
import Idealize.ShloMosaic.Lib.ValueIdx
import Idealize.ShloMosaic.PureOps.Ideal

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Window 4's block at every point is its whole array. -/
theorem blk4 (c : Dev nD) (t : Fin cfg0.N) (a : Fin 1) (b : Fin 256) :
    (iblk m c 4 t : FVec Ideal S1x256 .f32) (ix2 a b) = (V m c main_v26 : S1x256.Idx → EReal) (ix2 a b) := by
  obtain ⟨e0, e1⟩ := idx4 t
  unfold iblk
  rw [View.read_apply]
  show V m c main_v26 _ = V m c main_v26 _
  refine congrArg (V m c main_v26 : S1x256.Idx → EReal) (funext fun a' => Fin.ext ?_)
  match a' with
  | ⟨0, _⟩ => show win0_4.index t 0 * 1 + 1 * a.val = a.val; rw [e0]; omega
  | ⟨1, _⟩ => show win0_4.index t 1 * 256 + 1 * b.val = b.val; rw [e1]; omega

/-- Window 5's block at every point is its whole array. -/
theorem blk5 (c : Dev nD) (t : Fin cfg0.N) (a : Fin 192) (b : Fin 256) :
    (iblk m c 5 t : FVec Ideal S192x256 .bf16) (ix2 a b) = (V m c main_v41 : S192x256.Idx → EReal) (ix2 a b) := by
  obtain ⟨e0, e1⟩ := idx5 t
  unfold iblk
  rw [View.read_apply]
  show V m c main_v41 _ = V m c main_v41 _
  refine congrArg (V m c main_v41 : S192x256.Idx → EReal) (funext fun a' => Fin.ext ?_)
  match a' with
  | ⟨0, _⟩ => show win0_5.index t 0 * 192 + 1 * a.val = a.val; rw [e0]; omega
  | ⟨1, _⟩ => show win0_5.index t 1 * 256 + 1 * b.val = b.val; rw [e1]; omega

/-- Window 6's block at every point is its whole array. -/
theorem blk6 (c : Dev nD) (t : Fin cfg0.N) (a : Fin 1) (b : Fin 256) :
    (iblk m c 6 t : FVec Ideal S1x256 .f32) (ix2 a b) = (V m c main_v31 : S1x256.Idx → EReal) (ix2 a b) := by
  obtain ⟨e0, e1⟩ := idx6 t
  unfold iblk
  rw [View.read_apply]
  show V m c main_v31 _ = V m c main_v31 _
  refine congrArg (V m c main_v31 : S1x256.Idx → EReal) (funext fun a' => Fin.ext ?_)
  match a' with
  | ⟨0, _⟩ => show win0_6.index t 0 * 1 + 1 * a.val = a.val; rw [e0]; omega
  | ⟨1, _⟩ => show win0_6.index t 1 * 256 + 1 * b.val = b.val; rw [e1]; omega

/-- Window 7's block at every point is its whole array. -/
theorem blk7 (c : Dev nD) (t : Fin cfg0.N) (a : Fin 1) (b : Fin 256) :
    (iblk m c 7 t : FVec Ideal S1x256 .f32) (ix2 a b) = (V m c main_v35 : S1x256.Idx → EReal) (ix2 a b) := by
  obtain ⟨e0, e1⟩ := idx7 t
  unfold iblk
  rw [View.read_apply]
  show V m c main_v35 _ = V m c main_v35 _
  refine congrArg (V m c main_v35 : S1x256.Idx → EReal) (funext fun a' => Fin.ext ?_)
  match a' with
  | ⟨0, _⟩ => show win0_7.index t 0 * 1 + 1 * a.val = a.val; rw [e0]; omega
  | ⟨1, _⟩ => show win0_7.index t 1 * 256 + 1 * b.val = b.val; rw [e1]; omega

end Cert.KernelValue

end
-- ==== Proof.KernelBlocksC.lean ====
/-
  The windows' blocks, read at an entry.

  The grid has ten points; point `t` works on nodes `5000·t … 5000·t + 4999`. The printed index maps, decided over the ten
  points, put the three row-tiled operands' blocks (and the output's) at block `(t, 0)` and every parameter's block at
  `(0, 0)`: so entry `(p, k)` of a row-tiled block is entry `(5000·t + p, k)` of its array, and a parameter's block is
  its whole array.
-/
import proofs.«165086_j36945308680832_2_alg».proof.Proof.Gen.KernelIdeal.Frame
import proofs.«165086_j36945308680832_2_alg».proof.Proof.KernelIndexMaps
import Idealize.ShloMosaic.Lib.Pipeline.Value
import Idealize.ShloMosaic.Lib.ValueIdx
import Idealize.ShloMosaic.PureOps.Ideal

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Window 8's block at every point is its whole array. -/
theorem blk8 (c : Dev nD) (t : Fin cfg0.N) (a : Fin 256) (b : Fin 128) :
    (iblk m c 8 t : FVec Ideal S256x128 .bf16) (ix2 a b) = (V m c main_v42 : S256x128.Idx → EReal) (ix2 a b) := by
  obtain ⟨e0, e1⟩ := idx8 t
  unfold iblk
  rw [View.read_apply]
  show V m c main_v42 _ = V m c main_v42 _
  refine congrArg (V m c main_v42 : S256x128.Idx → EReal) (funext fun a' => Fin.ext ?_)
  match a' with
  | ⟨0, _⟩ => show win0_8.index t 0 * 256 + 1 * a.val = a.val; rw [e0]; omega
  | ⟨1, _⟩ => show win0_8.index t 1 * 128 + 1 * b.val = b.val; rw [e1]; omega

/-- Window 9's block at every point is its whole array. -/
theorem blk9 (c : Dev nD) (t : Fin cfg0.N) (a : Fin 1) (b : Fin 128) :
    (iblk m c 9 t : FVec Ideal S1x128 .f32) (ix2 a b) = (V m c main_v36 : S1x128.Idx → EReal) (ix2 a b) := by
  obtain ⟨e0, e1⟩ := idx9 t
  unfold iblk
  rw [View.read_apply]
  show V m c main_v36 _ = V m c main_v36 _
  refine congrArg (V m c main_v36 : S1x128.Idx → EReal) (funext fun a' => Fin.ext ?_)
  match a' with
  | ⟨0, _⟩ => show win0_9.index t 0 * 1 + 1 * a.val = a.val; rw [e0]; omega
  | ⟨1, _⟩ => show win0_9.index t 1 * 128 + 1 * b.val = b.val; rw [e1]; omega

/-- Window 10's block at every point is its whole array. -/
theorem blk10 (c : Dev nD) (t : Fin cfg0.N) (a : Fin 128) (b : Fin 64) :
    (iblk m c 10 t : FVec Ideal S128x64 .bf16) (ix2 a b) = (V m c main_v43 : S128x64.Idx → EReal) (ix2 a b) := by
  obtain ⟨e0, e1⟩ := idx10 t
  unfold iblk
  rw [View.read_apply]
  show V m c main_v43 _ = V m c main_v43 _
  refine congrArg (V m c main_v43 : S128x64.Idx → EReal) (funext fun a' => Fin.ext ?_)
  match a' with
  | ⟨0, _⟩ => show win0_10.index t 0 * 128 + 1 * a.val = a.val; rw [e0]; omega
  | ⟨1, _⟩ => show win0_10.index t 1 * 64 + 1 * b.val = b.val; rw [e1]; omega

/-- Window 11's block at every point is its whole array. -/
theorem blk11 (c : Dev nD) (t : Fin cfg0.N) (a : Fin 1) (b : Fin 64) :
    (iblk m c 11 t : FVec Ideal S1x64 .f32) (ix2 a b) = (V m c main_v37 : S1x64.Idx → EReal) (ix2 a b) := by
  obtain ⟨e0, e1⟩ := idx11 t
  unfold iblk
  rw [View.read_apply]
  show V m c main_v37 _ = V m c main_v37 _
  refine congrArg (V m c main_v37 : S1x64.Idx → EReal) (funext fun a' => Fin.ext ?_)
  match a' with
  | ⟨0, _⟩ => show win0_11.index t 0 * 1 + 1 * a.val = a.val; rw [e0]; omega
  | ⟨1, _⟩ => show win0_11.index t 1 * 64 + 1 * b.val = b.val; rw [e1]; omega

end Cert.KernelValue

end
-- ==== Proof.KernelBlocksD.lean ====
/-
  The windows' blocks, read at an entry.

  The grid has ten points; point `t` works on nodes `5000·t … 5000·t + 4999`. The printed index maps, decided over the ten
  points, put the three row-tiled operands' blocks (and the output's) at block `(t, 0)` and every parameter's block at
  `(0, 0)`: so entry `(p, k)` of a row-tiled block is entry `(5000·t + p, k)` of its array, and a parameter's block is
  its whole array.
-/
import proofs.«165086_j36945308680832_2_alg».proof.Proof.Gen.KernelIdeal.Frame
import proofs.«165086_j36945308680832_2_alg».proof.Proof.KernelIndexMaps
import Idealize.ShloMosaic.Lib.Pipeline.Value
import Idealize.ShloMosaic.Lib.ValueIdx
import Idealize.ShloMosaic.PureOps.Ideal

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Window 12's block at every point is its whole array. -/
theorem blk12 (c : Dev nD) (t : Fin cfg0.N) (a : Fin 64) (b : Fin 64) :
    (iblk m c 12 t : FVec Ideal S64x64 .bf16) (ix2 a b) = (V m c main_v44 : S64x64.Idx → EReal) (ix2 a b) := by
  obtain ⟨e0, e1⟩ := idx12 t
  unfold iblk
  rw [View.read_apply]
  show V m c main_v44 _ = V m c main_v44 _
  refine congrArg (V m c main_v44 : S64x64.Idx → EReal) (funext fun a' => Fin.ext ?_)
  match a' with
  | ⟨0, _⟩ => show win0_12.index t 0 * 64 + 1 * a.val = a.val; rw [e0]; omega
  | ⟨1, _⟩ => show win0_12.index t 1 * 64 + 1 * b.val = b.val; rw [e1]; omega

/-- Window 13's block at every point is its whole array. -/
theorem blk13 (c : Dev nD) (t : Fin cfg0.N) (a : Fin 1) (b : Fin 64) :
    (iblk m c 13 t : FVec Ideal S1x64 .f32) (ix2 a b) = (V m c main_v38 : S1x64.Idx → EReal) (ix2 a b) := by
  obtain ⟨e0, e1⟩ := idx13 t
  unfold iblk
  rw [View.read_apply]
  show V m c main_v38 _ = V m c main_v38 _
  refine congrArg (V m c main_v38 : S1x64.Idx → EReal) (funext fun a' => Fin.ext ?_)
  match a' with
  | ⟨0, _⟩ => show win0_13.index t 0 * 1 + 1 * a.val = a.val; rw [e0]; omega
  | ⟨1, _⟩ => show win0_13.index t 1 * 64 + 1 * b.val = b.val; rw [e1]; omega

/-- Window 14's block at every point is its whole array. -/
theorem blk14 (c : Dev nD) (t : Fin cfg0.N) (a : Fin 64) (b : Fin 128) :
    (iblk m c 14 t : FVec Ideal S64x128 .bf16) (ix2 a b) = (V m c main_v45 : S64x128.Idx → EReal) (ix2 a b) := by
  obtain ⟨e0, e1⟩ := idx14 t
  unfold iblk
  rw [View.read_apply]
  show V m c main_v45 _ = V m c main_v45 _
  refine congrArg (V m c main_v45 : S64x128.Idx → EReal) (funext fun a' => Fin.ext ?_)
  match a' with
  | ⟨0, _⟩ => show win0_14.index t 0 * 64 + 1 * a.val = a.val; rw [e0]; omega
  | ⟨1, _⟩ => show win0_14.index t 1 * 128 + 1 * b.val = b.val; rw [e1]; omega

/-- Window 15's block at every point is its whole array. -/
theorem blk15 (c : Dev nD) (t : Fin cfg0.N) (a : Fin 1) (b : Fin 128) :
    (iblk m c 15 t : FVec Ideal S1x128 .f32) (ix2 a b) = (V m c main_v39 : S1x128.Idx → EReal) (ix2 a b) := by
  obtain ⟨e0, e1⟩ := idx15 t
  unfold iblk
  rw [View.read_apply]
  show V m c main_v39 _ = V m c main_v39 _
  refine congrArg (V m c main_v39 : S1x128.Idx → EReal) (funext fun a' => Fin.ext ?_)
  match a' with
  | ⟨0, _⟩ => show win0_15.index t 0 * 1 + 1 * a.val = a.val; rw [e0]; omega
  | ⟨1, _⟩ => show win0_15.index t 1 * 128 + 1 * b.val = b.val; rw [e1]; omega

end Cert.KernelValue

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.Rows.lean ====
/-
  One node's row through the network, on the extended reals.

  Every output row depends on one row of the features `x`, one row of the neighbourhood sum `a` and that node's
  in-degree `d`:
    combine  c = Σ_k (a k / max d 1) · Wl k c + bl c + Σ_k x k · Wr k c            (mean aggregation, two products)
    batch norm, leaky ReLU, then four dense layers  v ↦ lrelu (Σ_k v k · W k c + b c).
  The batch norm is written in two arrangements: FOLDED to one affine map, `h · (γ·r) + (β − (μ·γ)·r)`, and PLAIN,
  `((h − μ)·r)·γ + β`, with `r` the reciprocal square root of the variance plus ε. For real γ, β, μ and real
  positive `r` they agree at EVERY extended real `h`: at a real `h` by distributivity, and at ±∞ both are the
  infinity of the sign of ±γ (or β when γ = 0).
-/
import Idealize.ShloMosaic.PureOps.Ideal

noncomputable section

open scoped BigOperators

namespace Cert.Rows

open Idealize.ShloMosaic

/-- The leaky ReLU as both programs compute it: compare with the zero word, keep `v` or scale it by the slope
    word (the f32 nearest 0.2). The words are never evaluated: both programs carry the same ones. -/
def lrelu (v : EReal) : EReal :=
  Scalar.select (Ideal.cmp .oge v (Ideal.ofBits .f32 0x00000000#32)) v (Ideal.ofBits .f32 0x3E4CCCCD#32 * v)

/-- One dense layer on a row: `lrelu (Σ_k v k · W k c + b c)`. -/
def dense {K C : Nat} (v : Fin K → EReal) (W : Fin K → Fin C → EReal) (b : Fin C → EReal) (c : Fin C) : EReal :=
  lrelu ((∑ k : Fin K, v k * W k c) + b c)

/-- The graph layer before normalisation: the mean of the neighbours' rows (the sum `a` divided by the degree,
    at least one) times `Wl`, plus the bias, plus the node's own row times `Wr`. -/
def combine {K C : Nat} (x a : Fin K → EReal) (d : EReal) (Wl : Fin K → Fin C → EReal) (bl : Fin C → EReal)
    (Wr : Fin K → Fin C → EReal) (c : Fin C) : EReal :=
  ((∑ k : Fin K, Ideal.div (a k) (max d (Ideal.ofBits .f32 0x3F800000#32)) * Wl k c) + bl c)
    + ∑ k : Fin K, x k * Wr k c

/-- The batch norm folded to one affine map, then the leaky ReLU. -/
def normFolded {C : Nat} (h : Fin C → EReal) (scale shift : Fin C → EReal) (c : Fin C) : EReal :=
  lrelu (h c * scale c + shift c)

/-- The batch norm as written, then the leaky ReLU. -/
def normPlain {C : Nat} (h : Fin C → EReal) (μ r γ β : Fin C → EReal) (c : Fin C) : EReal :=
  lrelu (((h c - μ c) * r c) * γ c + β c)

/-- THE LAW joining the two arrangements, at every extended real `h`. -/
theorem norm_law (h : EReal) (γ β μ r : ℝ) (hr : 0 < r) :
    h * ((γ : EReal) * (r : EReal)) + ((β : EReal) - ((μ : EReal) * (γ : EReal)) * (r : EReal))
      = ((h - (μ : EReal)) * (r : EReal)) * (γ : EReal) + (β : EReal) := by
  induction h using EReal.rec with
  | coe x =>
    simp only [← EReal.coe_mul, ← EReal.coe_sub, ← EReal.coe_add]
    exact congrArg _ (by ring)
  | top =>
    rw [EReal.top_sub_coe, EReal.top_mul_coe_of_pos hr]
    rcases lt_trichotomy γ 0 with hg | hg | hg
    · rw [← EReal.coe_mul, EReal.top_mul_coe_of_neg (mul_neg_of_neg_of_pos hg hr), EReal.top_mul_coe_of_neg hg,
        ← EReal.coe_mul, ← EReal.coe_mul, ← EReal.coe_sub, EReal.bot_add, EReal.bot_add]
    · subst hg
      simp
    · rw [← EReal.coe_mul, EReal.top_mul_coe_of_pos (mul_pos hg hr), EReal.top_mul_coe_of_pos hg,
        ← EReal.coe_mul, ← EReal.coe_mul, ← EReal.coe_sub, EReal.top_add_coe, EReal.top_add_coe]
  | bot =>
    rw [EReal.bot_sub, EReal.bot_mul_coe_of_pos hr]
    rcases lt_trichotomy γ 0 with hg | hg | hg
    · rw [← EReal.coe_mul, EReal.bot_mul_coe_of_neg (mul_neg_of_neg_of_pos hg hr), EReal.bot_mul_coe_of_neg hg,
        ← EReal.coe_mul, ← EReal.coe_mul, ← EReal.coe_sub, EReal.top_add_coe, EReal.top_add_coe]
    · subst hg
      simp
    · rw [← EReal.coe_mul, EReal.bot_mul_coe_of_pos (mul_pos hg hr), EReal.bot_mul_coe_of_pos hg,
        ← EReal.coe_mul, ← EReal.coe_mul, ← EReal.coe_sub, EReal.bot_add, EReal.bot_add]

/-- So the folded normalisation with `scale = γ·r`, `shift = β − (μ·γ)·r` is the plain one, when γ, β, μ are real
    and `r` is real and positive. -/
theorem normFolded_eq_normPlain {C : Nat} (h : Fin C → EReal) (scale shift μ r γ β : Fin C → EReal)
    (hscale : ∀ c, scale c = γ c * r c) (hshift : ∀ c, shift c = β c - (μ c * γ c) * r c)
    (hγ : ∀ c, ∃ y : ℝ, γ c = (y : EReal)) (hβ : ∀ c, ∃ y : ℝ, β c = (y : EReal))
    (hμ : ∀ c, ∃ y : ℝ, μ c = (y : EReal)) (hr : ∀ c, ∃ y : ℝ, 0 < y ∧ r c = (y : EReal)) (c : Fin C) :
    normFolded h scale shift c = normPlain h μ r γ β c := by
  obtain ⟨g, hg⟩ := hγ c
  obtain ⟨b, hb⟩ := hβ c
  obtain ⟨u, hu⟩ := hμ c
  obtain ⟨y, hy, hry⟩ := hr c
  unfold normFolded normPlain
  rw [hscale c, hshift c, hg, hb, hu, hry, norm_law (h c) g b u y hy]

end Cert.Rows

end
-- ==== Proof.BlockLayers.lean ====
/-
  The layers of the network computed on a block of rows, read at one entry.

  A block of `R` rows goes through a dense layer as whole-array operations: a plain matrix product into a zero
  accumulator, a bias row spread over the rows, a comparison with zero and a selection between the value and its
  slope multiple. Entry `(p, q)` of the result is the row-level `dense` layer of row `p` of the block — it depends
  on no other row. The same for the first layer: the neighbourhood sum divided by the degree column (at least one)
  spread over the columns, two products, the bias, and the folded normalisation.
-/
import Idealize.ShloMosaic.Lib.Pipeline.Value
import proofs.«165086_j36945308680832_2_alg».proof.Proof.LibPlainDot
import proofs.«165086_j36945308680832_2_alg».proof.Proof.Rows

noncomputable section

open scoped BigOperators

namespace Cert.BlockLayers

open Idealize.ShloMosaic Idealize.ShloMosaic.ValueIdx Cert.LibPlainDot Cert.Rows

/-- A row `[1, C]` spread over `R` rows, read at `(p, q)`: the row's entry `q`. -/
theorem rowBroadcast_apply {α : Type} {R C : Nat} (b : (⟨2, ![1, C]⟩ : Shape).Idx → α)
    (h : (⟨2, ![1, C]⟩ : Shape).Broadcasts ⟨2, ![R, C]⟩) (p : Fin R) (q : Fin C) :
    broadcastTo ⟨2, ![R, C]⟩ b h (ix2 p q) = b (ix2 (0 : Fin 1) q) := by
  refine broadcastTo_apply b h (ix2 p q) (ix2 (0 : Fin 1) q) (fun a => ?_)
  match a with
  | ⟨0, _⟩ => exact (if_pos rfl).symm
  | ⟨1, _⟩ =>
    show q.val = if C = 1 then 0 else q.val
    split_ifs with hC
    · have := q.isLt; omega
    · rfl

/-- A column `[R, 1]` spread over `K` columns, read at `(p, k)`: the column's entry `p`. -/
theorem colBroadcast_apply {α : Type} {R K : Nat} (d : (⟨2, ![R, 1]⟩ : Shape).Idx → α)
    (h : (⟨2, ![R, 1]⟩ : Shape).Broadcasts ⟨2, ![R, K]⟩) (p : Fin R) (k : Fin K) :
    broadcastTo ⟨2, ![R, K]⟩ d h (ix2 p k) = d (ix2 p (0 : Fin 1)) := by
  refine broadcastTo_apply d h (ix2 p k) (ix2 p (0 : Fin 1)) (fun a => ?_)
  match a with
  | ⟨0, _⟩ =>
    show p.val = if R = 1 then 0 else p.val
    split_ifs with hR
    · have := p.isLt; omega
    · rfl
  | ⟨1, _⟩ => exact (if_pos rfl).symm

section Dense
variable {R K C : Nat} (wf : DotDims.WF ⟨2, ![R, K]⟩ ⟨2, ![K, C]⟩ ⟨2, ![R, C]⟩ [1] [0] [0] [1] [] [])
  {φ₁ φ₂ : FTy}

/-- The value before the leaky ReLU: product plus bias row, at `(p, q)`. -/
theorem affine_block (v : FVec Ideal ⟨2, ![R, K]⟩ φ₁) (W : FVec Ideal ⟨2, ![K, C]⟩ φ₂) (b : FVec Ideal ⟨2, ![1, C]⟩ .f32)
    (hb : (⟨2, ![1, C]⟩ : Shape).Broadcasts ⟨2, ![R, C]⟩) (p : Fin R) (q : Fin C) :
    addf (matmul (plainDot R K C wf) none v W (constant ⟨2, ![R, C]⟩ .f32 0x00000000#32)) (broadcastTo ⟨2, ![R, C]⟩ b hb) (ix2 p q)
      = (∑ k : Fin K, v (ix2 p k) * W (ix2 k q)) + b (ix2 (0 : Fin 1) q) := by
  show FloatOps.matmul (plainDot R K C wf) none v W (constant ⟨2, ![R, C]⟩ .f32 0x00000000#32) (ix2 p q)
    + broadcastTo ⟨2, ![R, C]⟩ b hb (ix2 p q) = _
  rw [matmul_zero_apply wf none v W p q, rowBroadcast_apply b hb p q]

/-- The leaky ReLU of an array, at an index: the row-level `lrelu` of the entry. -/
theorem lrelu_block {s : Shape} (z : FVec Ideal s .f32) (i : s.Idx) :
    select (cmpf .oge z (broadcast s (Scalar.ofBits (F := Ideal) .f32 0x00000000#32))) z
        (mulf (broadcast s (Scalar.ofBits (F := Ideal) .f32 0x3E4CCCCD#32)) z) i = lrelu (z i) := rfl

/-- ONE DENSE LAYER ON A BLOCK at `(p, q)` is the row-level layer of row `p`. -/
theorem dense_block (v : FVec Ideal ⟨2, ![R, K]⟩ φ₁) (W : FVec Ideal ⟨2, ![K, C]⟩ φ₂) (b : FVec Ideal ⟨2, ![1, C]⟩ .f32)
    (hb : (⟨2, ![1, C]⟩ : Shape).Broadcasts ⟨2, ![R, C]⟩) (p : Fin R) (q : Fin C) :
    select (cmpf .oge (addf (matmul (plainDot R K C wf) none v W (constant ⟨2, ![R, C]⟩ .f32 0x00000000#32)) (broadcastTo ⟨2, ![R, C]⟩ b hb))
          (broadcast ⟨2, ![R, C]⟩ (Scalar.ofBits (F := Ideal) .f32 0x00000000#32)))
        (addf (matmul (plainDot R K C wf) none v W (constant ⟨2, ![R, C]⟩ .f32 0x00000000#32)) (broadcastTo ⟨2, ![R, C]⟩ b hb))
        (mulf (broadcast ⟨2, ![R, C]⟩ (Scalar.ofBits (F := Ideal) .f32 0x3E4CCCCD#32))
          (addf (matmul (plainDot R K C wf) none v W (constant ⟨2, ![R, C]⟩ .f32 0x00000000#32)) (broadcastTo ⟨2, ![R, C]⟩ b hb)))
        (ix2 p q)
      = dense (fun k => v (ix2 p k)) (fun k c => W (ix2 k c)) (fun c => b (ix2 (0 : Fin 1) c)) q := by
  rw [lrelu_block, affine_block wf v W b hb p q]
  rfl

end Dense

section First
variable {R K C : Nat} (wf : DotDims.WF ⟨2, ![R, K]⟩ ⟨2, ![K, C]⟩ ⟨2, ![R, C]⟩ [1] [0] [0] [1] [] [])

/-- THE FIRST LAYER ON A BLOCK before the normalisation, at `(p, q)`: the row-level `combine` of row `p`. -/
theorem combine_block (x a : FVec Ideal ⟨2, ![R, K]⟩ .f32) (d : FVec Ideal ⟨2, ![R, 1]⟩ .f32)
    (Wl Wr : FVec Ideal ⟨2, ![K, C]⟩ .bf16) (bl : FVec Ideal ⟨2, ![1, C]⟩ .f32)
    (hd : (⟨2, ![R, 1]⟩ : Shape).Broadcasts ⟨2, ![R, K]⟩) (hb : (⟨2, ![1, C]⟩ : Shape).Broadcasts ⟨2, ![R, C]⟩)
    (ht : FTy.bf16.bits < FTy.f32.bits) (p : Fin R) (q : Fin C) :
    addf (addf (matmul (plainDot R K C wf) none
              (truncf .bf16 (divf a (broadcastTo ⟨2, ![R, K]⟩
                (maximumf d (broadcast ⟨2, ![R, 1]⟩ (Scalar.ofBits (F := Ideal) .f32 0x3F800000#32))) hd)) ht)
              Wl (constant ⟨2, ![R, C]⟩ .f32 0x00000000#32))
            (broadcastTo ⟨2, ![R, C]⟩ bl hb))
          (matmul (plainDot R K C wf) none (truncf .bf16 x ht) Wr (constant ⟨2, ![R, C]⟩ .f32 0x00000000#32)) (ix2 p q)
      = combine (fun k => x (ix2 p k)) (fun k => a (ix2 p k)) (d (ix2 p (0 : Fin 1)))
          (fun k c => Wl (ix2 k c)) (fun c => bl (ix2 (0 : Fin 1) c)) (fun k c => Wr (ix2 k c)) q := by
  show (FloatOps.matmul (plainDot R K C wf) none _ Wl (constant ⟨2, ![R, C]⟩ .f32 0x00000000#32) (ix2 p q)
      + broadcastTo ⟨2, ![R, C]⟩ bl hb (ix2 p q))
    + FloatOps.matmul (plainDot R K C wf) none (truncf .bf16 x ht) Wr (constant ⟨2, ![R, C]⟩ .f32 0x00000000#32) (ix2 p q) = _
  rw [matmul_zero_apply wf none _ Wl p q, matmul_zero_apply wf none _ Wr p q, rowBroadcast_apply bl hb p q]
  unfold combine
  refine congrArg₂ (· + ·) (congrArg (· + bl (ix2 (0 : Fin 1) q)) (Finset.sum_congr rfl fun k _ => ?_)) rfl
  show Ideal.div (a (ix2 p k)) (broadcastTo ⟨2, ![R, K]⟩
      (maximumf d (broadcast ⟨2, ![R, 1]⟩ (Scalar.ofBits (F := Ideal) .f32 0x3F800000#32))) hd (ix2 p k)) * Wl (ix2 k q) = _
  rw [colBroadcast_apply _ hd p k]
  rfl

end First

end Cert.BlockLayers

end
-- ==== Proof.KernelRows.lean ====
/-
  The kernel body's arithmetic, read at one entry of the block.

  The body computes, on a block of 5000 nodes, the graph layer with the batch norm folded to one affine map, then four
  dense layers; between layers the value is narrowed to bf16, which on the extended reals is the identity. Entry
  `(p, q)` of what the body stores is the row-level network of `Rows` applied to row `p` of the three row-tiled
  operands (features, neighbourhood sums, degree column) — no other row enters.
-/
import proofs.«165086_j36945308680832_2_alg».proof.Proof.Gen.KernelIdeal.Skeleton
import proofs.«165086_j36945308680832_2_alg».proof.Proof.BlockLayers

noncomputable section

open scoped BigOperators

namespace Cert.KernelRows

open Cert.KernelIdeal Cert.KernelIdeal.Gen Idealize.ShloMosaic Idealize.ShloMosaic.ValueIdx
open Cert.Rows Cert.BlockLayers Cert.LibPlainDot

/-- The graph layer, the folded batch norm and the leaky ReLU on a block, at `(p, c)`. -/
theorem pay2_entry (v0 v2 : FVec Ideal S5000x192 .f32) (v4 : FVec Ideal S5000x1 .f32) (v12 : FVec Ideal S192x256 .bf16)
    (v15 : FVec Ideal S1x256 .f32) (v19 : FVec Ideal S192x256 .bf16) (v23 v27 : FVec Ideal S1x256 .f32)
    (p : Fin 5000) (c : Fin 256) :
    k0_pay2 (F := Ideal) v0 v2 v4 v12 v15 v19 v23 v27 (ix2 p c)
      = normFolded
          (combine (fun k : Fin 192 => v0 (ix2 p k)) (fun k : Fin 192 => v2 (ix2 p k)) (v4 (ix2 p (0 : Fin 1)))
            (fun k c => v12 (ix2 k c)) (fun c => v15 (ix2 (0 : Fin 1) c)) (fun k c => v19 (ix2 k c)))
          (fun c => v23 (ix2 (0 : Fin 1) c)) (fun c => v27 (ix2 (0 : Fin 1) c)) c := by
  unfold k0_pay2
  simp only [shapeCast_self]
  rw [truncf_apply, lrelu_block]
  unfold normFolded
  refine congrArg lrelu ?_
  show (addf _ _ (ix2 p c)) * broadcastTo S5000x256 v23 _ (ix2 p c) + broadcastTo S5000x256 v27 _ (ix2 p c) = _
  rw [rowBroadcast_apply v23 _ p c, rowBroadcast_apply v27 _ p c]
  refine congrArg (fun h => h * v23 (ix2 (0 : Fin 1) c) + v27 (ix2 (0 : Fin 1) c)) ?_
  exact combine_block (R := 5000) (K := 192) (C := 256) dot_S5000x192_S192x256_S5000x256_1_0_0_1_n_n.wf
    v0 v2 v4 v12 v19 v15 _ _ _ p c

/-- Three dense layers on a block, at `(p, q)`. -/
theorem pay3_entry (v36 : FVec Ideal S5000x256 .bf16) (v37 : FVec Ideal S256x128 .bf16) (v40 : FVec Ideal S1x128 .f32)
    (v50 : FVec Ideal S128x64 .bf16) (v53 : FVec Ideal S1x64 .f32) (v63 : FVec Ideal S64x64 .bf16) (v66 : FVec Ideal S1x64 .f32)
    (p : Fin 5000) (q : Fin 64) :
    k0_pay3 (F := Ideal) v36 v37 v40 v50 v53 v63 v66 (ix2 p q)
      = dense (dense (dense (fun k : Fin 256 => v36 (ix2 p k)) (fun k c => v37 (ix2 k c)) (fun c => v40 (ix2 (0 : Fin 1) c)))
          (fun k c => v50 (ix2 k c)) (fun c => v53 (ix2 (0 : Fin 1) c)))
          (fun k c => v63 (ix2 k c)) (fun c => v66 (ix2 (0 : Fin 1) c)) q := by
  unfold k0_pay3
  simp only [shapeCast_self]
  rw [truncf_apply]
  refine (dense_block (R := 5000) (K := 64) (C := 64) dot_S5000x64_S64x64_S5000x64_1_0_0_1_n_n.wf _ v63 v66 _ p q).trans ?_
  refine congrArg (fun v => dense v _ _ q) (funext fun k2 => ?_)
  rw [truncf_apply]
  refine (dense_block (R := 5000) (K := 128) (C := 64) dot_S5000x128_S128x64_S5000x64_1_0_0_1_n_n.wf _ v50 v53 _ p k2).trans ?_
  refine congrArg (fun v => dense v _ _ k2) (funext fun k1 => ?_)
  rw [truncf_apply]
  exact dense_block (R := 5000) (K := 256) (C := 128) dot_S5000x256_S256x128_S5000x128_1_0_0_1_n_n.wf v36 v37 v40 _ p k1

/-- The last dense layer on a block, at `(p, q)`. -/
theorem pay1_entry (v75 : FVec Ideal S5000x64 .bf16) (v76 : FVec Ideal S64x128 .bf16) (v79 : FVec Ideal S1x128 .f32)
    (p : Fin 5000) (q : Fin 128) :
    k0_pay1 (F := Ideal) v75 v76 v79 (ix2 p q)
      = dense (fun k : Fin 64 => v75 (ix2 p k)) (fun k c => v76 (ix2 k c)) (fun c => v79 (ix2 (0 : Fin 1) c)) q := by
  unfold k0_pay1
  simp only [shapeCast_self]
  exact dense_block (R := 5000) (K := 64) (C := 128) dot_S5000x64_S64x128_S5000x128_1_0_0_1_n_n.wf v75 v76 v79 _ p q

/-- THE WHOLE BODY at `(p, q)`: the row-level network, folded batch norm, of row `p` of the blocks. -/
theorem body_entry (x0 x1 : FVec Ideal S5000x192 .f32) (x2 : FVec Ideal S5000x1 .f32) (x3 : FVec Ideal S192x256 .bf16)
    (x4 : FVec Ideal S1x256 .f32) (x5 : FVec Ideal S192x256 .bf16) (x6 x7 : FVec Ideal S1x256 .f32)
    (x8 : FVec Ideal S256x128 .bf16) (x9 : FVec Ideal S1x128 .f32) (x10 : FVec Ideal S128x64 .bf16) (x11 : FVec Ideal S1x64 .f32)
    (x12 : FVec Ideal S64x64 .bf16) (x13 : FVec Ideal S1x64 .f32) (x14 : FVec Ideal S64x128 .bf16) (x15 : FVec Ideal S1x128 .f32)
    (p : Fin 5000) (q : Fin 128) :
    k0_pay1 (F := Ideal) (k0_pay3 (F := Ideal) (k0_pay2 (F := Ideal) x0 x1 x2 x3 x4 x5 x6 x7) x8 x9 x10 x11 x12 x13) x14 x15 (ix2 p q)
      = dense (dense (dense (dense
          (normFolded
            (combine (fun k : Fin 192 => x0 (ix2 p k)) (fun k : Fin 192 => x1 (ix2 p k)) (x2 (ix2 p (0 : Fin 1)))
              (fun k c => x3 (ix2 k c)) (fun c => x4 (ix2 (0 : Fin 1) c)) (fun k c => x5 (ix2 k c)))
            (fun c => x6 (ix2 (0 : Fin 1) c)) (fun c => x7 (ix2 (0 : Fin 1) c)))
          (fun k c => x8 (ix2 k c)) (fun c => x9 (ix2 (0 : Fin 1) c)))
          (fun k c => x10 (ix2 k c)) (fun c => x11 (ix2 (0 : Fin 1) c)))
          (fun k c => x12 (ix2 k c)) (fun c => x13 (ix2 (0 : Fin 1) c)))
          (fun k c => x14 (ix2 k c)) (fun c => x15 (ix2 (0 : Fin 1) c)) q := by
  rw [pay1_entry]
  refine congrArg (fun v => dense v _ _ q) (funext fun k3 => ?_)
  rw [pay3_entry]
  refine congrArg (fun v => dense (dense (dense v _ _) _ _) _ _ k3) (funext fun k0 => ?_)
  exact pay2_entry x0 x1 x2 x3 x4 x5 x6 x7 p k0

end Cert.KernelRows

end
-- ==== Proof.Network.lean ====
/-
  The network on whole arrays: the result array as one function of the operand arrays.

  Row `n` of the result is the row-level network of `Rows` (the batch norm folded to a scale row and a shift row)
  applied to row `n` of the features, row `n` of the neighbourhood sums and entry `n` of the degree column; the
  weights are read as matrices and each bias, the scale and the shift as one row.
-/
import Idealize.ShloMosaic.Lib.ValueIdx
import proofs.«165086_j36945308680832_2_alg».proof.Proof.Rows

noncomputable section

namespace Cert.Network

open Idealize.ShloMosaic Idealize.ShloMosaic.ValueIdx Cert.Rows

/-- A matrix as a function of its two coordinates. -/
abbrev mat {K C : Nat} (W : (⟨2, ![K, C]⟩ : Shape).Idx → EReal) : Fin K → Fin C → EReal := fun k c => W (ix2 k c)

/-- A one-row array as a function of the column. -/
abbrev row {C : Nat} (b : (⟨2, ![1, C]⟩ : Shape).Idx → EReal) : Fin C → EReal := fun c => b (ix2 (0 : Fin 1) c)

/-- Node `n`'s row of the result. -/
def nodeRow (X A : (⟨2, ![50000, 192]⟩ : Shape).Idx → EReal) (D : (⟨2, ![50000, 1]⟩ : Shape).Idx → EReal)
    (Wl : (⟨2, ![192, 256]⟩ : Shape).Idx → EReal) (Bl : (⟨2, ![1, 256]⟩ : Shape).Idx → EReal)
    (Wr : (⟨2, ![192, 256]⟩ : Shape).Idx → EReal) (Sc Sh : (⟨2, ![1, 256]⟩ : Shape).Idx → EReal)
    (W1 : (⟨2, ![256, 128]⟩ : Shape).Idx → EReal) (B1 : (⟨2, ![1, 128]⟩ : Shape).Idx → EReal)
    (W2 : (⟨2, ![128, 64]⟩ : Shape).Idx → EReal) (B2 : (⟨2, ![1, 64]⟩ : Shape).Idx → EReal)
    (W3 : (⟨2, ![64, 64]⟩ : Shape).Idx → EReal) (B3 : (⟨2, ![1, 64]⟩ : Shape).Idx → EReal)
    (W4 : (⟨2, ![64, 128]⟩ : Shape).Idx → EReal) (B4 : (⟨2, ![1, 128]⟩ : Shape).Idx → EReal)
    (n : Fin 50000) : Fin 128 → EReal :=
  dense (dense (dense (dense
    (normFolded
      (combine (fun k : Fin 192 => X (ix2 n k)) (fun k : Fin 192 => A (ix2 n k)) (D (ix2 n (0 : Fin 1)))
        (mat Wl) (row Bl) (mat Wr))
      (row Sc) (row Sh))
    (mat W1) (row B1)) (mat W2) (row B2)) (mat W3) (row B3)) (mat W4) (row B4)

/-- The result array: entry `(n, f)` is entry `f` of node `n`'s row. -/
def net (X A : (⟨2, ![50000, 192]⟩ : Shape).Idx → EReal) (D : (⟨2, ![50000, 1]⟩ : Shape).Idx → EReal)
    (Wl : (⟨2, ![192, 256]⟩ : Shape).Idx → EReal) (Bl : (⟨2, ![1, 256]⟩ : Shape).Idx → EReal)
    (Wr : (⟨2, ![192, 256]⟩ : Shape).Idx → EReal) (Sc Sh : (⟨2, ![1, 256]⟩ : Shape).Idx → EReal)
    (W1 : (⟨2, ![256, 128]⟩ : Shape).Idx → EReal) (B1 : (⟨2, ![1, 128]⟩ : Shape).Idx → EReal)
    (W2 : (⟨2, ![128, 64]⟩ : Shape).Idx → EReal) (B2 : (⟨2, ![1, 64]⟩ : Shape).Idx → EReal)
    (W3 : (⟨2, ![64, 64]⟩ : Shape).Idx → EReal) (B3 : (⟨2, ![1, 64]⟩ : Shape).Idx → EReal)
    (W4 : (⟨2, ![64, 128]⟩ : Shape).Idx → EReal) (B4 : (⟨2, ![1, 128]⟩ : Shape).Idx → EReal) :
    (⟨2, ![50000, 128]⟩ : Shape).Idx → EReal :=
  fun i => nodeRow X A D Wl Bl Wr Sc Sh W1 B1 W2 B2 W3 B3 W4 B4 (i 0) (i 1)

/-- At an index given by its coordinates. -/
theorem net_apply (X A : (⟨2, ![50000, 192]⟩ : Shape).Idx → EReal) (D : (⟨2, ![50000, 1]⟩ : Shape).Idx → EReal)
    (Wl : (⟨2, ![192, 256]⟩ : Shape).Idx → EReal) (Bl : (⟨2, ![1, 256]⟩ : Shape).Idx → EReal)
    (Wr : (⟨2, ![192, 256]⟩ : Shape).Idx → EReal) (Sc Sh : (⟨2, ![1, 256]⟩ : Shape).Idx → EReal)
    (W1 : (⟨2, ![256, 128]⟩ : Shape).Idx → EReal) (B1 : (⟨2, ![1, 128]⟩ : Shape).Idx → EReal)
    (W2 : (⟨2, ![128, 64]⟩ : Shape).Idx → EReal) (B2 : (⟨2, ![1, 64]⟩ : Shape).Idx → EReal)
    (W3 : (⟨2, ![64, 64]⟩ : Shape).Idx → EReal) (B3 : (⟨2, ![1, 64]⟩ : Shape).Idx → EReal)
    (W4 : (⟨2, ![64, 128]⟩ : Shape).Idx → EReal) (B4 : (⟨2, ![1, 128]⟩ : Shape).Idx → EReal)
    (n : Fin 50000) (f : Fin 128) :
    net X A D Wl Bl Wr Sc Sh W1 B1 W2 B2 W3 B3 W4 B4 (ix2 n f)
      = nodeRow X A D Wl Bl Wr Sc Sh W1 B1 W2 B2 W3 B3 W4 B4 n f := rfl

/-- Blocks against arrays. If row `p` of the three row-tiled blocks is row `n` of their arrays and every parameter block
    is its array, the row-level network of row `p` of the blocks is entry `(n, q)` of the array-level network. -/
theorem net_of_blocks (x0 : (⟨2, ![5000, 192]⟩ : Shape).Idx → EReal) (x1 : (⟨2, ![5000, 192]⟩ : Shape).Idx → EReal) (x2 : (⟨2, ![5000, 1]⟩ : Shape).Idx → EReal) (x3 : (⟨2, ![192, 256]⟩ : Shape).Idx → EReal) (x4 : (⟨2, ![1, 256]⟩ : Shape).Idx → EReal) (x5 : (⟨2, ![192, 256]⟩ : Shape).Idx → EReal) (x6 : (⟨2, ![1, 256]⟩ : Shape).Idx → EReal) (x7 : (⟨2, ![1, 256]⟩ : Shape).Idx → EReal) (x8 : (⟨2, ![256, 128]⟩ : Shape).Idx → EReal) (x9 : (⟨2, ![1, 128]⟩ : Shape).Idx → EReal) (x10 : (⟨2, ![128, 64]⟩ : Shape).Idx → EReal) (x11 : (⟨2, ![1, 64]⟩ : Shape).Idx → EReal) (x12 : (⟨2, ![64, 64]⟩ : Shape).Idx → EReal) (x13 : (⟨2, ![1, 64]⟩ : Shape).Idx → EReal) (x14 : (⟨2, ![64, 128]⟩ : Shape).Idx → EReal) (x15 : (⟨2, ![1, 128]⟩ : Shape).Idx → EReal)
    (X : (⟨2, ![50000, 192]⟩ : Shape).Idx → EReal) (A : (⟨2, ![50000, 192]⟩ : Shape).Idx → EReal) (D : (⟨2, ![50000, 1]⟩ : Shape).Idx → EReal) (Wl : (⟨2, ![192, 256]⟩ : Shape).Idx → EReal) (Bl : (⟨2, ![1, 256]⟩ : Shape).Idx → EReal) (Wr : (⟨2, ![192, 256]⟩ : Shape).Idx → EReal) (Sc : (⟨2, ![1, 256]⟩ : Shape).Idx → EReal) (Sh : (⟨2, ![1, 256]⟩ : Shape).Idx → EReal) (W1 : (⟨2, ![256, 128]⟩ : Shape).Idx → EReal) (B1 : (⟨2, ![1, 128]⟩ : Shape).Idx → EReal) (W2 : (⟨2, ![128, 64]⟩ : Shape).Idx → EReal) (B2 : (⟨2, ![1, 64]⟩ : Shape).Idx → EReal) (W3 : (⟨2, ![64, 64]⟩ : Shape).Idx → EReal) (B3 : (⟨2, ![1, 64]⟩ : Shape).Idx → EReal) (W4 : (⟨2, ![64, 128]⟩ : Shape).Idx → EReal) (B4 : (⟨2, ![1, 128]⟩ : Shape).Idx → EReal)
    (p : Fin 5000) (n : Fin 50000) (q : Fin 128)
    (h0 : ∀ k : Fin 192, x0 (ix2 p k) = X (ix2 n k))
    (h1 : ∀ k : Fin 192, x1 (ix2 p k) = A (ix2 n k))
    (h2 : x2 (ix2 p (0 : Fin 1)) = D (ix2 n (0 : Fin 1)))
    (h3 : ∀ (a : Fin 192) (b : Fin 256), x3 (ix2 a b) = Wl (ix2 a b))
    (h4 : ∀ (a : Fin 1) (b : Fin 256), x4 (ix2 a b) = Bl (ix2 a b))
    (h5 : ∀ (a : Fin 192) (b : Fin 256), x5 (ix2 a b) = Wr (ix2 a b))
    (h6 : ∀ (a : Fin 1) (b : Fin 256), x6 (ix2 a b) = Sc (ix2 a b))
    (h7 : ∀ (a : Fin 1) (b : Fin 256), x7 (ix2 a b) = Sh (ix2 a b))
    (h8 : ∀ (a : Fin 256) (b : Fin 128), x8 (ix2 a b) = W1 (ix2 a b))
    (h9 : ∀ (a : Fin 1) (b : Fin 128), x9 (ix2 a b) = B1 (ix2 a b))
    (h10 : ∀ (a : Fin 128) (b : Fin 64), x10 (ix2 a b) = W2 (ix2 a b))
    (h11 : ∀ (a : Fin 1) (b : Fin 64), x11 (ix2 a b) = B2 (ix2 a b))
    (h12 : ∀ (a : Fin 64) (b : Fin 64), x12 (ix2 a b) = W3 (ix2 a b))
    (h13 : ∀ (a : Fin 1) (b : Fin 64), x13 (ix2 a b) = B3 (ix2 a b))
    (h14 : ∀ (a : Fin 64) (b : Fin 128), x14 (ix2 a b) = W4 (ix2 a b))
    (h15 : ∀ (a : Fin 1) (b : Fin 128), x15 (ix2 a b) = B4 (ix2 a b)) :
    dense (dense (dense (dense
        (normFolded
          (combine (fun k : Fin 192 => x0 (ix2 p k)) (fun k : Fin 192 => x1 (ix2 p k)) (x2 (ix2 p (0 : Fin 1)))
            (fun k c => x3 (ix2 k c)) (fun c => x4 (ix2 (0 : Fin 1) c)) (fun k c => x5 (ix2 k c)))
          (fun c => x6 (ix2 (0 : Fin 1) c)) (fun c => x7 (ix2 (0 : Fin 1) c)))
        (fun k c => x8 (ix2 k c)) (fun c => x9 (ix2 (0 : Fin 1) c)))
        (fun k c => x10 (ix2 k c)) (fun c => x11 (ix2 (0 : Fin 1) c)))
        (fun k c => x12 (ix2 k c)) (fun c => x13 (ix2 (0 : Fin 1) c)))
        (fun k c => x14 (ix2 k c)) (fun c => x15 (ix2 (0 : Fin 1) c)) q
      = net X A D Wl Bl Wr Sc Sh W1 B1 W2 B2 W3 B3 W4 B4 (ix2 n q) := by
  rw [net_apply]
  unfold nodeRow
  simp only [mat, row, h0, h1, h2, h3, h4, h5, h6, h7, h8, h9, h10, h11, h12, h13, h14, h15]

end Cert.Network

end
-- ==== Proof.KernelFlush.lean ====
/-
  What a grid point writes back.

  By the body's arithmetic read at an entry, and the blocks read at an entry, entry `(p, q)` of what point `t` stores is
  entry `(5000·t + p, q)` of the array-level network `net` of the operand arrays as the region finds them: point `t`
  writes back block `t` of that one array. The three row-tiled arrays (features, neighbourhood sums, degrees) are carried
  as named arrays `X A D` equal to what their windows stage.
-/
import proofs.«165086_j36945308680832_2_alg».proof.Proof.Gen.KernelIdeal.Value
import proofs.«165086_j36945308680832_2_alg».proof.Proof.KernelBlocksA
import proofs.«165086_j36945308680832_2_alg».proof.Proof.KernelBlocksB
import proofs.«165086_j36945308680832_2_alg».proof.Proof.KernelBlocksC
import proofs.«165086_j36945308680832_2_alg».proof.Proof.KernelBlocksD
import proofs.«165086_j36945308680832_2_alg».proof.Proof.KernelRows
import proofs.«165086_j36945308680832_2_alg».proof.Proof.Network

noncomputable section

namespace Cert.KernelValue

open Cert.KernelIdeal Cert.KernelIdeal.Gen Idealize.ShloMosaic Idealize.ShloMosaic.TcCoe Idealize.SL.Sem
open Idealize.ShloMosaic.ValueIdx Cert.Rows Cert.Network
open Idealize.ShloMosaic.Pipeline (Dat)

variable (m : (ℓ : Loc nD τ sig) → Buf (Elt Ideal) ℓ) (ρ : Dev nD → PrngReg)

/-- The node that row `p` of point `t`'s blocks is. -/
def node (t : Fin cfg0.N) (p : Fin 5000) : Fin 50000 :=
  ⟨t.val * 5000 + p.val, by
    have ht := t.isLt
    have hN : cfg0.N = 10 := N_0
    have := p.isLt; omega⟩

/-- The network of the row-tiled arrays `X A D` and the parameter arrays as the region finds them. -/
abbrev resultOf (c : Dev nD) (X A : S50000x192.Idx → EReal) (D : S50000x1.Idx → EReal) : S50000x128.Idx → EReal :=
  net X A D
    (V m c main_v40 : S192x256.Idx → EReal)
    (V m c main_v26 : S1x256.Idx → EReal)
    (V m c main_v41 : S192x256.Idx → EReal)
    (V m c main_v31 : S1x256.Idx → EReal)
    (V m c main_v35 : S1x256.Idx → EReal)
    (V m c main_v42 : S256x128.Idx → EReal)
    (V m c main_v36 : S1x128.Idx → EReal)
    (V m c main_v43 : S128x64.Idx → EReal)
    (V m c main_v37 : S1x64.Idx → EReal)
    (V m c main_v44 : S64x64.Idx → EReal)
    (V m c main_v38 : S1x64.Idx → EReal)
    (V m c main_v45 : S64x128.Idx → EReal)
    (V m c main_v39 : S1x128.Idx → EReal)

set_option maxHeartbeats 4000000 in
/-- The body's stored value at entry `(p, q)` of point `t`'s block is the network's entry `(node t p, q)`. -/
theorem body_at (c : Dev nD) (t : Fin cfg0.N) (p : Fin 5000) (q : Fin 128)
    (X A : S50000x192.Idx → EReal) (D : S50000x1.Idx → EReal)
    (hX : (V m c (Pipeline.arrRef spec0 0) : S50000x192.Idx → EReal) = X)
    (hA : (V m c (Pipeline.arrRef spec0 1) : S50000x192.Idx → EReal) = A)
    (hD : (V m c (Pipeline.arrRef spec0 2) : S50000x1.Idx → EReal) = D) :
    k0_pay1 (F := Ideal) (k0_pay3 (F := Ideal) (k0_pay2 (F := Ideal) (iblk m c 0 t) (iblk m c 1 t) (iblk m c 2 t) (iblk m c 3 t) (iblk m c 4 t) (iblk m c 5 t) (iblk m c 6 t) (iblk m c 7 t))
        (iblk m c 8 t) (iblk m c 9 t) (iblk m c 10 t) (iblk m c 11 t) (iblk m c 12 t) (iblk m c 13 t)) (iblk m c 14 t) (iblk m c 15 t) (ix2 p q)
      = resultOf m c X A D (ix2 (node t p) q) := by
  refine (KernelRows.body_entry (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p q).trans ?_
  exact net_of_blocks (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    X A D
    (V m c main_v40 : S192x256.Idx → EReal) (V m c main_v26 : S1x256.Idx → EReal) (V m c main_v41 : S192x256.Idx → EReal) (V m c main_v31 : S1x256.Idx → EReal) (V m c main_v35 : S1x256.Idx → EReal) (V m c main_v42 : S256x128.Idx → EReal) (V m c main_v36 : S1x128.Idx → EReal) (V m c main_v43 : S128x64.Idx → EReal) (V m c main_v37 : S1x64.Idx → EReal) (V m c main_v44 : S64x64.Idx → EReal) (V m c main_v38 : S1x64.Idx → EReal) (V m c main_v45 : S64x128.Idx → EReal) (V m c main_v39 : S1x128.Idx → EReal)
    p (node t p) q
    (fun k => blk0 m c t p k (node t p) rfl X hX) (fun k => blk1 m c t p k (node t p) rfl A hA) (blk2 m c t p 0 (node t p) rfl D hD)
    (blk3 m c t) (blk4 m c t) (blk5 m c t) (blk6 m c t) (blk7 m c t) (blk8 m c t) (blk9 m c t) (blk10 m c t) (blk11 m c t) (blk12 m c t) (blk13 m c t) (blk14 m c t) (blk15 m c t)

set_option maxHeartbeats 4000000 in
/-- WHAT POINT `t` WRITES BACK is block `t` of the network of the operand arrays. -/
theorem flushed_eq (c : Dev nD) (t : Fin cfg0.N)
    (X A : S50000x192.Idx → EReal) (D : S50000x1.Idx → EReal)
    (hX : (V m c (Pipeline.arrRef spec0 0) : S50000x192.Idx → EReal) = X)
    (hA : (V m c (Pipeline.arrRef spec0 1) : S50000x192.Idx → EReal) = A)
    (hD : (V m c (Pipeline.arrRef spec0 2) : S50000x1.Idx → EReal) = D) :
    (dats m 0 c).flushed 16 t = ((cfg0.win 16).blk t).view.read (Elt Ideal) (resultOf m c X A D) := by
  rw [Value.flushed16]
  unfold out0_16
  rw [View.canon_unit_zero hz]
  simp only [View.ld_unit_zero (S := S5000x192) hz, View.ld_unit_zero (S := S5000x1) hz, View.ld_unit_zero (S := S192x256) hz,
    View.ld_unit_zero (S := S1x256) hz, View.ld_unit_zero (S := S256x128) hz, View.ld_unit_zero (S := S1x128) hz,
    View.ld_unit_zero (S := S128x64) hz, View.ld_unit_zero (S := S1x64) hz, View.ld_unit_zero (S := S64x64) hz,
    View.ld_unit_zero (S := S64x128) hz]
  obtain ⟨e0, e1⟩ := idx16 t
  refine funext fun (j : S5000x128.Idx) => ?_
  obtain ⟨p, q, rfl⟩ : ∃ (p : Fin 5000) (q : Fin 128), j = ix2 p q := ⟨j 0, j 1, eq_ix2 j⟩
  show k0_pay1 (F := Ideal) (k0_pay3 (F := Ideal) (k0_pay2 (F := Ideal) (iblk m c 0 t) (iblk m c 1 t) (iblk m c 2 t) (iblk m c 3 t) (iblk m c 4 t) (iblk m c 5 t) (iblk m c 6 t) (iblk m c 7 t))
        (iblk m c 8 t) (iblk m c 9 t) (iblk m c 10 t) (iblk m c 11 t) (iblk m c 12 t) (iblk m c 13 t)) (iblk m c 14 t) (iblk m c 15 t) (ix2 p q) = resultOf m c X A D (((cfg0.win 16).blk t).view.emb (ix2 p q))
  refine (body_at m c t p q X A D hX hA hD).trans (congrArg (resultOf m c X A D) ?_)
  funext a
  apply Fin.ext
  have hp : p.val < 5000 := p.isLt
  have hq : q.val < 128 := q.isLt
  match a with
  | ⟨0, _⟩ => show t.val * 5000 + p.val = win0_16.index t 0 * 5000 + 1 * p.val; rw [e0]; omega
  | ⟨1, _⟩ => show q.val = win0_16.index t 1 * 128 + 1 * q.val; rw [e1]; omega

end Cert.KernelValue

end
-- ==== Proof.KernelHost.lean ====
/-
  What the kernel's program computes on the host before it launches the body, as functions of the arguments.

  The node features are the two feature arrays side by side. The two rows of the edge list give the source and the
  target of each edge; a negative entry is moved up by the number of nodes (both for reading and for adding). One
  scatter-add carries the in-degree along with the neighbourhood sums: the features get a column of ones, the rows
  named by the sources are gathered, and the gathered rows are added into the rows named by the targets; the first
  192 columns of the result are the neighbourhood sums, the last column is the in-degree. The batch norm is folded
  to a scale `γ · r` and a shift `β − (μ · γ) · r`, `r = rsqrt (var + ε)`; biases become rows; weights are
  narrowed to bf16 (the identity on the extended reals).
-/
import proofs.«165086_j36945308680832_2_alg».proof.Proof.Gen.KernelIdeal
import Idealize.ShloMosaic.PureOps.Ideal

noncomputable section

namespace Cert.KernelHost

open Cert.KernelIdeal Cert.KernelIdeal.Facts₀ Cert.KernelIdeal.Facts Idealize.ShloMosaic

/-- The node features: the two feature arrays side by side. -/
def feats (a0 : FVec Ideal S50000x128 .f32) (a1 : FVec Ideal S50000x64 .f32) : FVec Ideal S50000x192 .f32 :=
  concatenate S50000x192 1 [⟨S50000x128, a0⟩, ⟨S50000x64, a1⟩] concatenates_S50000x128_S50000x64_S50000x192_d1

/-- Row 0 of the edge list: the source of each edge. -/
def srcRow (a2 : IVec S2x800000 32) : IVec S800000 32 :=
  shapeCast S800000 (extractStridedSlice S1x800000 ![0, 0] a2 slices_S2x800000_S1x800000_0_0) shapeCasts_S1x800000_S800000

/-- Row 1 of the edge list: the target of each edge. -/
def dstRow (a2 : IVec S2x800000 32) : IVec S800000 32 :=
  shapeCast S800000 (extractStridedSlice S1x800000 ![1, 0] a2 slices_S2x800000_S1x800000_1_0) shapeCasts_S1x800000_S800000

/-- A negative index moved up by the number of nodes; the others as they are. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- An index list as an index column. -/
def col (v : IVec S800000 32) : IVec S800000x1 32 := broadcastInDim S800000x1 ![0] bcast_S800000_S800000x1_0 v

/-- The features with a column of ones. -/
def featsOne (a0 : FVec Ideal S50000x128 .f32) (a1 : FVec Ideal S50000x64 .f32) : FVec Ideal S50000x193 .f32 :=
  concatenate S50000x193 1 [⟨S50000x192, feats a0 a1⟩,
    ⟨S50000x1, broadcastInDim S50000x1 ![] bcast_S_S50000x1 (constant (F := Ideal) S_ .f32 0x3F800000#32)⟩]
    concatenates_S50000x192_S50000x1_S50000x193_d1

/-- Neighbourhood sums and in-degrees in one array: the gathered rows added into the target rows. -/
def sums (a0 : FVec Ideal S50000x128 .f32) (a1 : FVec Ideal S50000x64 .f32) (a2 : IVec S2x800000 32) :
    FVec Ideal S50000x193 .f32 :=
  Host.scatterAdd (F := Ideal) scatter_S50000x193_S800000x1_S800000x193_1_0_0_1
    (broadcastInDim S50000x193 ![] bcast_S_S50000x193 (constant (F := Ideal) S_ .f32 0x00000000#32))
    (col (wrap (dstRow a2)))
    (Host.gather gather_S50000x193_S800000x1_S800000x193_1_0_n_n_0_1_1193 (featsOne a0 a1) (col (wrap (srcRow a2))))

/-- The neighbourhood sums: the first 192 columns. -/
def agg (a0 : FVec Ideal S50000x128 .f32) (a1 : FVec Ideal S50000x64 .f32) (a2 : IVec S2x800000 32) :
    FVec Ideal S50000x192 .f32 :=
  extractStridedSlice S50000x192 ![0, 0] (sums a0 a1 a2) slices_S50000x193_S50000x192_0_0

/-- The in-degrees: the last column, as a column. -/
def deg (a0 : FVec Ideal S50000x128 .f32) (a1 : FVec Ideal S50000x64 .f32) (a2 : IVec S2x800000 32) :
    FVec Ideal S50000x1 .f32 :=
  shapeCast S50000x1 (shapeCast S50000 (extractStridedSlice S50000x1 ![0, 192] (sums a0 a1 a2) slices_S50000x193_S50000x1_0_192)
    shapeCasts_S50000x1_S50000) shapeCasts_S50000_S50000x1

/-- The reciprocal standard deviation `rsqrt (var + ε)`, ε the word 0x3727C5AC. -/
def rstd (a10 : FVec Ideal S256 .f32) : FVec Ideal S256 .f32 :=
  Host.rsqrt (F := Ideal) (addf a10 (broadcastInDim S256 ![] bcast_S_S256 (constant (F := Ideal) S_ .f32 0x3727C5AC#32)))

/-- The folded batch norm's scale `γ · r`, as a row. -/
def scale (a7 a10 : FVec Ideal S256 .f32) : FVec Ideal S1x256 .f32 :=
  shapeCast S1x256 (mulf a7 (rstd a10)) shapeCasts_S256_S1x256

/-- The folded batch norm's shift `β − (μ · γ) · r`, as a row. -/
def shift (a7 a8 a9 a10 : FVec Ideal S256 .f32) : FVec Ideal S1x256 .f32 :=
  shapeCast S1x256 (subf a8 (mulf (mulf a9 a7) (rstd a10))) shapeCasts_S256_S1x256

end Cert.KernelHost

end
-- ==== Proof.KernelWindowsA.lean ====
/-
  The arrays the row-tiled windows and the first layer's parameter windows stage, as the region finds them:
  each is what the host operations before the launch computed from the arguments (features side by side, the
  neighbourhood sums and the degree column out of the one scatter-add, the folded batch norm's scale and shift,
  the first layer's weights narrowed and its bias as a row).
-/
import proofs.«165086_j36945308680832_2_alg».proof.Proof.Gen.KernelIdeal.Frame
import proofs.«165086_j36945308680832_2_alg».proof.Proof.KernelHost
import Idealize.ShloMosaic.Lib.StableHlo.Run

noncomputable section

namespace Cert.KernelWindows

open Cert.KernelIdeal Cert.KernelIdeal.Gen Idealize.ShloMosaic Idealize.ShloMosaic.TcCoe Idealize.SL.Sem
open Idealize.ShloMosaic.StableHlo Cert.KernelHost

variable (m : (ℓ : Loc nD τ sig) → Buf (Elt Ideal) ℓ)

set_option maxHeartbeats 4000000 in
/-- Window 0's array: the features. -/
theorem V_feats (c : Dev nD) : (V m c main_v0 : S50000x192.Idx → EReal) = feats (m ((c : Thread nD τ).loc main_arg0)) (m ((c : Thread nD τ).loc main_arg1)) := by
  unfold V; after_results <;> rfl

set_option maxHeartbeats 4000000 in
/-- Window 1's array: the neighbourhood sums. -/
theorem V_agg (c : Dev nD) : (V m c main_v22 : S50000x192.Idx → EReal) = agg (m ((c : Thread nD τ).loc main_arg0)) (m ((c : Thread nD τ).loc main_arg1)) (m ((c : Thread nD τ).loc main_arg2)) := by
  unfold V; after_results <;> rfl

set_option maxHeartbeats 4000000 in
/-- Window 2's array: the degree column. -/
theorem V_deg (c : Dev nD) : (V m c main_v25 : S50000x1.Idx → EReal) = deg (m ((c : Thread nD τ).loc main_arg0)) (m ((c : Thread nD τ).loc main_arg1)) (m ((c : Thread nD τ).loc main_arg2)) := by
  unfold V; after_results <;> rfl

set_option maxHeartbeats 4000000 in
/-- Window 3's array: the neighbour weights, narrowed. -/
theorem V_wl (c : Dev nD) : (V m c main_v40 : S192x256.Idx → EReal) = (truncf .bf16 ((m ((c : Thread nD τ).loc main_arg4)) : FVec Ideal S192x256 .f32) bitsLt_bf16_f32 : FVec Ideal S192x256 .bf16) := by
  unfold V; after_results <;> rfl

set_option maxHeartbeats 4000000 in
/-- Window 4's array: the bias as a row. -/
theorem V_bl (c : Dev nD) : (V m c main_v26 : S1x256.Idx → EReal) = shapeCast S1x256 ((m ((c : Thread nD τ).loc main_arg5)) : S256.Idx → EReal) shapeCasts_S256_S1x256 := by
  unfold V; after_results <;> rfl

set_option maxHeartbeats 4000000 in
/-- Window 5's array: the root weights, narrowed. -/
theorem V_wr (c : Dev nD) : (V m c main_v41 : S192x256.Idx → EReal) = (truncf .bf16 ((m ((c : Thread nD τ).loc main_arg6)) : FVec Ideal S192x256 .f32) bitsLt_bf16_f32 : FVec Ideal S192x256 .bf16) := by
  unfold V; after_results <;> rfl

set_option maxHeartbeats 4000000 in
/-- Window 6's array: the folded batch norm's scale row. -/
theorem V_scale (c : Dev nD) : (V m c main_v31 : S1x256.Idx → EReal) = scale (m ((c : Thread nD τ).loc main_arg7)) (m ((c : Thread nD τ).loc main_arg10)) := by
  unfold V; after_results <;> rfl

set_option maxHeartbeats 4000000 in
/-- Window 7's array: the folded batch norm's shift row. -/
theorem V_shift (c : Dev nD) : (V m c main_v35 : S1x256.Idx → EReal) = shift (m ((c : Thread nD τ).loc main_arg7)) (m ((c : Thread nD τ).loc main_arg8)) (m ((c : Thread nD τ).loc main_arg9)) (m ((c : Thread nD τ).loc main_arg10)) := by
  unfold V; after_results <;> rfl

end Cert.KernelWindows

end
-- ==== Proof.KernelWindowsB.lean ====
/-
  The arrays the four dense layers' parameter windows stage, as the region finds them: each weight matrix
  narrowed to bf16 (the identity on the extended reals) and each bias as a row.
-/
import proofs.«165086_j36945308680832_2_alg».proof.Proof.Gen.KernelIdeal.Frame
import proofs.«165086_j36945308680832_2_alg».proof.Proof.KernelHost
import Idealize.ShloMosaic.Lib.StableHlo.Run

noncomputable section

namespace Cert.KernelWindows

open Cert.KernelIdeal Cert.KernelIdeal.Gen Idealize.ShloMosaic Idealize.ShloMosaic.TcCoe Idealize.SL.Sem
open Idealize.ShloMosaic.StableHlo Cert.KernelHost

variable (m : (ℓ : Loc nD τ sig) → Buf (Elt Ideal) ℓ)

set_option maxHeartbeats 4000000 in
/-- Window 8's array. -/
theorem V_w1 (c : Dev nD) : (V m c main_v42 : S256x128.Idx → EReal) = (truncf .bf16 ((m ((c : Thread nD τ).loc main_arg11)) : FVec Ideal S256x128 .f32) bitsLt_bf16_f32 : FVec Ideal S256x128 .bf16) := by
  unfold V; after_results <;> rfl

set_option maxHeartbeats 4000000 in
/-- Window 9's array. -/
theorem V_b1 (c : Dev nD) : (V m c main_v36 : S1x128.Idx → EReal) = shapeCast S1x128 ((m ((c : Thread nD τ).loc main_arg12)) : S128.Idx → EReal) shapeCasts_S128_S1x128 := by
  unfold V; after_results <;> rfl

set_option maxHeartbeats 4000000 in
/-- Window 10's array. -/
theorem V_w2 (c : Dev nD) : (V m c main_v43 : S128x64.Idx → EReal) = (truncf .bf16 ((m ((c : Thread nD τ).loc main_arg13)) : FVec Ideal S128x64 .f32) bitsLt_bf16_f32 : FVec Ideal S128x64 .bf16) := by
  unfold V; after_results <;> rfl

set_option maxHeartbeats 4000000 in
/-- Window 11's array. -/
theorem V_b2 (c : Dev nD) : (V m c main_v37 : S1x64.Idx → EReal) = shapeCast S1x64 ((m ((c : Thread nD τ).loc main_arg14)) : S64.Idx → EReal) shapeCasts_S64_S1x64 := by
  unfold V; after_results <;> rfl

set_option maxHeartbeats 4000000 in
/-- Window 12's array. -/
theorem V_w3 (c : Dev nD) : (V m c main_v44 : S64x64.Idx → EReal) = (truncf .bf16 ((m ((c : Thread nD τ).loc main_arg15)) : FVec Ideal S64x64 .f32) bitsLt_bf16_f32 : FVec Ideal S64x64 .bf16) := by
  unfold V; after_results <;> rfl

set_option maxHeartbeats 4000000 in
/-- Window 13's array. -/
theorem V_b3 (c : Dev nD) : (V m c main_v38 : S1x64.Idx → EReal) = shapeCast S1x64 ((m ((c : Thread nD τ).loc main_arg16)) : S64.Idx → EReal) shapeCasts_S64_S1x64 := by
  unfold V; after_results <;> rfl

set_option maxHeartbeats 4000000 in
/-- Window 14's array. -/
theorem V_w4 (c : Dev nD) : (V m c main_v45 : S64x128.Idx → EReal) = (truncf .bf16 ((m ((c : Thread nD τ).loc main_arg17)) : FVec Ideal S64x128 .f32) bitsLt_bf16_f32 : FVec Ideal S64x128 .bf16) := by
  unfold V; after_results <;> rfl

set_option maxHeartbeats 4000000 in
/-- Window 15's array. -/
theorem V_b4 (c : Dev nD) : (V m c main_v39 : S1x128.Idx → EReal) = shapeCast S1x128 ((m ((c : Thread nD τ).loc main_arg18)) : S128.Idx → EReal) shapeCasts_S128_S1x128 := by
  unfold V; after_results <;> rfl

end Cert.KernelWindows

end
-- ==== Proof.KernelValue.lean ====
/-
  The kernel's result array, as one function of what the host operations hand to the body.

  The grid has ten points; point `t` works on nodes `5000·t … 5000·t + 4999`: the three row-tiled operands' blocks
  are those rows of their arrays, every parameter's block is its whole array, and the output block is those rows of
  the result. By the body's arithmetic read at an entry, point `t` writes back exactly those rows of the array-level
  network `net` of the operand arrays; the ten blocks cover the result (node `n` lies in block `n / 5000`); so the
  result array after the run IS `net` of the operand arrays, and those are the host stages of the arguments.
-/
import proofs.«165086_j36945308680832_2_alg».proof.Proof.KernelFlush
import proofs.«165086_j36945308680832_2_alg».proof.Proof.KernelWindowsA
import proofs.«165086_j36945308680832_2_alg».proof.Proof.KernelWindowsB

noncomputable section

namespace Cert.KernelValue

open Cert.KernelIdeal Cert.KernelIdeal.Gen Idealize.ShloMosaic Idealize.ShloMosaic.TcCoe Idealize.SL.Sem
open Idealize.ShloMosaic.ValueIdx Cert.Rows Cert.Network Cert.KernelHost Cert.KernelWindows
open Idealize.ShloMosaic.Pipeline (Dat)

variable (m : (ℓ : Loc nD τ sig) → Buf (Elt Ideal) ℓ) (ρ : Dev nD → PrngReg)

/-- Every index of the result lies in some point's block: node `n` in block `n / 5000`. -/
theorem covered (i : S50000x128.Idx) :
    ∃ t : Fin cfg0.N, (cfg0.win 16).flush t = true ∧ i ∈ ((cfg0.win 16).blk t).view.set := by
  have h0 : (i 0).val < 50000 := (i 0).isLt
  have h1 : (i 1).val < 128 := (i 1).isLt
  obtain ⟨t, ht⟩ : ∃ t : Fin cfg0.N, t.val = (i 0).val / 5000 :=
    ⟨⟨(i 0).val / 5000, by have hN : cfg0.N = 10 := N_0; omega⟩, rfl⟩
  obtain ⟨e0, e1⟩ := idx16 t
  refine ⟨t, flush0_16 t, ?_⟩
  show i ∈ ((View.whole main_v46).slice (win0_16.rect t)).set
  rw [View.set_slice_whole, Rect.mem_set_unit]
  intro a
  match a with
  | ⟨0, _⟩ =>
    show win0_16.index t 0 * 5000 ≤ (i 0).val ∧ (i 0).val < win0_16.index t 0 * 5000 + 5000
    rw [e0, ht]; omega
  | ⟨1, _⟩ =>
    show win0_16.index t 1 * 128 ≤ (i 1).val ∧ (i 1).val < win0_16.index t 1 * 128 + 128
    rw [e1]; omega

/-- THE RESULT ARRAY after the run is the network of the operand arrays. -/
theorem final (c : Dev nD)
    (X A : S50000x192.Idx → EReal) (D : S50000x1.Idx → EReal)
    (hX : (V m c (Pipeline.arrRef spec0 0) : S50000x192.Idx → EReal) = X)
    (hA : (V m c (Pipeline.arrRef spec0 1) : S50000x192.Idx → EReal) = A)
    (hD : (V m c (Pipeline.arrRef spec0 2) : S50000x1.Idx → EReal) = D) :
    (dats m 0 c).arrAt 16 cfg0.N = resultOf m c X A D :=
  (dats m 0 c).arrAt_eq_of_cover 16 (resultOf m c X A D) (fun t _ => flushed_eq m c t X A D hX hA hD) (covered)

/-- The row-tiled windows stage the buffers of the features, the neighbourhood sums and the degree column. -/
theorem arr0 (c : Dev nD) : (V m c (Pipeline.arrRef spec0 0) : S50000x192.Idx → EReal) = (V m c main_v0 : S50000x192.Idx → EReal) := rfl
theorem arr1 (c : Dev nD) : (V m c (Pipeline.arrRef spec0 1) : S50000x192.Idx → EReal) = (V m c main_v22 : S50000x192.Idx → EReal) := rfl
theorem arr2 (c : Dev nD) : (V m c (Pipeline.arrRef spec0 2) : S50000x1.Idx → EReal) = (V m c main_v25 : S50000x1.Idx → EReal) := rfl

/-- The network of the host stages of the arguments. -/
abbrev hostNet (c : Dev nD) : S50000x128.Idx → EReal :=
  net (feats (m ((c : Thread nD τ).loc main_arg0)) (m ((c : Thread nD τ).loc main_arg1)))
    (agg (m ((c : Thread nD τ).loc main_arg0)) (m ((c : Thread nD τ).loc main_arg1)) (m ((c : Thread nD τ).loc main_arg2)))
    (deg (m ((c : Thread nD τ).loc main_arg0)) (m ((c : Thread nD τ).loc main_arg1)) (m ((c : Thread nD τ).loc main_arg2)))
    (truncf .bf16 ((m ((c : Thread nD τ).loc main_arg4)) : FVec Ideal S192x256 .f32) bitsLt_bf16_f32 : FVec Ideal S192x256 .bf16)
    (shapeCast S1x256 ((m ((c : Thread nD τ).loc main_arg5)) : S256.Idx → EReal) shapeCasts_S256_S1x256)
    (truncf .bf16 ((m ((c : Thread nD τ).loc main_arg6)) : FVec Ideal S192x256 .f32) bitsLt_bf16_f32 : FVec Ideal S192x256 .bf16)
    (scale (m ((c : Thread nD τ).loc main_arg7)) (m ((c : Thread nD τ).loc main_arg10)))
    (shift (m ((c : Thread nD τ).loc main_arg7)) (m ((c : Thread nD τ).loc main_arg8)) (m ((c : Thread nD τ).loc main_arg9)) (m ((c : Thread nD τ).loc main_arg10)))
    (truncf .bf16 ((m ((c : Thread nD τ).loc main_arg11)) : FVec Ideal S256x128 .f32) bitsLt_bf16_f32 : FVec Ideal S256x128 .bf16)
    (shapeCast S1x128 ((m ((c : Thread nD τ).loc main_arg12)) : S128.Idx → EReal) shapeCasts_S128_S1x128)
    (truncf .bf16 ((m ((c : Thread nD τ).loc main_arg13)) : FVec Ideal S128x64 .f32) bitsLt_bf16_f32 : FVec Ideal S128x64 .bf16)
    (shapeCast S1x64 ((m ((c : Thread nD τ).loc main_arg14)) : S64.Idx → EReal) shapeCasts_S64_S1x64)
    (truncf .bf16 ((m ((c : Thread nD τ).loc main_arg15)) : FVec Ideal S64x64 .f32) bitsLt_bf16_f32 : FVec Ideal S64x64 .bf16)
    (shapeCast S1x64 ((m ((c : Thread nD τ).loc main_arg16)) : S64.Idx → EReal) shapeCasts_S64_S1x64)
    (truncf .bf16 ((m ((c : Thread nD τ).loc main_arg17)) : FVec Ideal S64x128 .f32) bitsLt_bf16_f32 : FVec Ideal S64x128 .bf16)
    (shapeCast S1x128 ((m ((c : Thread nD τ).loc main_arg18)) : S128.Idx → EReal) shapeCasts_S128_S1x128)

/-- The parameter arrays are the host stages of the arguments. -/
theorem result_eq (c : Dev nD) (X A : S50000x192.Idx → EReal) (D : S50000x1.Idx → EReal) :
    resultOf m c X A D = net X A D
    (truncf .bf16 ((m ((c : Thread nD τ).loc main_arg4)) : FVec Ideal S192x256 .f32) bitsLt_bf16_f32 : FVec Ideal S192x256 .bf16)
    (shapeCast S1x256 ((m ((c : Thread nD τ).loc main_arg5)) : S256.Idx → EReal) shapeCasts_S256_S1x256)
    (truncf .bf16 ((m ((c : Thread nD τ).loc main_arg6)) : FVec Ideal S192x256 .f32) bitsLt_bf16_f32 : FVec Ideal S192x256 .bf16)
    (scale (m ((c : Thread nD τ).loc main_arg7)) (m ((c : Thread nD τ).loc main_arg10)))
    (shift (m ((c : Thread nD τ).loc main_arg7)) (m ((c : Thread nD τ).loc main_arg8)) (m ((c : Thread nD τ).loc main_arg9)) (m ((c : Thread nD τ).loc main_arg10)))
    (truncf .bf16 ((m ((c : Thread nD τ).loc main_arg11)) : FVec Ideal S256x128 .f32) bitsLt_bf16_f32 : FVec Ideal S256x128 .bf16)
    (shapeCast S1x128 ((m ((c : Thread nD τ).loc main_arg12)) : S128.Idx → EReal) shapeCasts_S128_S1x128)
    (truncf .bf16 ((m ((c : Thread nD τ).loc main_arg13)) : FVec Ideal S128x64 .f32) bitsLt_bf16_f32 : FVec Ideal S128x64 .bf16)
    (shapeCast S1x64 ((m ((c : Thread nD τ).loc main_arg14)) : S64.Idx → EReal) shapeCasts_S64_S1x64)
    (truncf .bf16 ((m ((c : Thread nD τ).loc main_arg15)) : FVec Ideal S64x64 .f32) bitsLt_bf16_f32 : FVec Ideal S64x64 .bf16)
    (shapeCast S1x64 ((m ((c : Thread nD τ).loc main_arg16)) : S64.Idx → EReal) shapeCasts_S64_S1x64)
    (truncf .bf16 ((m ((c : Thread nD τ).loc main_arg17)) : FVec Ideal S64x128 .f32) bitsLt_bf16_f32 : FVec Ideal S64x128 .bf16)
    (shapeCast S1x128 ((m ((c : Thread nD τ).loc main_arg18)) : S128.Idx → EReal) shapeCasts_S128_S1x128) := by
  unfold resultOf
  rw [V_wl, V_bl, V_wr, V_scale, V_shift, V_w1, V_b1, V_w2, V_b2, V_w3, V_b3, V_w4, V_b4]

/-- THE KERNEL'S RUN: every weakly fair execution terminates with the result array at the network of the host stages of
    the arguments, and the arguments unchanged. -/
theorem run : θ_run defs (onTc (τ := τ) (main (F := Ideal))) ⟨m, fun _ => 0, ρ⟩ fun r => ∀ c : Dev nD,
      r.2.mem ((c : Thread nD τ).loc main_v46) = hostNet m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans ((final m c _ _ _ ((arr0 m c).trans (V_feats m c)) ((arr1 m c).trans (V_agg m c))
      ((arr2 m c).trans (V_deg m c))).trans (result_eq m c _ _ _)), (h c).2⟩)
    (Value.run_blocks m ρ)

end Cert.KernelValue

end
-- ==== Proof.LibColumns.lean ====
/-
  Rows and columns: two facts about arrays whose columns are laid side by side.

  All arrays are rank 2. An update array of `E` rows is scattered into an array of `N` rows by a column `I` of
  row indices (one signed integer per update row, `I (e, 0)`): update element `(e, g)` is added at `(I e, g)`,
  and dropped when `I e` is not a row of the target. A gather reads the other way: result element `(e, g)` is
  the operand at `(J e, g)`, with `J e` brought into `[0, N − 1]`. Both act on each column on its own. Hence:

  * scattering (with addition, on the extended reals) two arrays laid side by side and then cutting the result
    back into its two column ranges gives the two scatters of the two arrays;
  * gathering rows of two arrays laid side by side and then cutting gives the two gathers.

  The dimension numbers are the records `rowScatter` and `rowGather` below, whose side conditions are a
  parameter: any record with the same lists is one of them by `rfl`.
-/
import Idealize.ShloMosaic.PureOps.Ideal
import Idealize.ShloMosaic.PureOps.ShapeOps
import Idealize.ShloMosaic.PureOps.Dims
import Idealize.ShloMosaic.PureOps.Contract
import Idealize.ShloMosaic.Lib.ValueIdx
import Idealize.ShloMosaic.Lib.Pipeline.Value

noncomputable section

open scoped BigOperators

namespace Cert.LibColumns

open Idealize.ShloMosaic Idealize.ShloMosaic.ValueIdx

/-! ## Scattering rows -/

/-- The dimension numbers of a row scatter: updates `[E, C]` go into an operand `[N, C]` at the rows named by
    scatter indices `[E, 1]` — the updates' axis 1 is the window axis, the operand's axis 0 is inserted and is the
    one the index names, the index vector lies along axis 1 of the indices. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (I : IVec ⟨2, ![E, 1]⟩ w)

/-- On the row axis the window of update `(e, g)` starts at the signed value of the index `I (e, 0)`. -/
theorem rowScatter_start_row (e : Fin E) (g : Fin C) :
    (rowScatter N E C wf).start (ix2 e g) I 0 = (I (ix2 e (0 : Fin 1))).toInt := by
  unfold ScatterDims.start
  rw [dif_pos (show (0 : Fin 2) ∈ (rowScatter N E C wf).scatterDimsToOperandDims from List.mem_singleton.mpr rfl)]
  congr 2
  funext b
  refine Fin.ext ?_
  match b with
  | ⟨0, _⟩ => rfl
  | ⟨1, _⟩ => rfl

/-- On the column axis every window starts at 0. -/
theorem rowScatter_start_col (e : Fin E) (g : Fin C) :
    (rowScatter N E C wf).start (ix2 e g) I 1 = 0 := by
  unfold ScatterDims.start
  rw [dif_neg (show (1 : Fin 2) ∉ ([0] : List (Fin 2)) by simp)]

/-- The row axis is inserted: the window coordinate there is 0. -/
theorem rowScatter_window_row (e : Fin E) (g : Fin C) :
    (rowScatter N E C wf).window (ix2 e g) 0 = 0 := by
  unfold ScatterDims.window
  rw [dif_neg (show (0 : Fin 2) ∉ Shape.kept ⟨2, ![N, C]⟩ [0] by simp [Shape.kept])]

/-- On the column axis the window coordinate of update `(e, g)` is `g`. -/
theorem rowScatter_window_col (e : Fin E) (g : Fin C) :
    (rowScatter N E C wf).window (ix2 e g) 1 = g.val := by
  unfold ScatterDims.window
  rw [dif_pos (show (1 : Fin 2) ∈ Shape.kept ⟨2, ![N, C]⟩ [0] by simp [Shape.kept])]
  rfl

/-- Update `(e, g)` lands on `(n, f)` exactly when its index is `n` and `g = f`. -/
theorem rowScatter_resultIdx?_eq_some_iff (e : Fin E) (g : Fin C) (n : Fin N) (f : Fin C) :
    (rowScatter N E C wf).resultIdx? (ix2 e g) I = some (ix2 n f)
      ↔ (I (ix2 e (0 : Fin 1))).toInt = (n.val : Int) ∧ g = f := by
  have hs0 := rowScatter_start_row wf I e g
  have hs1 := rowScatter_start_col wf I e g
  have hw0 := rowScatter_window_row wf e g
  have hw1 := rowScatter_window_col wf e g
  unfold ScatterDims.resultIdx?
  by_cases h : ∀ a : Fin 2, 0 ≤ (rowScatter N E C wf).start (ix2 e g) I a + ((rowScatter N E C wf).window (ix2 e g) a : Int)
      ∧ (rowScatter N E C wf).start (ix2 e g) I a + ((rowScatter N E C wf).window (ix2 e g) a : Int)
        < ((⟨2, ![N, C]⟩ : Shape).size a : Int)
  · rw [dif_pos h]
    have h0 := h 0
    rw [hs0, hw0] at h0
    constructor
    · intro hh
      have hh' := Option.some.inj hh
      have e0 := congrArg (fun k => (k 0).val) hh'
      have e1 := congrArg (fun k => (k 1).val) hh'
      simp only [hs0, hw0, hs1, hw1] at e0 e1
      refine ⟨?_, Fin.ext ?_⟩
      · have : ((I (ix2 e (0 : Fin 1))).toInt + ((0 : Nat) : Int)).toNat = n.val := e0
        omega
      · have : ((0 : Int) + (g.val : Int)).toNat = f.val := e1
        omega
    · rintro ⟨ht, rfl⟩
      congr 1
      funext a
      refine Fin.ext ?_
      match a with
      | ⟨0, _⟩ =>
        show ((rowScatter N E C wf).start (ix2 e g) I 0 + ((rowScatter N E C wf).window (ix2 e g) 0 : Int)).toNat = n.val
        rw [hs0, hw0]; omega
      | ⟨1, _⟩ =>
        show ((rowScatter N E C wf).start (ix2 e g) I 1 + ((rowScatter N E C wf).window (ix2 e g) 1 : Int)).toNat = g.val
        rw [hs1, hw1]; omega
  · rw [dif_neg h]
    constructor
    · intro hh; exact absurd hh (by simp)
    · rintro ⟨ht, rfl⟩
      exfalso
      apply h
      intro a
      match a with
      | ⟨0, _⟩ =>
        show 0 ≤ (rowScatter N E C wf).start (ix2 e g) I 0 + ((rowScatter N E C wf).window (ix2 e g) 0 : Int)
          ∧ (rowScatter N E C wf).start (ix2 e g) I 0 + ((rowScatter N E C wf).window (ix2 e g) 0 : Int) < (N : Int)
        rw [hs0, hw0]; have := n.isLt; omega
      | ⟨1, _⟩ =>
        show 0 ≤ (rowScatter N E C wf).start (ix2 e g) I 1 + ((rowScatter N E C wf).window (ix2 e g) 1 : Int)
          ∧ (rowScatter N E C wf).start (ix2 e g) I 1 + ((rowScatter N E C wf).window (ix2 e g) 1 : Int) < (C : Int)
        rw [hs1, hw1]; have := g.isLt; omega

/-- THE ROW SCATTER-ADD AT `(n, f)`: the operand's element plus the sum, over the update rows `e` whose index is
    `n`, of the update's element `(e, f)`. -/
theorem hostScatterAdd_rows_apply (X : (⟨2, ![N, C]⟩ : Shape).Idx → EReal) (U : (⟨2, ![E, C]⟩ : Shape).Idx → EReal)
    (n : Fin N) (f : Fin C) :
    Ideal.hostScatterAdd (rowScatter N E C wf) X I U (ix2 n f)
      = X (ix2 n f) + ∑ e : Fin E, if (I (ix2 e (0 : Fin 1))).toInt = (n.val : Int) then U (ix2 e f) else 0 := by
  unfold Ideal.hostScatterAdd
  congr 1
  rw [Finset.sum_filter, sum_idx2]
  refine Finset.sum_congr rfl fun e _ => ?_
  simp only [rowScatter_resultIdx?_eq_some_iff]
  by_cases ht : (I (ix2 e (0 : Fin 1))).toInt = (n.val : Int)
  · simp [ht]
  · simp [ht]

/-- The same for the host operation at the ideal instance, at any float format. -/
theorem scatterAdd_rows_apply {φ : FTy} (X : FVec Ideal ⟨2, ![N, C]⟩ φ) (U : FVec Ideal ⟨2, ![E, C]⟩ φ)
    (n : Fin N) (f : Fin C) :
    Host.scatterAdd (rowScatter N E C wf) X I U (ix2 n f)
      = X (ix2 n f) + ∑ e : Fin E, if (I (ix2 e (0 : Fin 1))).toInt = (n.val : Int) then U (ix2 e f) else 0 :=
  hostScatterAdd_rows_apply wf I X U n f

end Scatter

/-! ## A scatter-add of two arrays side by side, cut back into its column ranges -/

section ScatterColumns
variable {N E C D T w : Nat} {φ : FTy}

/-- The first `C` columns of the scatter-add of `[A | B]` (columns `C` and `D` wide) into `X` are the scatter-add
    of `A` into the first `C` columns of `X`: the sum for `(n, f)`, `f < C`, runs over the update rows whose
    index is `n` and reads column `f` of `[A | B]`, which is column `f` of `A`. -/
theorem slice_scatterAdd_concat_left
    (wfT : ScatterDims.WF ⟨2, ![N, T]⟩ ⟨2, ![E, 1]⟩ ⟨2, ![E, T]⟩ [1] [0] [0] 1)
    (wfC : ScatterDims.WF ⟨2, ![N, C]⟩ ⟨2, ![E, 1]⟩ ⟨2, ![E, C]⟩ [1] [0] [0] 1)
    (hc : Shape.Concatenates [(⟨2, ![E, C]⟩ : Shape), ⟨2, ![E, D]⟩] ⟨2, ![E, T]⟩ 1)
    (hs : (⟨2, ![N, T]⟩ : Shape).Slices ![0, 0] ⟨2, ![N, C]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, C]⟩ ![0, 0]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E C wfC) (extractStridedSlice ⟨2, ![N, C]⟩ ![0, 0] X hs) I A := by
  funext i
  obtain ⟨n, f, rfl⟩ : ∃ (n : Fin N) (f : Fin C), i = ix2 n f := ⟨i 0, i 1, eq_ix2 i⟩
  have hCT : C ≤ T := by have := hs.2 1; simpa using this
  have hf : f.val < T := lt_of_lt_of_le f.isLt hCT
  have hk : ∀ a : Fin 2, ((ix2 n (⟨f.val, hf⟩ : Fin T) : (⟨2, ![N, T]⟩ : Shape).Idx) a).val
      = (![0, 0] : Fin 2 → Nat) a + ((ix2 n f : (⟨2, ![N, C]⟩ : Shape).Idx) (a.cast hs.1.symm)).val := fun a => by
    match a with
    | ⟨0, _⟩ => exact (Nat.zero_add _).symm
    | ⟨1, _⟩ => exact (Nat.zero_add _).symm
  rw [extractStridedSlice_apply ![0, 0] _ hs (ix2 n f) (ix2 n (⟨f.val, hf⟩ : Fin T)) hk,
    scatterAdd_rows_apply, scatterAdd_rows_apply,
    extractStridedSlice_apply ![0, 0] X hs (ix2 n f) (ix2 n (⟨f.val, hf⟩ : Fin T)) hk]
  congr 1
  refine Finset.sum_congr rfl fun e _ => ?_
  rw [concatenate_pair_apply_left (t := ⟨2, ![E, T]⟩) (s₁ := ⟨2, ![E, C]⟩) (s₂ := ⟨2, ![E, D]⟩) (1 : Fin 2) A B hc
    (ix2 e (⟨f.val, hf⟩ : Fin T)) rfl (ix2 e f) (fun b => by
      match b with
      | ⟨0, _⟩ => rfl
      | ⟨1, _⟩ => rfl)]

/-- The `D` columns from column `C` on of the scatter-add of `[A | B]` into `X` are the scatter-add of `B` into
    those columns of `X`: column `C + f` of `[A | B]` is column `f` of `B`. -/
theorem slice_scatterAdd_concat_right
    (wfT : ScatterDims.WF ⟨2, ![N, T]⟩ ⟨2, ![E, 1]⟩ ⟨2, ![E, T]⟩ [1] [0] [0] 1)
    (wfD : ScatterDims.WF ⟨2, ![N, D]⟩ ⟨2, ![E, 1]⟩ ⟨2, ![E, D]⟩ [1] [0] [0] 1)
    (hc : Shape.Concatenates [(⟨2, ![E, C]⟩ : Shape), ⟨2, ![E, D]⟩] ⟨2, ![E, T]⟩ 1)
    (hs : (⟨2, ![N, T]⟩ : Shape).Slices ![0, C] ⟨2, ![N, D]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, D]⟩ ![0, C]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E D wfD) (extractStridedSlice ⟨2, ![N, D]⟩ ![0, C] X hs) I B := by
  funext i
  obtain ⟨n, f, rfl⟩ : ∃ (n : Fin N) (f : Fin D), i = ix2 n f := ⟨i 0, i 1, eq_ix2 i⟩
  have hCT : C + D ≤ T := by have := hs.2 1; simpa using this
  have hf : C + f.val < T := by have := f.isLt; omega
  have hk : ∀ a : Fin 2, ((ix2 n (⟨C + f.val, hf⟩ : Fin T) : (⟨2, ![N, T]⟩ : Shape).Idx) a).val
      = (![0, C] : Fin 2 → Nat) a + ((ix2 n f : (⟨2, ![N, D]⟩ : Shape).Idx) (a.cast hs.1.symm)).val := fun a => by
    match a with
    | ⟨0, _⟩ => exact (Nat.zero_add _).symm
    | ⟨1, _⟩ => rfl
  rw [extractStridedSlice_apply ![0, C] _ hs (ix2 n f) (ix2 n (⟨C + f.val, hf⟩ : Fin T)) hk,
    scatterAdd_rows_apply, scatterAdd_rows_apply,
    extractStridedSlice_apply ![0, C] X hs (ix2 n f) (ix2 n (⟨C + f.val, hf⟩ : Fin T)) hk]
  congr 1
  refine Finset.sum_congr rfl fun e _ => ?_
  rw [concatenate_pair_apply_right (t := ⟨2, ![E, T]⟩) (s₁ := ⟨2, ![E, C]⟩) (s₂ := ⟨2, ![E, D]⟩) (1 : Fin 2) A B hc
    (ix2 e (⟨C + f.val, hf⟩ : Fin T)) rfl rfl (ix2 e f) (fun b hb => by
      match b with
      | ⟨0, _⟩ => rfl
      | ⟨1, _⟩ => exact absurd rfl hb) (Nat.add_comm _ _)]

/-- A block cut out of a scalar spread over a whole array is the scalar spread over the block (the all-zero
    array a scatter-add starts from is of this form). -/
theorem extractStridedSlice_broadcastInDim_scalar {α : Type} {s t : Shape} (off : Fin s.rank → Nat) (hs : s.Slices off t)
    (dims : Fin (⟨0, ![]⟩ : Shape).rank → Fin s.rank) (dims' : Fin (⟨0, ![]⟩ : Shape).rank → Fin t.rank)
    (hb : (⟨0, ![]⟩ : Shape).BroadcastsInDim s dims) (hb' : (⟨0, ![]⟩ : Shape).BroadcastsInDim t dims')
    (z : (⟨0, ![]⟩ : Shape).Idx → α) :
    extractStridedSlice t off (broadcastInDim s dims hb z) hs = broadcastInDim t dims' hb' z := by
  funext j
  unfold extractStridedSlice broadcastInDim
  exact congrArg z (funext fun a => a.elim0)

end ScatterColumns

/-! ## Gathering rows -/

/-- The dimension numbers of a row gather: result `[E, C]` reads an operand `[N, C]` at the rows named by start
    indices `[E, 1]` — the result's axis 1 is the offset axis, the operand's axis 0 is collapsed and is the one the
    index names, slices are one row of `C` columns, the index vector lies along axis 1 of the indices. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}
  (wf : GatherDims.WF ⟨2, ![N, C]⟩ ⟨2, ![E, 1]⟩ ⟨2, ![E, C]⟩ [1] [0] [] [0] [] 1 ![1, C])
  (J : IVec ⟨2, ![E, 1]⟩ w)

/-- The row result row `e` reads: the start index `J (e, 0)` as a signed integer, brought into `[0, N − 1]`. -/
def gatherRow (hN : 0 < N) (e : Fin E) : Fin N :=
  ⟨min (J (ix2 e (0 : Fin 1))).toInt.toNat (N - 1), by omega⟩

/-- The operand index of result `(e, f)` is `(gatherRow e, f)`. -/
theorem rowGather_operandIdx (hN : 0 < N) (e : Fin E) (f : Fin C) :
    (rowGather N E C wf).operandIdx (ix2 e f) J = ix2 (gatherRow J hN e) f := by
  funext a
  refine Fin.ext ?_
  match a with
  | ⟨0, _⟩ =>
    show (rowGather N E C wf).start (ix2 e f) J 0 + (rowGather N E C wf).batchCoord (ix2 e f) 0
      + (rowGather N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e f) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e f) J 1 + (rowGather N E C wf).batchCoord (ix2 e f) 1
      + (rowGather N E C wf).offCoord (ix2 e f) 1 = f.val
    rw [GatherDims.batchCoord_eq_zero _ _ _ List.not_mem_nil]
    have hst : (rowGather N E C wf).start (ix2 e f) J 1 = 0 := by
      unfold GatherDims.start
      rw [dif_neg (show (1 : Fin 2) ∉ ([0] : List (Fin 2)) by simp)]
    have hoff : (rowGather N E C wf).offCoord (ix2 e f) 1 = f.val := by
      unfold GatherDims.offCoord
      rw [dif_pos ((GatherDims.mem_sKept _ _).mpr ⟨by simp, List.not_mem_nil⟩)]
      rfl
    rw [hst, hoff]; omega

/-- THE ROW GATHER AT `(e, f)`: the operand at `(gatherRow e, f)`. -/
theorem gather_rows_apply (hN : 0 < N) (x : (⟨2, ![N, C]⟩ : Shape).Idx → α) (e : Fin E) (f : Fin C) :
    Host.gather (rowGather N E C wf) x J (ix2 e f) = x (ix2 (gatherRow J hN e) f) := by
  unfold Host.gather
  rw [rowGather_operandIdx wf J hN e f]

end Gather

/-! ## A row gather of two arrays side by side, cut back into its column ranges -/

section GatherColumns
variable {α : Type} {N E C D T w : Nat}

/-- The first `C` columns of the row gather of `[P | Q]` are the row gather of `P`: both read row `gatherRow e`
    (the operands have the same number of rows, so the start index is brought into the same range). -/
theorem slice_gather_concat_left (hN : 0 < N)
    (wfT : GatherDims.WF ⟨2, ![N, T]⟩ ⟨2, ![E, 1]⟩ ⟨2, ![E, T]⟩ [1] [0] [] [0] [] 1 ![1, T])
    (wfC : GatherDims.WF ⟨2, ![N, C]⟩ ⟨2, ![E, 1]⟩ ⟨2, ![E, C]⟩ [1] [0] [] [0] [] 1 ![1, C])
    (hc : Shape.Concatenates [(⟨2, ![N, C]⟩ : Shape), ⟨2, ![N, D]⟩] ⟨2, ![N, T]⟩ 1)
    (hs : (⟨2, ![E, T]⟩ : Shape).Slices ![0, 0] ⟨2, ![E, C]⟩)
    (P : (⟨2, ![N, C]⟩ : Shape).Idx → α) (Q : (⟨2, ![N, D]⟩ : Shape).Idx → α) (J : IVec ⟨2, ![E, 1]⟩ w) :
    extractStridedSlice ⟨2, ![E, C]⟩ ![0, 0]
        (Host.gather (rowGather N E T wfT)
          (concatenate ⟨2, ![N, T]⟩ 1 [⟨⟨2, ![N, C]⟩, P⟩, ⟨⟨2, ![N, D]⟩, Q⟩] hc) J) hs
      = Host.gather (rowGather N E C wfC) P J := by
  funext i
  obtain ⟨e, f, rfl⟩ : ∃ (e : Fin E) (f : Fin C), i = ix2 e f := ⟨i 0, i 1, eq_ix2 i⟩
  have hCT : C ≤ T := by have := hs.2 1; simpa using this
  have hf : f.val < T := lt_of_lt_of_le f.isLt hCT
  rw [extractStridedSlice_apply ![0, 0] _ hs (ix2 e f) (ix2 e (⟨f.val, hf⟩ : Fin T)) (fun a => by
      match a with
      | ⟨0, _⟩ => exact (Nat.zero_add _).symm
      | ⟨1, _⟩ => exact (Nat.zero_add _).symm),
    gather_rows_apply wfT J hN, gather_rows_apply wfC J hN]
  exact concatenate_pair_apply_left (t := ⟨2, ![N, T]⟩) (s₁ := ⟨2, ![N, C]⟩) (s₂ := ⟨2, ![N, D]⟩) (1 : Fin 2) P Q hc
    (ix2 (gatherRow J hN e) (⟨f.val, hf⟩ : Fin T)) rfl (ix2 (gatherRow J hN e) f) (fun b => by
      match b with
      | ⟨0, _⟩ => rfl
      | ⟨1, _⟩ => rfl)

/-- The `D` columns from column `C` on of the row gather of `[P | Q]` are the row gather of `Q`. -/
theorem slice_gather_concat_right (hN : 0 < N)
    (wfT : GatherDims.WF ⟨2, ![N, T]⟩ ⟨2, ![E, 1]⟩ ⟨2, ![E, T]⟩ [1] [0] [] [0] [] 1 ![1, T])
    (wfD : GatherDims.WF ⟨2, ![N, D]⟩ ⟨2, ![E, 1]⟩ ⟨2, ![E, D]⟩ [1] [0] [] [0] [] 1 ![1, D])
    (hc : Shape.Concatenates [(⟨2, ![N, C]⟩ : Shape), ⟨2, ![N, D]⟩] ⟨2, ![N, T]⟩ 1)
    (hs : (⟨2, ![E, T]⟩ : Shape).Slices ![0, C] ⟨2, ![E, D]⟩)
    (P : (⟨2, ![N, C]⟩ : Shape).Idx → α) (Q : (⟨2, ![N, D]⟩ : Shape).Idx → α) (J : IVec ⟨2, ![E, 1]⟩ w) :
    extractStridedSlice ⟨2, ![E, D]⟩ ![0, C]
        (Host.gather (rowGather N E T wfT)
          (concatenate ⟨2, ![N, T]⟩ 1 [⟨⟨2, ![N, C]⟩, P⟩, ⟨⟨2, ![N, D]⟩, Q⟩] hc) J) hs
      = Host.gather (rowGather N E D wfD) Q J := by
  funext i
  obtain ⟨e, f, rfl⟩ : ∃ (e : Fin E) (f : Fin D), i = ix2 e f := ⟨i 0, i 1, eq_ix2 i⟩
  have hCT : C + D ≤ T := by have := hs.2 1; simpa using this
  have hf : C + f.val < T := by have := f.isLt; omega
  rw [extractStridedSlice_apply ![0, C] _ hs (ix2 e f) (ix2 e (⟨C + f.val, hf⟩ : Fin T)) (fun a => by
      match a with
      | ⟨0, _⟩ => exact (Nat.zero_add _).symm
      | ⟨1, _⟩ => rfl),
    gather_rows_apply wfT J hN, gather_rows_apply wfD J hN]
  exact concatenate_pair_apply_right (t := ⟨2, ![N, T]⟩) (s₁ := ⟨2, ![N, C]⟩) (s₂ := ⟨2, ![N, D]⟩) (1 : Fin 2) P Q hc
    (ix2 (gatherRow J hN e) (⟨C + f.val, hf⟩ : Fin T)) rfl rfl (ix2 (gatherRow J hN e) f) (fun b hb => by
      match b with
      | ⟨0, _⟩ => rfl
      | ⟨1, _⟩ => exact absurd rfl hb) (Nat.add_comm _ _)

end GatherColumns

/-! ## Format changes around a gather, at the ideal instance -/

section Formats
variable {s si t : Shape} {w : Nat} {φ ψ : FTy}

/-- On the extended reals a narrowing and a widening of the format are the identity, so a gather of a narrowed
    array, widened again, is the gather of the array. -/
theorem extf_gather_truncf (d : GatherDims s si t) (X : FVec Ideal s φ) (J : IVec si w)
    (h : ψ.bits < φ.bits) (h' : ψ.bits < φ.bits) :
    extf φ (Host.gather d (truncf ψ X h) J) h' = Host.gather d X J := rfl

/-- A narrowing of the format is the identity on the extended reals. -/
theorem truncf_eq (X : FVec Ideal s φ) (h : ψ.bits < φ.bits) : (truncf ψ X h : FVec Ideal s ψ) = X := rfl

/-- A widening of the format is the identity on the extended reals. -/
theorem extf_eq (X : FVec Ideal s φ) (h : φ.bits < ψ.bits) : (extf ψ X h : FVec Ideal s ψ) = X := rfl

end Formats

end Cert.LibColumns

end
-- ==== Proof.LibFlatScatter.lean ====
/-
  A scatter of single entries into a flat array, read at an index.

  An update array of `E` entries is scattered into a flat array of `N` entries by a column `I` of indices (one
  signed integer per update, `I (e, 0)`): update `e` is added at entry `I e`, and dropped when `I e` is not an
  entry of the target (the scatter does not clamp). So, on the extended reals, the result at `n` is the operand
  at `n` plus the sum, over the updates whose index is `n`, of the update.

  The dimension numbers are the record `flatScatter` below, whose side conditions are a parameter: any record
  with the same lists is one of them by `rfl`.
-/
import Idealize.ShloMosaic.PureOps.Ideal
import Idealize.ShloMosaic.PureOps.Dims
import Idealize.ShloMosaic.Lib.ValueIdx

noncomputable section

open scoped BigOperators

namespace Cert.LibFlatScatter

open Idealize.ShloMosaic Idealize.ShloMosaic.ValueIdx

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of single entries: updates `[E]` go into an operand `[N]` at the entries
    named by scatter indices `[E, 1]` — the updates have no window axis, the operand's one axis is inserted and is
    the one the index names, the index vector lies along axis 1 of the indices. -/
abbrev flatScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)
  (I : IVec ⟨2, ![E, 1]⟩ w)

/-- The window of update `e` starts at the signed value of the index `I (e, 0)`. -/
theorem flatScatter_start (e : Fin E) :
    (flatScatter N E wf).start (ix1 e) I 0 = (I (ix2 e (0 : Fin 1))).toInt := by
  unfold ScatterDims.start
  rw [dif_pos (show (0 : Fin 1) ∈ (flatScatter N E wf).scatterDimsToOperandDims from List.mem_singleton.mpr rfl)]
  congr 2
  funext b
  refine Fin.ext ?_
  match b with
  | ⟨0, _⟩ => rfl
  | ⟨1, _⟩ => rfl

/-- The one axis is inserted: the window coordinate there is 0. -/
theorem flatScatter_window (e : Fin E) :
    (flatScatter N E wf).window (ix1 e) 0 = 0 := by
  unfold ScatterDims.window
  rw [dif_neg (show (0 : Fin 1) ∉ Shape.kept ⟨1, ![N]⟩ [0] by simp [Shape.kept])]

/-- Update `e` lands on `n` exactly when its index is `n`. -/
theorem flatScatter_resultIdx?_eq_some_iff (e : Fin E) (n : Fin N) :
    (flatScatter N E wf).resultIdx? (ix1 e) I = some (ix1 n)
      ↔ (I (ix2 e (0 : Fin 1))).toInt = (n.val : Int) := by
  have hs0 := flatScatter_start wf I e
  have hw0 := flatScatter_window wf e
  unfold ScatterDims.resultIdx?
  by_cases h : ∀ a : Fin 1, 0 ≤ (flatScatter N E wf).start (ix1 e) I a + ((flatScatter N E wf).window (ix1 e) a : Int)
      ∧ (flatScatter N E wf).start (ix1 e) I a + ((flatScatter N E wf).window (ix1 e) a : Int)
        < ((⟨1, ![N]⟩ : Shape).size a : Int)
  · rw [dif_pos h]
    have h0 := h 0
    rw [hs0, hw0] at h0
    constructor
    · intro hh
      have hh' := Option.some.inj hh
      have e0 := congrArg (fun k => (k 0).val) hh'
      simp only [hs0, hw0] at e0
      have : ((I (ix2 e (0 : Fin 1))).toInt + ((0 : Nat) : Int)).toNat = n.val := e0
      omega
    · intro ht
      congr 1
      funext a
      refine Fin.ext ?_
      match a with
      | ⟨0, _⟩ =>
        show ((flatScatter N E wf).start (ix1 e) I 0 + ((flatScatter N E wf).window (ix1 e) 0 : Int)).toNat = n.val
        rw [hs0, hw0]; omega
  · rw [dif_neg h]
    constructor
    · intro hh; exact absurd hh (by simp)
    · intro ht
      exfalso
      apply h
      intro a
      match a with
      | ⟨0, _⟩ =>
        show 0 ≤ (flatScatter N E wf).start (ix1 e) I 0 + ((flatScatter N E wf).window (ix1 e) 0 : Int)
          ∧ (flatScatter N E wf).start (ix1 e) I 0 + ((flatScatter N E wf).window (ix1 e) 0 : Int) < (N : Int)
        rw [hs0, hw0]; have := n.isLt; omega

/-- THE FLAT SCATTER-ADD AT `n`: the operand's entry plus the sum, over the updates `e` whose index is `n`, of
    the update's entry `e`. -/
theorem hostScatterAdd_flat_apply (X : (⟨1, ![N]⟩ : Shape).Idx → EReal) (U : (⟨1, ![E]⟩ : Shape).Idx → EReal)
    (n : Fin N) :
    Ideal.hostScatterAdd (flatScatter N E wf) X I U (ix1 n)
      = X (ix1 n) + ∑ e : Fin E, if (I (ix2 e (0 : Fin 1))).toInt = (n.val : Int) then U (ix1 e) else 0 := by
  unfold Ideal.hostScatterAdd
  congr 1
  rw [Finset.sum_filter, sum_idx1]
  refine Finset.sum_congr rfl fun e _ => ?_
  simp only [flatScatter_resultIdx?_eq_some_iff]

/-- The same for the host operation at the ideal instance, at any float format. -/
theorem scatterAdd_flat_apply {φ : FTy} (X : FVec Ideal ⟨1, ![N]⟩ φ) (U : FVec Ideal ⟨1, ![E]⟩ φ) (n : Fin N) :
    Host.scatterAdd (flatScatter N E wf) X I U (ix1 n)
      = X (ix1 n) + ∑ e : Fin E, if (I (ix2 e (0 : Fin 1))).toInt = (n.val : Int) then U (ix1 e) else 0 :=
  hostScatterAdd_flat_apply wf I X U n

end Scatter

end Cert.LibFlatScatter

end
-- ==== Proof.LibNeighbourSum.lean ====
/-
  Neighbourhood sums with a constant column carried along.

  Rows of an array `[P | Q]` (columns `C` and `D` wide, `T` in all) are gathered by one index column and
  scatter-added into a target of `N` rows by another. Both operations act on each column on its own, so entry
  `(n, f)` of the result, `f` a column of `P`, is entry `(n, f)` of the same gather and scatter-add of `P`
  alone; and when `Q` is one column holding a constant `o`, entry `(n, C)` is the flat scatter-add of the
  constant `o` at `n`: the target's entry plus one `o` per update row whose index is `n` — with `o = 1`, the
  number of such rows.
-/
import proofs.«165086_j36945308680832_2_alg».proof.Proof.LibColumns
import proofs.«165086_j36945308680832_2_alg».proof.Proof.LibFlatScatter

noncomputable section

open scoped BigOperators

namespace Cert.LibNeighbourSum

open Idealize.ShloMosaic Idealize.ShloMosaic.ValueIdx Cert.LibColumns Cert.LibFlatScatter

variable {N E C D T w w' : Nat} {φ : FTy}

/-- In a column of `P`: the scatter-add of the gather of `[P | Q]` is that of `P`. -/
theorem scatter_gather_concat_left (hN : 0 < N)
    (wfT : ScatterDims.WF ⟨2, ![N, T]⟩ ⟨2, ![E, 1]⟩ ⟨2, ![E, T]⟩ [1] [0] [0] 1)
    (wfC : ScatterDims.WF ⟨2, ![N, C]⟩ ⟨2, ![E, 1]⟩ ⟨2, ![E, C]⟩ [1] [0] [0] 1)
    (gT : GatherDims.WF ⟨2, ![N, T]⟩ ⟨2, ![E, 1]⟩ ⟨2, ![E, T]⟩ [1] [0] [] [0] [] 1 ![1, T])
    (gC : GatherDims.WF ⟨2, ![N, C]⟩ ⟨2, ![E, 1]⟩ ⟨2, ![E, C]⟩ [1] [0] [] [0] [] 1 ![1, C])
    (hc : Shape.Concatenates [(⟨2, ![N, C]⟩ : Shape), ⟨2, ![N, D]⟩] ⟨2, ![N, T]⟩ 1)
    (Z : FVec Ideal ⟨2, ![N, T]⟩ φ) (Z' : FVec Ideal ⟨2, ![N, C]⟩ φ)
    (I : IVec ⟨2, ![E, 1]⟩ w) (J : IVec ⟨2, ![E, 1]⟩ w')
    (P : FVec Ideal ⟨2, ![N, C]⟩ φ) (Q : FVec Ideal ⟨2, ![N, D]⟩ φ)
    (n : Fin N) (f : Fin C) (hf : f.val < T) (hZ : Z (ix2 n (⟨f.val, hf⟩ : Fin T)) = Z' (ix2 n f)) :
    Host.scatterAdd (rowScatter N E T wfT) Z I
        (Host.gather (rowGather N E T gT) (concatenate ⟨2, ![N, T]⟩ 1 [⟨⟨2, ![N, C]⟩, P⟩, ⟨⟨2, ![N, D]⟩, Q⟩] hc) J)
        (ix2 n (⟨f.val, hf⟩ : Fin T))
      = Host.scatterAdd (rowScatter N E C wfC) Z' I (Host.gather (rowGather N E C gC) P J) (ix2 n f) := by
  rw [scatterAdd_rows_apply, scatterAdd_rows_apply, hZ]
  refine congrArg (Z' (ix2 n f) + ·) (Finset.sum_congr rfl fun e _ => ?_)
  rw [gather_rows_apply gT J hN, gather_rows_apply gC J hN]
  rw [concatenate_pair_apply_left (t := ⟨2, ![N, T]⟩) (s₁ := ⟨2, ![N, C]⟩) (s₂ := ⟨2, ![N, D]⟩) (1 : Fin 2) P Q hc
    (ix2 (gatherRow J hN e) (⟨f.val, hf⟩ : Fin T)) rfl (ix2 (gatherRow J hN e) f) (fun b => by
      match b with
      | ⟨0, _⟩ => rfl
      | ⟨1, _⟩ => rfl)]

/-- In the one column `Q`, holding the constant `o`: the flat scatter-add of the constant. -/
theorem scatter_gather_concat_unit (hN : 0 < N)
    (wfT : ScatterDims.WF ⟨2, ![N, T]⟩ ⟨2, ![E, 1]⟩ ⟨2, ![E, T]⟩ [1] [0] [0] 1)
    (wfF : ScatterDims.WF ⟨1, ![N]⟩ ⟨2, ![E, 1]⟩ ⟨1, ![E]⟩ [] [0] [0] 1)
    (gT : GatherDims.WF ⟨2, ![N, T]⟩ ⟨2, ![E, 1]⟩ ⟨2, ![E, T]⟩ [1] [0] [] [0] [] 1 ![1, T])
    (hc : Shape.Concatenates [(⟨2, ![N, C]⟩ : Shape), ⟨2, ![N, 1]⟩] ⟨2, ![N, T]⟩ 1)
    (Z : FVec Ideal ⟨2, ![N, T]⟩ φ) (Z' : FVec Ideal ⟨1, ![N]⟩ φ)
    (I : IVec ⟨2, ![E, 1]⟩ w) (J : IVec ⟨2, ![E, 1]⟩ w')
    (P : FVec Ideal ⟨2, ![N, C]⟩ φ) (Q : FVec Ideal ⟨2, ![N, 1]⟩ φ) (U : FVec Ideal ⟨1, ![E]⟩ φ) (o : EReal)
    (hQ : ∀ i, Q i = o) (hU : ∀ i, U i = o)
    (n : Fin N) (hC : C < T) (hZ : Z (ix2 n (⟨C, hC⟩ : Fin T)) = Z' (ix1 n)) :
    Host.scatterAdd (rowScatter N E T wfT) Z I
        (Host.gather (rowGather N E T gT) (concatenate ⟨2, ![N, T]⟩ 1 [⟨⟨2, ![N, C]⟩, P⟩, ⟨⟨2, ![N, 1]⟩, Q⟩] hc) J)
        (ix2 n (⟨C, hC⟩ : Fin T))
      = Host.scatterAdd (flatScatter N E wfF) Z' I U (ix1 n) := by
  rw [scatterAdd_rows_apply, scatterAdd_flat_apply, hZ]
  refine congrArg (Z' (ix1 n) + ·) (Finset.sum_congr rfl fun e _ => ?_)
  rw [gather_rows_apply gT J hN, hU]
  rw [concatenate_pair_apply_right (t := ⟨2, ![N, T]⟩) (s₁ := ⟨2, ![N, C]⟩) (s₂ := ⟨2, ![N, 1]⟩) (1 : Fin 2) P Q hc
    (ix2 (gatherRow J hN e) (⟨C, hC⟩ : Fin T)) rfl rfl (ix2 (gatherRow J hN e) (0 : Fin 1)) (fun b hb => by
      match b with
      | ⟨0, _⟩ => rfl
      | ⟨1, _⟩ => exact absurd rfl hb) (Nat.zero_add _), hQ]

end Cert.LibNeighbourSum

end
-- ==== Proof.Aggregate.lean ====
/-
  The kernel's one scatter-add against the reference's two.

  The reference adds the gathered feature rows into the target rows, and separately adds a one per edge into the
  target entries: neighbourhood sums and in-degrees. The kernel gives the features a column of ones and does one
  gather and one scatter-add; its first 192 columns are the neighbourhood sums, its last column the in-degree.
  Both read the source rows the same way (a negative source index moved up by the number of nodes, then brought
  into range). They differ on the targets: the kernel moves a negative target up by the number of nodes, the
  reference drops it. Where every target is at least 0 the two target columns are the same column, and then the
  two computations agree entry by entry.
-/
import proofs.«165086_j36945308680832_2_alg».proof.Proof.KernelHost
import proofs.«165086_j36945308680832_2_alg».proof.Proof.RefRead
import proofs.«165086_j36945308680832_2_alg».proof.Proof.LibNeighbourSum
import Idealize.ShloMosaic.Lib.Affine

noncomputable section

open scoped BigOperators

namespace Cert.Aggregate

open Idealize.ShloMosaic Idealize.ShloMosaic.ValueIdx Cert.KernelHost
open Cert.LibColumns Cert.LibFlatScatter Cert.LibNeighbourSum

/-- An index list with no negative entry is not moved. -/
theorem wrap_of_nonneg (v : IVec ⟨1, ![800000]⟩ 32) (h : ∀ e, 0 ≤ (v e).toInt) : wrap v = v := by
  funext e
  show Scalar.select (IntOp.cmpi .slt (v e) 0#32) (IntOp.addi (v e) 50000#32) (v e) = v e
  have hc : IntOp.cmpi .slt (v e) 0#32 = 0#1 := by
    refine eq_zero_of_ne_one (fun hc => ?_)
    have hlt : (v e).toInt < (0#32 : BitVec 32).toInt := IntOp.cmpi_slt.mp hc
    have h0 : (0#32 : BitVec 32).toInt = 0 := by decide
    have := h e
    omega
  rw [hc, select_zero]

variable (x0 : FVec Ideal ⟨2, ![50000, 128]⟩ .f32) (x1 : FVec Ideal ⟨2, ![50000, 64]⟩ .f32)
  (x2 : IVec ⟨2, ![2, 800000]⟩ 32)

/-- The features are the reference's. -/
theorem feats_eq : feats x0 x1 = Cert.ReferenceIdeal.ReadP.val_main_v0 (F := Ideal) x0 x1 := rfl

/-- The reference's target column is the target row as a column (it moves nothing). -/
theorem ref_targets : Cert.ReferenceIdeal.ReadP.val_main_v13 (F := Ideal) x2 = col (dstRow x2) := rfl

/-- The reference's degree scatter uses the same target column. -/
theorem ref_targets' : Cert.ReferenceIdeal.ReadP.val_main_v17 (F := Ideal) x2 = col (dstRow x2) := rfl

/-- The reference's source column is the kernel's: negative entries moved up by the number of nodes. -/
theorem ref_sources : Cert.ReferenceIdeal.ReadP.val_main_v10 (F := Ideal) x2 = col (wrap (srcRow x2)) := rfl

/-- THE NEIGHBOURHOOD SUMS AGREE where no target is negative. -/
theorem agg_entry (hw : wrap (dstRow x2) = dstRow x2) (n : Fin 50000) (k : Fin 192) :
    agg x0 x1 x2 (ix2 n k) = Cert.ReferenceIdeal.ReadP.val_main_v14 (F := Ideal) x0 x1 x2 (ix2 n k) := by
  have hk : k.val < 193 := by have := k.isLt; omega
  unfold agg
  rw [extractStridedSlice_apply ![0, 0] (sums x0 x1 x2) _ (ix2 n k) (ix2 n (⟨k.val, hk⟩ : Fin 193)) (fun a => by
    match a with
    | ⟨0, _⟩ => exact (Nat.zero_add _).symm
    | ⟨1, _⟩ => exact (Nat.zero_add _).symm)]
  unfold sums featsOne Cert.ReferenceIdeal.ReadP.val_main_v14 Cert.ReferenceIdeal.ReadP.val_main_v11
  rw [hw, ref_targets, ref_sources, ← feats_eq]
  exact scatter_gather_concat_left (N := 50000) (E := 800000) (C := 192) (D := 1) (T := 193) (by decide)
    Cert.KernelIdeal.scatter_S50000x193_S800000x1_S800000x193_1_0_0_1.wf
    Cert.ReferenceIdeal.scatter_S50000x192_S800000x1_S800000x192_1_0_0_1.wf
    Cert.KernelIdeal.gather_S50000x193_S800000x1_S800000x193_1_0_n_n_0_1_1193.wf
    Cert.ReferenceIdeal.gather_S50000x192_S800000x1_S800000x192_1_0_n_n_0_1_1192.wf
    _ _ _ (col (dstRow x2)) (col (wrap (srcRow x2))) (feats x0 x1) _ n k hk rfl

/-- THE IN-DEGREES AGREE where no target is negative. -/
theorem deg_entry (hw : wrap (dstRow x2) = dstRow x2) (n : Fin 50000) :
    deg x0 x1 x2 (ix2 n (0 : Fin 1)) = Cert.ReferenceIdeal.ReadP.val_main_v18 (F := Ideal) x2 (ix1 n) := by
  unfold deg
  rw [shapeCast_shapeCast]
  rw [extractStridedSlice_apply ![0, 192] (sums x0 x1 x2) _ (ix2 n (0 : Fin 1)) (ix2 n (⟨192, by omega⟩ : Fin 193)) (fun a => by
    match a with
    | ⟨0, _⟩ => exact (Nat.zero_add _).symm
    | ⟨1, _⟩ => rfl)]
  unfold sums featsOne Cert.ReferenceIdeal.ReadP.val_main_v18
  rw [hw, ref_targets']
  exact scatter_gather_concat_unit (N := 50000) (E := 800000) (C := 192) (T := 193) (by decide)
    Cert.KernelIdeal.scatter_S50000x193_S800000x1_S800000x193_1_0_0_1.wf
    Cert.ReferenceIdeal.scatter_S50000_S800000x1_S800000_n_0_0_1.wf
    Cert.KernelIdeal.gather_S50000x193_S800000x1_S800000x193_1_0_n_n_0_1_1193.wf
    _ _ _ (col (dstRow x2)) (col (wrap (srcRow x2))) (feats x0 x1) _ _ (Ideal.ofBits .f32 0x3F800000#32)
    (fun _ => rfl) (fun _ => rfl) n (by omega) rfl

end Cert.Aggregate

end
-- ==== Proof.InvStd.lean ====
/-
  THE RECIPROCAL STANDARD DEVIATION.

  Both programs normalise by rsqrt (v + ε), where v is a variance and ε is the f32 word 0x3727C5AC (the f32 nearest 1e-5).
  The word has sign bit 0, exponent field 110 (neither 0 nor 255) and fraction field 2606508, so it denotes the positive
  real (2^23 + 2606508) · 2^(110 - 127 - 23) = 10995116 · 2^(-40). Only its being a positive real is used.

  For a real v >= 0 the sum v + ε is a positive real, so the reciprocal square root is neither of its corner values
  (junk below zero, +inf at zero): it is the real number 1 / √(v + ε), which is positive.
-/
import Idealize.ShloMosaic.PureOps.Ideal

noncomputable section

namespace Cert.InvStd

open Idealize.ShloMosaic

/-- The reciprocal standard deviation both programs use: rsqrt (v + ε), ε the f32 word 0x3727C5AC (the f32 nearest 1e-5). -/
def invStd (v : EReal) : EReal := Ideal.rsqrt (v + Ideal.ofBits .f32 0x3727C5AC#32)

/-- ε is a positive real: the word denotes 10995116 · 2^(-40). -/
theorem eps_pos : ∃ e : ℝ, 0 < e ∧ Ideal.ofBits .f32 0x3727C5AC#32 = (e : EReal) := by
  refine ⟨10995116 * ((2 : ℝ) ^ 40)⁻¹, by positivity, ?_⟩
  simp [Ideal.ofBits, Ideal.ieee]

/-- At a nonnegative real variance the reciprocal standard deviation is a positive real, 1 / √(v + ε). -/
theorem invStd_pos (v : ℝ) (hv : 0 ≤ v) : ∃ y : ℝ, 0 < y ∧ invStd (v : EReal) = (y : EReal) := by
  obtain ⟨e, he, hw⟩ := eps_pos
  have hpos : 0 < v + e := by linarith
  refine ⟨(Real.sqrt (v + e))⁻¹, inv_pos.2 (Real.sqrt_pos.2 hpos), ?_⟩
  unfold invStd
  rw [hw, ← EReal.coe_add, Ideal.rsqrt_coe, if_neg (not_lt.2 hpos.le), if_neg hpos.ne']

end Cert.InvStd

end
-- ==== Proof.RefGraphLayer.lean ====
/-
  The reference's graph layer, read one node at a time: the neighbourhood sums divided by the in-degree (at least one)
  spread over the features, two matrix products as sums over the contracted axis, the bias, then the batch norm in its
  plain arrangement `((h − μ)·r)·γ + β` with `r = rsqrt (var + ε)`, each parameter a row spread over the nodes, and the
  leaky ReLU.
-/
import proofs.«165086_j36945308680832_2_alg».proof.Proof.RefRead
import proofs.«165086_j36945308680832_2_alg».proof.Proof.Rows
import proofs.«165086_j36945308680832_2_alg».proof.Proof.InvStd

noncomputable section

open scoped BigOperators

namespace Cert.RefRows

open Cert.ReferenceIdeal Cert.ReferenceIdeal.ReadP Idealize.ShloMosaic Idealize.ShloMosaic.ValueIdx Cert.Rows Cert.InvStd

/-- Two rank-2 indices with the same coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

variable (x0 : (⟨S50000x128, .f32⟩ : BufTy).Contents (Elt Ideal)) (x1 : (⟨S50000x64, .f32⟩ : BufTy).Contents (Elt Ideal))
  (x2 : (⟨S2x800000, .i32⟩ : BufTy).Contents (Elt Ideal)) (x4 : (⟨S192x256, .f32⟩ : BufTy).Contents (Elt Ideal))
  (x5 : (⟨S256, .f32⟩ : BufTy).Contents (Elt Ideal)) (x6 : (⟨S192x256, .f32⟩ : BufTy).Contents (Elt Ideal))
  (x7 x8 x9 x10 : (⟨S256, .f32⟩ : BufTy).Contents (Elt Ideal)) (x11 : (⟨S256x128, .f32⟩ : BufTy).Contents (Elt Ideal))
  (x12 : (⟨S128, .f32⟩ : BufTy).Contents (Elt Ideal)) (x13 : (⟨S128x64, .f32⟩ : BufTy).Contents (Elt Ideal))
  (x14 : (⟨S64, .f32⟩ : BufTy).Contents (Elt Ideal)) (x15 : (⟨S64x64, .f32⟩ : BufTy).Contents (Elt Ideal))
  (x16 : (⟨S64, .f32⟩ : BufTy).Contents (Elt Ideal)) (x17 : (⟨S64x128, .f32⟩ : BufTy).Contents (Elt Ideal))
  (x18 : (⟨S128, .f32⟩ : BufTy).Contents (Elt Ideal))

/-- The graph layer, the plain batch norm and the leaky ReLU, read at `(n, c)`. -/
theorem graphLayer (n : Fin 50000) (c : Fin 256) :
    val_main_v49 (F := Ideal) x0 x1 x2 x4 x5 x6 x7 x8 x9 x10 (ix2 n c)
      = normPlain
          (combine (fun k : Fin 192 => val_main_v0 (F := Ideal) x0 x1 (ix2 n k))
            (fun k : Fin 192 => val_main_v14 (F := Ideal) x0 x1 x2 (ix2 n k)) (val_main_v18 (F := Ideal) x2 (ix1 n))
            (fun k c => x4 (ix2 k c)) (fun c => x5 (ix1 c)) (fun k c => x6 (ix2 k c)))
          (fun c => x9 (ix1 c)) (fun c => invStd (x10 (ix1 c))) (fun c => x7 (ix1 c)) (fun c => x8 (ix1 c)) c := by
  have hl : ∀ k : Fin 192, lidx_main_v24 (ix2 n c) k = ix2 n k := fun k => by idx2
  have hr : ∀ k : Fin 192, ridx_main_v24 (ix2 n c) k = ix2 k c := fun k => by idx2
  have hl' : ∀ k : Fin 192, lidx_main_v28 (ix2 n c) k = ix2 n k := fun k => by idx2
  have hr' : ∀ k : Fin 192, ridx_main_v28 (ix2 n c) k = ix2 k c := fun k => by idx2
  have hd : ∀ k : Fin 192, idx_main_v21 (idx_main_v22 (ix2 n k)) = ix1 n := fun k => by idx1
  have hb5 : idx_main_v25 (idx_main_v26 (ix2 n c)) = ix1 c := by idx1
  have hb9 : idx_main_v30 (idx_main_v31 (ix2 n c)) = ix1 c := by idx1
  have hb10 : idx_main_v36 (idx_main_v37 (ix2 n c)) = ix1 c := by idx1
  have hb7 : idx_main_v39 (idx_main_v40 (ix2 n c)) = ix1 c := by idx1
  have hb8 : idx_main_v42 (idx_main_v43 (ix2 n c)) = ix1 c := by idx1
  simp only [val_main_v49_apply, val_main_v46_apply, val_main_v48_apply, val_main_v44_apply, val_main_v41_apply,
    val_main_v38_apply, val_main_v32_apply, val_main_v29_apply, val_main_v27_apply, val_main_v24_apply, val_main_v28_apply,
    val_main_v23_apply, val_main_v22_apply, val_main_v21_apply, val_main_v20_apply, val_main_v19_apply,
    val_main_v26_apply, val_main_v25_apply, val_main_v31_apply, val_main_v30_apply, val_main_v37_apply, val_main_v36_apply,
    val_main_v35_apply, val_main_v34_apply, val_main_v33_apply, val_main_v40_apply, val_main_v39_apply, val_main_v43_apply,
    val_main_v42_apply, val_main_v45_apply, val_main_v47_apply, val_main_cst_3_apply, val_main_cst_4_apply,
    val_main_cst_5_apply, val_main_cst_6_apply, hl, hr, hl', hr', hd, hb5, hb9, hb10, hb7, hb8]
  generalize val_main_v0 (F := Ideal) x0 x1 = X
  generalize val_main_v14 (F := Ideal) x0 x1 x2 = A
  generalize val_main_v18 (F := Ideal) x2 = D
  rfl

end Cert.RefRows

end
-- ==== Proof.RefDense.lean ====
/-
  The reference's four dense layers, read one node at a time: each is a matrix product as a sum over the contracted
  axis, a bias row spread over the nodes, and the leaky ReLU.
-/
import proofs.«165086_j36945308680832_2_alg».proof.Proof.RefRead
import proofs.«165086_j36945308680832_2_alg».proof.Proof.Rows
import proofs.«165086_j36945308680832_2_alg».proof.Proof.InvStd

noncomputable section

open scoped BigOperators

namespace Cert.RefRows

open Cert.ReferenceIdeal Cert.ReferenceIdeal.ReadP Idealize.ShloMosaic Idealize.ShloMosaic.ValueIdx Cert.Rows Cert.InvStd

/-- Two rank-2 indices with the same coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

variable (x0 : (⟨S50000x128, .f32⟩ : BufTy).Contents (Elt Ideal)) (x1 : (⟨S50000x64, .f32⟩ : BufTy).Contents (Elt Ideal))
  (x2 : (⟨S2x800000, .i32⟩ : BufTy).Contents (Elt Ideal)) (x4 : (⟨S192x256, .f32⟩ : BufTy).Contents (Elt Ideal))
  (x5 : (⟨S256, .f32⟩ : BufTy).Contents (Elt Ideal)) (x6 : (⟨S192x256, .f32⟩ : BufTy).Contents (Elt Ideal))
  (x7 x8 x9 x10 : (⟨S256, .f32⟩ : BufTy).Contents (Elt Ideal)) (x11 : (⟨S256x128, .f32⟩ : BufTy).Contents (Elt Ideal))
  (x12 : (⟨S128, .f32⟩ : BufTy).Contents (Elt Ideal)) (x13 : (⟨S128x64, .f32⟩ : BufTy).Contents (Elt Ideal))
  (x14 : (⟨S64, .f32⟩ : BufTy).Contents (Elt Ideal)) (x15 : (⟨S64x64, .f32⟩ : BufTy).Contents (Elt Ideal))
  (x16 : (⟨S64, .f32⟩ : BufTy).Contents (Elt Ideal)) (x17 : (⟨S64x128, .f32⟩ : BufTy).Contents (Elt Ideal))
  (x18 : (⟨S128, .f32⟩ : BufTy).Contents (Elt Ideal))

/-- dense1: one dense layer, read at `(n, c)`. -/
theorem dense1 (n : Fin 50000) (c : Fin 128) :
    val_main_v58 (F := Ideal) x0 x1 x2 x4 x5 x6 x7 x8 x9 x10 x11 x12 (ix2 n c)
      = dense (fun k : Fin 256 => val_main_v49 (F := Ideal) x0 x1 x2 x4 x5 x6 x7 x8 x9 x10 (ix2 n k)) (fun k c => x11 (ix2 k c)) (fun c => x12 (ix1 c)) c := by
  have hl : ∀ k : Fin 256, lidx_main_v50 (ix2 n c) k = ix2 n k := fun k => by idx2
  have hr : ∀ k : Fin 256, ridx_main_v50 (ix2 n c) k = ix2 k c := fun k => by idx2
  have hb : idx_main_v51 (idx_main_v52 (ix2 n c)) = ix1 c := by idx1
  rw [val_main_v58_apply, val_main_v55_apply, val_main_v57_apply, val_main_v53_apply, val_main_v50_apply, val_main_v52_apply, val_main_v51_apply, val_main_v54_apply, val_main_v56_apply, val_main_cst_7_apply, val_main_cst_8_apply]
  simp only [hl, hr, hb]
  generalize val_main_v49 (F := Ideal) x0 x1 x2 x4 x5 x6 x7 x8 x9 x10 = H
  rfl

/-- dense2: one dense layer, read at `(n, c)`. -/
theorem dense2 (n : Fin 50000) (c : Fin 64) :
    val_main_v67 (F := Ideal) x0 x1 x2 x4 x5 x6 x7 x8 x9 x10 x11 x12 x13 x14 (ix2 n c)
      = dense (fun k : Fin 128 => val_main_v58 (F := Ideal) x0 x1 x2 x4 x5 x6 x7 x8 x9 x10 x11 x12 (ix2 n k)) (fun k c => x13 (ix2 k c)) (fun c => x14 (ix1 c)) c := by
  have hl : ∀ k : Fin 128, lidx_main_v59 (ix2 n c) k = ix2 n k := fun k => by idx2
  have hr : ∀ k : Fin 128, ridx_main_v59 (ix2 n c) k = ix2 k c := fun k => by idx2
  have hb : idx_main_v60 (idx_main_v61 (ix2 n c)) = ix1 c := by idx1
  rw [val_main_v67_apply, val_main_v64_apply, val_main_v66_apply, val_main_v62_apply, val_main_v59_apply, val_main_v61_apply, val_main_v60_apply, val_main_v63_apply, val_main_v65_apply, val_main_cst_9_apply, val_main_cst_10_apply]
  simp only [hl, hr, hb]
  generalize val_main_v58 (F := Ideal) x0 x1 x2 x4 x5 x6 x7 x8 x9 x10 x11 x12 = H
  rfl

/-- dense3: one dense layer, read at `(n, c)`. -/
theorem dense3 (n : Fin 50000) (c : Fin 64) :
    val_main_v76 (F := Ideal) x0 x1 x2 x4 x5 x6 x7 x8 x9 x10 x11 x12 x13 x14 x15 x16 (ix2 n c)
      = dense (fun k : Fin 64 => val_main_v67 (F := Ideal) x0 x1 x2 x4 x5 x6 x7 x8 x9 x10 x11 x12 x13 x14 (ix2 n k)) (fun k c => x15 (ix2 k c)) (fun c => x16 (ix1 c)) c := by
  have hl : ∀ k : Fin 64, lidx_main_v68 (ix2 n c) k = ix2 n k := fun k => by idx2
  have hr : ∀ k : Fin 64, ridx_main_v68 (ix2 n c) k = ix2 k c := fun k => by idx2
  have hb : idx_main_v69 (idx_main_v70 (ix2 n c)) = ix1 c := by idx1
  rw [val_main_v76_apply, val_main_v73_apply, val_main_v75_apply, val_main_v71_apply, val_main_v68_apply, val_main_v70_apply, val_main_v69_apply, val_main_v72_apply, val_main_v74_apply, val_main_cst_11_apply, val_main_cst_12_apply]
  simp only [hl, hr, hb]
  generalize val_main_v67 (F := Ideal) x0 x1 x2 x4 x5 x6 x7 x8 x9 x10 x11 x12 x13 x14 = H
  rfl

/-- dense4: one dense layer, read at `(n, c)`. -/
theorem dense4 (n : Fin 50000) (c : Fin 128) :
    val_main_v85 (F := Ideal) x0 x1 x2 x4 x5 x6 x7 x8 x9 x10 x11 x12 x13 x14 x15 x16 x17 x18 (ix2 n c)
      = dense (fun k : Fin 64 => val_main_v76 (F := Ideal) x0 x1 x2 x4 x5 x6 x7 x8 x9 x10 x11 x12 x13 x14 x15 x16 (ix2 n k)) (fun k c => x17 (ix2 k c)) (fun c => x18 (ix1 c)) c := by
  have hl : ∀ k : Fin 64, lidx_main_v77 (ix2 n c) k = ix2 n k := fun k => by idx2
  have hr : ∀ k : Fin 64, ridx_main_v77 (ix2 n c) k = ix2 k c := fun k => by idx2
  have hb : idx_main_v78 (idx_main_v79 (ix2 n c)) = ix1 c := by idx1
  rw [val_main_v85_apply, val_main_v82_apply, val_main_v84_apply, val_main_v80_apply, val_main_v77_apply, val_main_v79_apply, val_main_v78_apply, val_main_v81_apply, val_main_v83_apply, val_main_cst_13_apply, val_main_cst_14_apply]
  simp only [hl, hr, hb]
  generalize val_main_v76 (F := Ideal) x0 x1 x2 x4 x5 x6 x7 x8 x9 x10 x11 x12 x13 x14 x15 x16 = H
  rfl

end Cert.RefRows

end
-- ==== Proof.RefRows.lean ====
/-
  The reference program, read one node at a time.

  Row `n` of the reference's result is the row-level network of `Rows` applied to row `n` of the features, row `n`
  of the neighbourhood sum, and node `n`'s in-degree, with the batch norm in its plain arrangement
  `((h − μ)·r)·γ + β`, `r = rsqrt (var + ε)`: each matrix product is the sum over the contracted axis, each
  bias and each normalisation parameter a row spread over the nodes, the degree a column spread over the features.
-/
import proofs.«165086_j36945308680832_2_alg».proof.Proof.RefGraphLayer
import proofs.«165086_j36945308680832_2_alg».proof.Proof.RefDense

noncomputable section

open scoped BigOperators

namespace Cert.RefRows

open Cert.ReferenceIdeal Cert.ReferenceIdeal.ReadP Idealize.ShloMosaic Idealize.ShloMosaic.ValueIdx Cert.Rows Cert.InvStd

/-- Two rank-2 indices with the same coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

variable (x0 : (⟨S50000x128, .f32⟩ : BufTy).Contents (Elt Ideal)) (x1 : (⟨S50000x64, .f32⟩ : BufTy).Contents (Elt Ideal))
  (x2 : (⟨S2x800000, .i32⟩ : BufTy).Contents (Elt Ideal)) (x4 : (⟨S192x256, .f32⟩ : BufTy).Contents (Elt Ideal))
  (x5 : (⟨S256, .f32⟩ : BufTy).Contents (Elt Ideal)) (x6 : (⟨S192x256, .f32⟩ : BufTy).Contents (Elt Ideal))
  (x7 x8 x9 x10 : (⟨S256, .f32⟩ : BufTy).Contents (Elt Ideal)) (x11 : (⟨S256x128, .f32⟩ : BufTy).Contents (Elt Ideal))
  (x12 : (⟨S128, .f32⟩ : BufTy).Contents (Elt Ideal)) (x13 : (⟨S128x64, .f32⟩ : BufTy).Contents (Elt Ideal))
  (x14 : (⟨S64, .f32⟩ : BufTy).Contents (Elt Ideal)) (x15 : (⟨S64x64, .f32⟩ : BufTy).Contents (Elt Ideal))
  (x16 : (⟨S64, .f32⟩ : BufTy).Contents (Elt Ideal)) (x17 : (⟨S64x128, .f32⟩ : BufTy).Contents (Elt Ideal))
  (x18 : (⟨S128, .f32⟩ : BufTy).Contents (Elt Ideal))

/-- THE REFERENCE'S RESULT AT `(n, f)`: the row-level network of node `n`, with the plain batch norm. -/
theorem result_entry (n : Fin 50000) (f : Fin 128) :
    val_main_v85 (F := Ideal) x0 x1 x2 x4 x5 x6 x7 x8 x9 x10 x11 x12 x13 x14 x15 x16 x17 x18 (ix2 n f)
      = dense (dense (dense (dense
          (normPlain
            (combine (fun k : Fin 192 => val_main_v0 (F := Ideal) x0 x1 (ix2 n k))
              (fun k : Fin 192 => val_main_v14 (F := Ideal) x0 x1 x2 (ix2 n k)) (val_main_v18 (F := Ideal) x2 (ix1 n))
              (fun k c => x4 (ix2 k c)) (fun c => x5 (ix1 c)) (fun k c => x6 (ix2 k c)))
            (fun c => x9 (ix1 c)) (fun c => invStd (x10 (ix1 c))) (fun c => x7 (ix1 c)) (fun c => x8 (ix1 c)))
          (fun k c => x11 (ix2 k c)) (fun c => x12 (ix1 c)))
          (fun k c => x13 (ix2 k c)) (fun c => x14 (ix1 c)))
          (fun k c => x15 (ix2 k c)) (fun c => x16 (ix1 c)))
          (fun k c => x17 (ix2 k c)) (fun c => x18 (ix1 c)) f := by
  rw [dense4]
  refine congrArg (fun v => dense v _ _ f) (funext fun k3 => ?_)
  rw [dense3]
  refine congrArg (fun v => dense v _ _ k3) (funext fun k2 => ?_)
  rw [dense2]
  refine congrArg (fun v => dense v _ _ k2) (funext fun k1 => ?_)
  rw [dense1]
  refine congrArg (fun v => dense v _ _ k1) (funext fun k0 => ?_)
  exact graphLayer x0 x1 x2 x4 x5 x6 x7 x8 x9 x10 n k0

end Cert.RefRows

end
-- ==== Proof.Bridge.lean ====
/-
  The kernel's value is the reference's value.

  Both are the same row-level network of the same rows, with two differences that the domain removes. (1) The
  neighbourhood sums and the in-degrees: the kernel's one scatter-add against the reference's two — equal where no
  target index is negative (`Aggregate`). (2) The batch norm: the kernel's folded `h·(γ·r) + (β − (μ·γ)·r)` against
  the reference's `((h − μ)·r)·γ + β` — equal at every extended real `h` when γ, β, μ are real and
  `r = rsqrt (var + ε)` is real and positive, which it is when the variance is real and at least 0 (`Rows.norm_law`,
  `InvStd.invStd_pos`). Narrowing a weight matrix to bf16 is the identity on the extended reals, and a bias as a
  one-row array reads the bias.
-/
import proofs.«165086_j36945308680832_2_alg».proof.Proof.Network
import proofs.«165086_j36945308680832_2_alg».proof.Proof.Aggregate
import proofs.«165086_j36945308680832_2_alg».proof.Proof.RefRows
import proofs.«165086_j36945308680832_2_alg».proof.Proof.InvStd
import Idealize.ShloMosaic.Lib.ValueLayout

noncomputable section

open scoped BigOperators

namespace Cert.Bridge

open Idealize.ShloMosaic Idealize.ShloMosaic.ValueIdx Cert.Rows Cert.Network Cert.KernelHost Cert.Aggregate

variable (a0 : FVec Ideal ⟨2, ![50000, 128]⟩ .f32) (a1 : FVec Ideal ⟨2, ![50000, 64]⟩ .f32) (a2 : IVec ⟨2, ![2, 800000]⟩ 32)
  (a4 : FVec Ideal ⟨2, ![192, 256]⟩ .f32) (a5 : FVec Ideal ⟨1, ![256]⟩ .f32) (a6 : FVec Ideal ⟨2, ![192, 256]⟩ .f32)
  (a7 a8 a9 a10 : FVec Ideal ⟨1, ![256]⟩ .f32) (a11 : FVec Ideal ⟨2, ![256, 128]⟩ .f32) (a12 : FVec Ideal ⟨1, ![128]⟩ .f32)
  (a13 : FVec Ideal ⟨2, ![128, 64]⟩ .f32) (a14 : FVec Ideal ⟨1, ![64]⟩ .f32) (a15 : FVec Ideal ⟨2, ![64, 64]⟩ .f32)
  (a16 : FVec Ideal ⟨1, ![64]⟩ .f32) (a17 : FVec Ideal ⟨2, ![64, 128]⟩ .f32) (a18 : FVec Ideal ⟨1, ![128]⟩ .f32)

/-- A narrowed weight matrix reads the matrix. -/
theorem mat_truncf {K C : Nat} (W : FVec Ideal ⟨2, ![K, C]⟩ .f32) (h : FTy.bf16.bits < FTy.f32.bits) :
    mat (truncf .bf16 W h : FVec Ideal ⟨2, ![K, C]⟩ .bf16) = fun k c => W (ix2 k c) := rfl

/-- A bias as a one-row array reads the bias. -/
theorem row_shapeCast {C : Nat} (b : (⟨1, ![C]⟩ : Shape).Idx → EReal) (h : (⟨1, ![C]⟩ : Shape).ShapeCasts ⟨2, ![1, C]⟩) :
    row (shapeCast ⟨2, ![1, C]⟩ b h) = fun c => b (ix1 c) :=
  funext fun c => shapeCast_a_1a_apply b h 0 c

/-- The folded scale row reads `γ · r`. -/
theorem row_scale (c : Fin 256) : row (scale a7 a10) c = a7 (ix1 c) * Cert.InvStd.invStd (a10 (ix1 c)) := by
  show shapeCast ⟨2, ![1, 256]⟩ (mulf a7 (rstd a10)) _ (ix2 (0 : Fin 1) c) = _
  rw [shapeCast_a_1a_apply]
  rfl

/-- The folded shift row reads `β − (μ · γ) · r`. -/
theorem row_shift (c : Fin 256) :
    row (shift a7 a8 a9 a10) c = a8 (ix1 c) - (a9 (ix1 c) * a7 (ix1 c)) * Cert.InvStd.invStd (a10 (ix1 c)) := by
  show shapeCast ⟨2, ![1, 256]⟩ (subf a8 (mulf (mulf a9 a7) (rstd a10))) _ (ix2 (0 : Fin 1) c) = _
  rw [shapeCast_a_1a_apply]
  rfl

/-- THE KERNEL'S NETWORK OF ITS HOST STAGES IS THE REFERENCE'S RESULT, on the domain: γ, β, μ real, the variance real
    and at least 0, no target index negative. -/
theorem net_eq_reference
    (h4 h6 h11 h13 h15 h17 : FTy.bf16.bits < FTy.f32.bits)
    (c5 : (⟨1, ![256]⟩ : Shape).ShapeCasts ⟨2, ![1, 256]⟩) (c12 : (⟨1, ![128]⟩ : Shape).ShapeCasts ⟨2, ![1, 128]⟩)
    (c14 : (⟨1, ![64]⟩ : Shape).ShapeCasts ⟨2, ![1, 64]⟩) (c16 : (⟨1, ![64]⟩ : Shape).ShapeCasts ⟨2, ![1, 64]⟩)
    (c18 : (⟨1, ![128]⟩ : Shape).ShapeCasts ⟨2, ![1, 128]⟩)
    (hγ : ∀ i, ∃ y : ℝ, a7 i = (y : EReal)) (hβ : ∀ i, ∃ y : ℝ, a8 i = (y : EReal)) (hμ : ∀ i, ∃ y : ℝ, a9 i = (y : EReal))
    (hv : ∀ i, ∃ y : ℝ, 0 ≤ y ∧ a10 i = (y : EReal)) (hdst : ∀ e, 0 ≤ (dstRow a2 e).toInt) :
    net (feats a0 a1) (agg a0 a1 a2) (deg a0 a1 a2)
        (truncf .bf16 a4 h4 : FVec Ideal ⟨2, ![192, 256]⟩ .bf16) (shapeCast ⟨2, ![1, 256]⟩ a5 c5)
        (truncf .bf16 a6 h6 : FVec Ideal ⟨2, ![192, 256]⟩ .bf16) (scale a7 a10) (shift a7 a8 a9 a10)
        (truncf .bf16 a11 h11 : FVec Ideal ⟨2, ![256, 128]⟩ .bf16) (shapeCast ⟨2, ![1, 128]⟩ a12 c12)
        (truncf .bf16 a13 h13 : FVec Ideal ⟨2, ![128, 64]⟩ .bf16) (shapeCast ⟨2, ![1, 64]⟩ a14 c14)
        (truncf .bf16 a15 h15 : FVec Ideal ⟨2, ![64, 64]⟩ .bf16) (shapeCast ⟨2, ![1, 64]⟩ a16 c16)
        (truncf .bf16 a17 h17 : FVec Ideal ⟨2, ![64, 128]⟩ .bf16) (shapeCast ⟨2, ![1, 128]⟩ a18 c18)
      = Cert.ReferenceIdeal.ReadP.val_main_v85 (F := Ideal) a0 a1 a2 a4 a5 a6 a7 a8 a9 a10 a11 a12 a13 a14 a15 a16 a17 a18 := by
  have hw : wrap (dstRow a2) = dstRow a2 := wrap_of_nonneg (dstRow a2) hdst
  funext i
  obtain ⟨n, f, rfl⟩ : ∃ (n : Fin 50000) (f : Fin 128), i = ix2 n f := ⟨i 0, i 1, eq_ix2 i⟩
  rw [net_apply, Cert.RefRows.result_entry]
  unfold nodeRow
  rw [mat_truncf a4 h4, mat_truncf a6 h6, mat_truncf a11 h11, mat_truncf a13 h13, mat_truncf a15 h15, mat_truncf a17 h17,
    row_shapeCast a5 c5, row_shapeCast a12 c12, row_shapeCast a14 c14, row_shapeCast a16 c16, row_shapeCast a18 c18]
  -- the two sides now differ only in the first layer
  refine congrArg (fun v => dense (dense (dense (dense v _ _) _ _) _ _) _ _ f) (funext fun c => ?_)
  -- the rows going into the first layer agree
  have hx : (fun k : Fin 192 => feats a0 a1 (ix2 n k))
      = fun k : Fin 192 => Cert.ReferenceIdeal.ReadP.val_main_v0 (F := Ideal) a0 a1 (ix2 n k) := rfl
  have ha : (fun k : Fin 192 => agg a0 a1 a2 (ix2 n k))
      = fun k : Fin 192 => Cert.ReferenceIdeal.ReadP.val_main_v14 (F := Ideal) a0 a1 a2 (ix2 n k) :=
    funext fun k => agg_entry a0 a1 a2 hw n k
  have hd : deg a0 a1 a2 (ix2 n (0 : Fin 1)) = Cert.ReferenceIdeal.ReadP.val_main_v18 (F := Ideal) a2 (ix1 n) :=
    deg_entry a0 a1 a2 hw n
  rw [hx, ha, hd]
  -- and the folded normalisation is the plain one
  refine normFolded_eq_normPlain _ (row (scale a7 a10)) (row (shift a7 a8 a9 a10)) (fun c => a9 (ix1 c))
    (fun c => Cert.InvStd.invStd (a10 (ix1 c))) (fun c => a7 (ix1 c)) (fun c => a8 (ix1 c))
    (fun c => row_scale a7 a10 c) (fun c => row_shift a7 a8 a9 a10 c)
    (fun c => hγ (ix1 c)) (fun c => hβ (ix1 c)) (fun c => hμ (ix1 c)) (fun c => ?_) c
  obtain ⟨y, hy, hyv⟩ := hv (ix1 c)
  obtain ⟨z, hz, hzv⟩ := Cert.InvStd.invStd_pos y hy
  exact ⟨z, hz, by rw [← hzv, ← hyv]⟩

end Cert.Bridge

end
-- ==== Proof.Domain.lean ====
/-
  WHAT THE PRECONDITION SAYS, AND WHAT IS DRAWN FROM IT.

  The precondition is one long conjunction over the nineteen input arrays: for every float array, every entry x has
  |x| < +inf (the word 0x7F800000), i.e. is finite; the batch-norm variance (the eleventh array) is >= 0 entrywise;
  and row 1 of the edge-index table (the destination node of every edge) is >= 0 entrywise, as a signed 32-bit integer.
  Each "for every entry" is a reduction by "and" from the constant 1, and the conjunction is a left-nested chain of "and"s
  whose result is required to be 1.

  At the ideal reading a float is an extended real. An extended real x with max x (-x) < +inf is neither +inf nor -inf,
  so it is a real number. Read at the four batch-norm parameter vectors this gives: scale, shift and mean are real, and
  the variance is a nonnegative real. The signed comparison with the zero word says that the integer value of every
  destination word is >= 0.

  The chain is split from the outside in, one printed part at a time, so that no step has to look at more than
  twenty-four operations.
-/
import proofs.«165086_j36945308680832_2_alg».proof.Pre_finite_inputs
import proofs.«165086_j36945308680832_2_alg».proof.Proof.Gen.Pre_finite_inputs
import Idealize.ShloMosaic.PureOps.Ideal
import Idealize.ShloMosaic.Lib.ReduceAll
import Idealize.ShloMosaic.Lib.ValueIdx

noncomputable section

namespace Cert.Domain

open Idealize.ShloMosaic Cert.Pre_finite_inputs
open Cert.Pre_finite_inputs.Facts

/-- The rank-0 shape has one index. -/
instance subsingleton_S_ : Subsingleton S_.Idx := ⟨fun a b => funext fun d => d.elim0⟩

/-! ## Elements -/

/-- The word 0x7F800000 denotes +inf. -/
theorem ofBits_inf : Ideal.ofBits .f32 0x7F800000#32 = (⊤ : EReal) := by
  simp [Ideal.ofBits, Ideal.ieee]

/-- An extended real whose absolute value is below +inf is a real number. -/
theorem real_of_abs_lt_top (x : EReal) (h : Ideal.cmp .olt (max x (-x)) (Ideal.ofBits .f32 0x7F800000#32) = 1#1) :
    ∃ y : ℝ, x = (y : EReal) := by
  rw [ofBits_inf] at h
  induction x using EReal.rec with
  | bot => simp [Ideal.cmp] at h
  | coe r => exact ⟨r, rfl⟩
  | top => simp [Ideal.cmp] at h

/-- The zero word denotes 0. -/
theorem ofBits_zero : Ideal.ofBits .f32 0x00000000#32 = (0 : EReal) := by
  simp [Ideal.ofBits, Ideal.ieee]

/-- The float comparison "x >= the zero word" says 0 <= x. -/
theorem nonneg_of_oge_zero (x : EReal) (h : Ideal.cmp .oge x (Ideal.ofBits .f32 0x00000000#32) = 1#1) : (0 : EReal) ≤ x := by
  rw [ofBits_zero] at h
  by_contra hx
  simp [Ideal.cmp, hx] at h

/-- One entry of a printed finiteness test, read back. -/
theorem finite_entry {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ y : ℝ, a i = (y : EReal) :=
  real_of_abs_lt_top (a i) h

/-- A conjunction of two rank-0 bits that is 1 has both bits 1. -/
theorem and_ix0 (x y : IVec S_ 1) (h : andi x y ValueIdx.ix0 = 1#1) : x ValueIdx.ix0 = 1#1 ∧ y ValueIdx.ix0 = 1#1 :=
  IntOp.andi_eq_one.1 h

variable [Cert.Pre_finite_inputs.Facts]

/-! ## The chain, part by part (from the last part to the first) -/

/-- Part 5: the last three conjuncts. -/
theorem part5 (a2 : IVec S2x800000 32) (a10 : FVec Ideal S256 .f32) (v83 : IVec S_ 1) (v84 : FVec Ideal S256 .f32)
    (h : fn_part5 (F := Ideal) a2 a10 v83 v84 ValueIdx.ix0 = 1#1) :
    v83 ValueIdx.ix0 = 1#1
    ∧ (∀ i : S256.Idx, Ideal.cmp .oge (a10 i) (v84 i) = 1#1)
    ∧ (∀ e : S800000.Idx, 0 ≤ ((shapeCast S800000 (extractStridedSlice S1x800000 ![1, 0] a2 slices_S2x800000_S1x800000_1_0) shapeCasts_S1x800000_S800000) e).toInt) := by
  dsimp only [fn_part5] at h
  obtain ⟨h87, h92⟩ := and_ix0 _ _ h
  obtain ⟨h83, h86⟩ := and_ix0 _ _ h87
  refine ⟨h83, fun i => Host.reduce_andi_all _ _ _ _ _ h86 i, fun e => ?_⟩
  have he := Host.reduce_andi_all _ _ _ _ _ h92 e
  exact IntOp.cmpi_sge.1 he

/-- The tail every earlier part hands on: the variance is >= 0 and the destination words are >= 0. -/
def Tail (a2 : IVec S2x800000 32) (a10 : FVec Ideal S256 .f32) : Prop :=
  (∀ i : S256.Idx, (0 : EReal) ≤ a10 i)
  ∧ (∀ e : S800000.Idx, 0 ≤ ((shapeCast S800000 (extractStridedSlice S1x800000 ![1, 0] a2 slices_S2x800000_S1x800000_1_0) shapeCasts_S1x800000_S800000) e).toInt)

/-- Part 4: four more conjuncts in front of part 5; the zero vector the variance is compared with is made here. -/
theorem part4 (a2 : IVec S2x800000 32) (a10 : FVec Ideal S256 .f32) (a16 : FVec Ideal S64 .f32) (a17 : FVec Ideal S64x128 .f32)
    (a18 : FVec Ideal S128 .f32) (v63 v67 : IVec S_ 1)
    (h : fn_part4 (F := Ideal) a2 a10 a16 a17 a18 v63 v67 ValueIdx.ix0 = 1#1) :
    v63 ValueIdx.ix0 = 1#1 ∧ Tail a2 a10 := by
  dsimp only [fn_part4] at h
  obtain ⟨h83, hvar, hidx⟩ := part5 _ _ _ _ h
  obtain ⟨h78, -⟩ := and_ix0 _ _ h83
  obtain ⟨h73, -⟩ := and_ix0 _ _ h78
  obtain ⟨h68, -⟩ := and_ix0 _ _ h73
  obtain ⟨h63, -⟩ := and_ix0 _ _ h68
  exact ⟨h63, fun i => nonneg_of_oge_zero _ (hvar i), hidx⟩

/-- Part 3: three more conjuncts in front of part 4. -/
theorem part3 (a2 : IVec S2x800000 32) (a10 : FVec Ideal S256 .f32) (a13 : FVec Ideal S128x64 .f32) (a14 : FVec Ideal S64 .f32)
    (a15 : FVec Ideal S64x64 .f32) (a16 : FVec Ideal S64 .f32) (a17 : FVec Ideal S64x128 .f32) (a18 : FVec Ideal S128 .f32)
    (v48 : IVec S_ 1) (v49 v50 : FVec Ideal S128 .f32)
    (h : fn_part3 (F := Ideal) a2 a10 a13 a14 a15 a16 a17 a18 v48 v49 v50 ValueIdx.ix0 = 1#1) :
    v48 ValueIdx.ix0 = 1#1 ∧ Tail a2 a10 := by
  dsimp only [fn_part3] at h
  obtain ⟨h63, ht⟩ := part4 _ _ _ _ _ _ _ h
  obtain ⟨h58, -⟩ := and_ix0 _ _ h63
  obtain ⟨h53, -⟩ := and_ix0 _ _ h58
  obtain ⟨h48, -⟩ := and_ix0 _ _ h53
  exact ⟨h48, ht⟩

/-- Part 2: the mean and the variance are tested finite here. -/
theorem part2 (a2 : IVec S2x800000 32) (a9 a10 : FVec Ideal S256 .f32) (a11 : FVec Ideal S256x128 .f32) (a12 : FVec Ideal S128 .f32)
    (a13 : FVec Ideal S128x64 .f32) (a14 : FVec Ideal S64 .f32) (a15 : FVec Ideal S64x64 .f32) (a16 : FVec Ideal S64 .f32)
    (a17 : FVec Ideal S64x128 .f32) (a18 : FVec Ideal S128 .f32) (v33 : IVec S_ 1)
    (h : fn_part2 (F := Ideal) a2 a9 a10 a11 a12 a13 a14 a15 a16 a17 a18 v33 ValueIdx.ix0 = 1#1) :
    v33 ValueIdx.ix0 = 1#1
    ∧ (∀ i : S256.Idx, ∃ y : ℝ, a9 i = (y : EReal))
    ∧ (∀ i : S256.Idx, ∃ y : ℝ, a10 i = (y : EReal))
    ∧ Tail a2 a10 := by
  dsimp only [fn_part2] at h
  obtain ⟨h48, ht⟩ := part3 _ _ _ _ _ _ _ _ _ _ _ h
  obtain ⟨h43, -⟩ := and_ix0 _ _ h48
  obtain ⟨h38, h42⟩ := and_ix0 _ _ h43
  obtain ⟨h33, h37⟩ := and_ix0 _ _ h38
  exact ⟨h33, fun i => finite_entry a9 _ i (Host.reduce_andi_all _ _ _ _ _ h37 i),
    fun i => finite_entry a10 _ i (Host.reduce_andi_all _ _ _ _ _ h42 i), ht⟩

/-- Part 1: the scale and the shift are tested finite here. -/
theorem part1 (a2 : IVec S2x800000 32) (a6 : FVec Ideal S192x256 .f32) (a7 a8 a9 a10 : FVec Ideal S256 .f32)
    (a11 : FVec Ideal S256x128 .f32) (a12 : FVec Ideal S128 .f32)
    (a13 : FVec Ideal S128x64 .f32) (a14 : FVec Ideal S64 .f32) (a15 : FVec Ideal S64x64 .f32) (a16 : FVec Ideal S64 .f32)
    (a17 : FVec Ideal S64x128 .f32) (a18 : FVec Ideal S128 .f32) (v13 : IVec S_ 1) (v16 : IVec S256 1)
    (h : fn_part1 (F := Ideal) a2 a6 a7 a8 a9 a10 a11 a12 a13 a14 a15 a16 a17 a18 v13 v16 ValueIdx.ix0 = 1#1) :
    (∀ i : S256.Idx, ∃ y : ℝ, a7 i = (y : EReal))
    ∧ (∀ i : S256.Idx, ∃ y : ℝ, a8 i = (y : EReal))
    ∧ (∀ i : S256.Idx, ∃ y : ℝ, a9 i = (y : EReal))
    ∧ (∀ i : S256.Idx, ∃ y : ℝ, a10 i = (y : EReal))
    ∧ Tail a2 a10 := by
  dsimp only [fn_part1] at h
  obtain ⟨h33, h9, h10, ht⟩ := part2 _ _ _ _ _ _ _ _ _ _ _ _ h
  obtain ⟨h28, h32⟩ := and_ix0 _ _ h33
  obtain ⟨-, h27⟩ := and_ix0 _ _ h28
  exact ⟨fun i => finite_entry a7 _ i (Host.reduce_andi_all _ _ _ _ _ h27 i),
    fun i => finite_entry a8 _ i (Host.reduce_andi_all _ _ _ _ _ h32 i), h9, h10, ht⟩

/-! ## The consequences -/

/-- From the precondition at the ideal reading: the batch-norm scale, shift and mean are real, the variance is a
    nonnegative real, and every destination word is >= 0 as a signed integer. -/
theorem facts_of_pre
    (a0 : FVec Ideal S50000x128 .f32) (a1 : FVec Ideal S50000x64 .f32) (a2 : IVec S2x800000 32) (a3 : IVec S50000 32)
    (a4 : FVec Ideal S192x256 .f32) (a5 : FVec Ideal S256 .f32) (a6 : FVec Ideal S192x256 .f32)
    (a7 a8 a9 a10 : FVec Ideal S256 .f32) (a11 : FVec Ideal S256x128 .f32) (a12 : FVec Ideal S128 .f32)
    (a13 : FVec Ideal S128x64 .f32) (a14 : FVec Ideal S64 .f32) (a15 : FVec Ideal S64x64 .f32) (a16 : FVec Ideal S64 .f32)
    (a17 : FVec Ideal S64x128 .f32) (a18 : FVec Ideal S128 .f32)
    (h : Cert.Pre_finite_inputs.fn (F := Ideal) a0 a1 a2 a3 a4 a5 a6 a7 a8 a9 a10 a11 a12 a13 a14 a15 a16 a17 a18 = fun _ => 1#1) :
    (∀ i : S256.Idx, ∃ y : ℝ, a7 i = (y : EReal))
    ∧ (∀ i : S256.Idx, ∃ y : ℝ, a8 i = (y : EReal))
    ∧ (∀ i : S256.Idx, ∃ y : ℝ, a9 i = (y : EReal))
    ∧ (∀ i : S256.Idx, ∃ y : ℝ, 0 ≤ y ∧ a10 i = (y : EReal))
    ∧ (∀ e : S800000.Idx, 0 ≤ ((shapeCast S800000 (extractStridedSlice S1x800000 ![1, 0] a2 slices_S2x800000_S1x800000_1_0) shapeCasts_S1x800000_S800000) e).toInt) := by
  have h0 := congrFun h ValueIdx.ix0
  dsimp only [fn] at h0
  obtain ⟨h7, h8, h9, h10, hvar, hidx⟩ := part1 _ _ _ _ _ _ _ _ _ _ _ _ _ _ _ _ h0
  refine ⟨h7, h8, h9, fun i => ?_, hidx⟩
  obtain ⟨y, hy⟩ := h10 i
  have hv := hvar i
  rw [hy] at hv
  exact ⟨y, EReal.coe_nonneg.1 hv, hy⟩

end Cert.Domain

end
-- ==== Proof.lean ====
/-
  A graph layer with mean aggregation, an evaluation-mode batch norm and a four-layer perceptron, tiled over the nodes,
  against its plain jnp form: equal results on the extended reals.

  The kernel's program gathers the source rows of the features (with a column of ones carried along) and adds them into
  the target rows in one scatter-add, then runs one body per block of 5000 nodes: the neighbourhood sums divided by the
  in-degree (at least one), two matrix products and a bias, the batch norm folded to `h·(γ·r) + (β − (μ·γ)·r)` with
  `r = rsqrt (var + ε)`, a leaky ReLU, and four dense layers each followed by a leaky ReLU. The reference does the same
  with two scatter-adds (sums and degrees) and the batch norm as `((h − μ)·r)·γ + β`.

  The precondition says every float input is finite, the variance is at least 0 (outside that the reference's `rsqrt`
  is infinite or undefined and the two arrangements of the batch norm part ways), and no target index is negative (a
  negative target is moved up by the number of nodes in the kernel's scatter-add and dropped in the reference's).

  * The three frames: the kernel's two are the generated frame certificates; the reference's is its run with the result
    dropped.
  * `preserves`: the idealization rewrote nothing.
  * `algebraic`: the kernel's result array is the array-level network of the host stages of the arguments
    (`KernelValue.run`: the body's arithmetic read at an entry, the ten blocks covering the result); the reference's is
    its composed term, read one node at a time (`RefRows`); the two are one function on the domain (`Bridge`).
-/
import proofs.«165086_j36945308680832_2_alg».proof.Defs
import proofs.«165086_j36945308680832_2_alg».proof.Proof.Gen.Kernel
import proofs.«165086_j36945308680832_2_alg».proof.Proof.Gen.Kernel.Skeleton
import proofs.«165086_j36945308680832_2_alg».proof.Proof.Gen.Kernel.Launch
import proofs.«165086_j36945308680832_2_alg».proof.Proof.Gen.Kernel.Points
import proofs.«165086_j36945308680832_2_alg».proof.Proof.Gen.Kernel.Frame
import proofs.«165086_j36945308680832_2_alg».proof.Proof.Gen.KernelIdeal
import proofs.«165086_j36945308680832_2_alg».proof.Proof.Gen.KernelIdeal.Skeleton
import proofs.«165086_j36945308680832_2_alg».proof.Proof.Gen.KernelIdeal.Launch
import proofs.«165086_j36945308680832_2_alg».proof.Proof.Gen.KernelIdeal.Points
import proofs.«165086_j36945308680832_2_alg».proof.Proof.Gen.KernelIdeal.Frame
import proofs.«165086_j36945308680832_2_alg».proof.Proof.Gen.KernelIdeal.Value
import proofs.«165086_j36945308680832_2_alg».proof.Proof.RefRun
import proofs.«165086_j36945308680832_2_alg».proof.Proof.RefRead
import proofs.«165086_j36945308680832_2_alg».proof.Proof.Gen.ReferenceIdeal
import proofs.«165086_j36945308680832_2_alg».proof.Proof.Gen.Pre_finite_inputs
import proofs.«165086_j36945308680832_2_alg».proof.Proof.KernelValue
import proofs.«165086_j36945308680832_2_alg».proof.Proof.Bridge
import proofs.«165086_j36945308680832_2_alg».proof.Proof.Domain
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame certificate. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments, on the domain, both programs end with the same result array: the
    array-level network of the kernel's host stages, which is the reference's composed term. -/
theorem algebraic : Cert.algebraic_KernelIdeal_ReferenceIdeal := by
  intro m ρ m' ρ' hpre hagree
  refine ⟨fun c => Cert.KernelValue.hostNet m c, Cert.KernelValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11, e12, e13, e14, e15, e16, e17, e18⟩ := hagree c
  obtain ⟨hγ, hβ, hμ, hv, hdst⟩ := Cert.Domain.facts_of_pre _ _ _ _ _ _ _ _ _ _ _ _ _ _ _ _ _ _ _ (hpre c)
  rw [Cert.ReferenceIdeal.ReadP.val_main_v85_eq, e0, e1, e2, e4, e5, e6, e7, e8, e9, e10, e11, e12, e13, e14, e15, e16, e17, e18]
  exact (Cert.Bridge.net_eq_reference _ _ _ _ _ _ _ _ _ _ _ _ _ _ _ _ _ _ _ _ _ _ _ _ _ _ _ _ _ hγ hβ hμ hv hdst).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
